-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  IdealRules.truncf_extf.Statement Cert.KernelIdeal.S128 .f32 .bf16
  ∧ IdealRules.truncf_extf.Statement Cert.KernelIdeal.S256x128 .f32 .bf16
  ∧ IdealRules.truncf_extf.Statement Cert.KernelIdeal.S1x128 .f32 .bf16
  ∧ IdealRules.truncf_extf.Statement Cert.KernelIdeal.S256x1 .f32 .bf16
  ∧ IdealRules.truncf_extf.Statement Cert.KernelIdeal.S128 .f32 .bf16
  ∧ IdealRules.truncf_extf.Statement Cert.KernelIdeal.S256x128 .f32 .bf16
  ∧ IdealRules.truncf_extf.Statement Cert.KernelIdeal.S1x128 .f32 .bf16
  ∧ IdealRules.truncf_extf.Statement Cert.KernelIdeal.S256x1 .f32 .bf16
  ∧ IdealRules.truncf_extf.Statement Cert.KernelIdeal.S128x128 .f32 .bf16
  ∧ IdealRules.truncf_extf.Statement Cert.KernelIdeal.S128x128 .f32 .bf16
  ∧ IdealRules.truncf_extf.Statement Cert.KernelIdeal.S256x1 .f32 .bf16
  ∧ IdealRules.truncf_extf.Statement Cert.KernelIdeal.S256x1 .f32 .bf16
  ∧ IdealRules.truncf_extf.Statement Cert.KernelIdeal.S4096x1 .f32 .bf16
  ∧ IdealRules.truncf_extf.Statement Cert.KernelIdeal.S128x128 .f32 .bf16
  ∧ IdealRules.truncf_extf.Statement Cert.KernelIdeal.S128x128 .f32 .bf16
  ∧ IdealRules.truncf_extf.Statement Cert.KernelIdeal.S256x1 .f32 .bf16
  ∧ IdealRules.truncf_extf.Statement Cert.KernelIdeal.S256x1 .f32 .bf16

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v8_2)) (v1 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v8_2) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v60) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩

class Facts : Prop where
  bcast_S_S4096x128 : S_.BroadcastsInDim S4096x128 (![] : Fin 0 → Fin S4096x128.rank)
  reducesTo_S4096x128_S_d0_1 : S4096x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S4096x4096 : S_.BroadcastsInDim S4096x4096 (![] : Fin 0 → Fin S4096x4096.rank)
  reducesTo_S4096x4096_S_d0_1 : S4096x4096.ReducesTo [0, 1] S_

variable [Facts]

def fn_part3 {F : FTy → Type} [FloatOps F] (main_arg2 : IVec S4096x4096 32) (main_v48 : IVec S_ 1) (main_v50 : IVec S4096x4096 1) : IVec S_ 1 :=
  let main_c_19 : IVec S_ 32 := constantI S_ 32 1#32
  let main_v51 : IVec S4096x4096 32 := broadcastInDim S4096x4096 ![] bcast_S_S4096x4096 main_c_19
  let main_v52 : IVec S4096x4096 1 := cmpi .eq main_arg2 main_v51
  let main_v53 : IVec S4096x4096 1 := ori main_v50 main_v52
  let main_c_20 : IVec S_ 1 := constantI S_ 1 1#1
  let main_v54 : IVec S_ 1 := (fun x v => Host.reduce IntOp.andi x v reducesTo_S4096x4096_S_d0_1 h_S_) main_v53 main_c_20
  let main_v55 : IVec S_ 1 := andi main_v48 main_v54
  main_v55

def fn_part2 {F : FTy → Type} [FloatOps F] (main_arg2 : IVec S4096x4096 32) (main_arg9 : FVec F S128x128 .f32) (main_arg10 : FVec F S128x128 .f32) (main_arg11 : FVec F S128x128 .f32) (main_v33 : IVec S_ 1) : IVec S_ 1 :=
  let main_v34 : FVec F S128x128 .f32 := Host.absf main_arg9
  let main_cst_12 : FVec F S_ .f32 := constant S_ .f32 0x7F800000#32
  let main_v35 : FVec F S128x128 .f32 := broadcastInDim S128x128 ![] bcast_S_S128x128 main_cst_12
  let main_v36 : IVec S128x128 1 := cmpf .olt main_v34 main_v35
  let main_c_13 : IVec S_ 1 := constantI S_ 1 1#1
  let main_v37 : IVec S_ 1 := (fun x v => Host.reduce IntOp.andi x v reducesTo_S128x128_S_d0_1 h_S_) main_v36 main_c_13
  let main_v38 : IVec S_ 1 := andi main_v33 main_v37
  let main_v39 : FVec F S128x128 .f32 := Host.absf main_arg10
  let main_cst_14 : FVec F S_ .f32 := constant S_ .f32 0x7F800000#32
  let main_v40 : FVec F S128x128 .f32 := broadcastInDim S128x128 ![] bcast_S_S128x128 main_cst_14
  let main_v41 : IVec S128x128 1 := cmpf .olt main_v39 main_v40
  let main_c_15 : IVec S_ 1 := constantI S_ 1 1#1
  let main_v42 : IVec S_ 1 := (fun x v => Host.reduce IntOp.andi x v reducesTo_S128x128_S_d0_1 h_S_) main_v41 main_c_15
  let main_v43 : IVec S_ 1 := andi main_v38 main_v42
  let main_v44 : FVec F S128x128 .f32 := Host.absf main_arg11
  let main_cst_16 : FVec F S_ .f32 := constant S_ .f32 0x7F800000#32
  let main_v45 : FVec F S128x128 .f32 := broadcastInDim S128x128 ![] bcast_S_S128x128 main_cst_16
  let main_v46 : IVec S128x128 1 := cmpf .olt main_v44 main_v45
  let main_c_17 : IVec S_ 1 := constantI S_ 1 1#1
  let main_v47 : IVec S_ 1 := (fun x v => Host.reduce IntOp.andi x v reducesTo_S128x128_S_d0_1 h_S_) main_v46 main_c_17
  let main_v48 : IVec S_ 1 := andi main_v43 main_v47
  let main_c_18 : IVec S_ 32 := constantI S_ 32 0#32
  let main_v49 : IVec S4096x4096 32 := broadcastInDim S4096x4096 ![] bcast_S_S4096x4096 main_c_18
  let main_v50 : IVec S4096x4096 1 := cmpi .eq main_arg2 main_v49
  fn_part3 (F := F) main_arg2 main_v48 main_v50

def fn_part1 {F : FTy → Type} [FloatOps F] (main_arg2 : IVec S4096x4096 32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg6
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128x128 .f32 := Host.absf main_arg7
  let main_cst_8 : FVec F S_ .f32 := constant S_ .f32 0x7F800000#32
  let main_v25 : FVec F S128x128 .f32 := broadcastInDim S128x128 ![] bcast_S_S128x128 main_cst_8
  let main_v26 : IVec S128x128 1 := cmpf .olt main_v24 main_v25
  let main_c_9 : IVec S_ 1 := constantI S_ 1 1#1
  let main_v27 : IVec S_ 1 := (fun x v => Host.reduce IntOp.andi x v reducesTo_S128x128_S_d0_1 h_S_) main_v26 main_c_9
  let main_v28 : IVec S_ 1 := andi main_v23 main_v27
  let main_v29 : FVec F S128x128 .f32 := Host.absf main_arg8
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg2 main_arg9 main_arg10 main_arg11 main_v33

def fn {F : FTy → Type} [FloatOps F] (main_arg0 : FVec F S4096x128 .f32) (main_arg1 : FVec F S4096x128 .f32) (main_arg2 : IVec S4096x4096 32) (main_arg3 : IVec S4096x4096 32) (main_arg4 : FVec F S128x128 .f32) (main_arg5 : FVec F S128x128 .f32) (main_arg6 : FVec F S128x128 .f32) (main_arg7 : FVec F S128x128 .f32) (main_arg8 : FVec F S128x128 .f32) (main_arg9 : FVec F S128x128 .f32) (main_arg10 : FVec F S128x128 .f32) (main_arg11 : FVec F S128x128 .f32) : IVec S_ 1 :=
  let main_v0 : FVec F S4096x128 .f32 := Host.absf main_arg0
  let main_cst : FVec F S_ .f32 := constant S_ .f32 0x7F800000#32
  let main_v1 : FVec F S4096x128 .f32 := broadcastInDim S4096x128 ![] bcast_S_S4096x128 main_cst
  let main_v2 : IVec S4096x128 1 := cmpf .olt main_v0 main_v1
  let main_c : IVec S_ 1 := constantI S_ 1 1#1
  let main_v3 : IVec S_ 1 := (fun x v => Host.reduce IntOp.andi x v reducesTo_S4096x128_S_d0_1 h_S_) main_v2 main_c
  let main_v4 : FVec F S4096x128 .f32 := Host.absf main_arg1
  let main_cst_0 : FVec F S_ .f32 := constant S_ .f32 0x7F800000#32
  let main_v5 : FVec F S4096x128 .f32 := broadcastInDim S4096x128 ![] bcast_S_S4096x128 main_cst_0
  let main_v6 : IVec S4096x128 1 := cmpf .olt main_v4 main_v5
  let main_c_1 : IVec S_ 1 := constantI S_ 1 1#1
  let main_v7 : IVec S_ 1 := (fun x v => Host.reduce IntOp.andi x v reducesTo_S4096x128_S_d0_1 h_S_) main_v6 main_c_1
  let main_v8 : IVec S_ 1 := andi main_v3 main_v7
  let main_v9 : FVec F S128x128 .f32 := Host.absf main_arg4
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg2 main_arg6 main_arg7 main_arg8 main_arg9 main_arg10 main_arg11 main_v13 main_v16
-- ==== Kernel.lean ====
abbrev S4096x128 : Shape := ⟨2, ![4096, 128]⟩
abbrev S4096x4096 : Shape := ⟨2, ![4096, 4096]⟩
abbrev S128x128 : Shape := ⟨2, ![128, 128]⟩
abbrev S4096x1 : Shape := ⟨2, ![4096, 1]⟩
abbrev S4096 : Shape := ⟨1, ![4096]⟩
abbrev S1x4096 : Shape := ⟨2, ![1, 4096]⟩
abbrev S256x4096 : Shape := ⟨2, ![256, 4096]⟩
abbrev S256x128 : Shape := ⟨2, ![256, 128]⟩
abbrev S256x1 : Shape := ⟨2, ![256, 1]⟩
abbrev S256 : Shape := ⟨1, ![256]⟩
abbrev S1x128 : Shape := ⟨2, ![1, 128]⟩
abbrev S128 : Shape := ⟨1, ![128]⟩
abbrev S1 : Shape := ⟨1, ![1]⟩
abbrev S1x1 : Shape := ⟨2, ![1, 1]⟩

abbrev nBuf : Space → Nat
  | .hbm => 26
  | .vmem => 42
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .i32⟩
  | .hbm, ⟨3, _⟩ => ⟨S4096x4096, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S4096x1, .f32⟩
  | .hbm, ⟨13, _⟩ => ⟨S4096, .f32⟩
  | .hbm, ⟨14, _⟩ => ⟨S1x4096, .f32⟩
  | .hbm, ⟨15, _⟩ => ⟨S4096x1, .f32⟩
  | .hbm, ⟨16, _⟩ => ⟨S4096, .f32⟩
  | .hbm, ⟨17, _⟩ => ⟨S1x4096, .f32⟩
  | .hbm, ⟨18, _⟩ => ⟨S4096x1, .f32⟩
  | .hbm, ⟨19, _⟩ => ⟨S4096x1, .f32⟩
  | .hbm, ⟨20, _⟩ => ⟨S4096x4096, .bf16⟩
  | .hbm, ⟨21, _⟩ => ⟨S1x4096, .f32⟩
  | .hbm, ⟨22, _⟩ => ⟨S4096x1, .f32⟩
  | .hbm, ⟨23, _⟩ => ⟨S4096x1, .f32⟩
  | .hbm, ⟨24, _⟩ => ⟨S4096x128, .f32⟩
  | .hbm, ⟨25, _⟩ => ⟨S4096x128, .f32⟩
  | .local _ .vmem, ⟨0, _⟩ => ⟨S256x4096, .i32⟩
  | .local _ .vmem, ⟨1, _⟩ => ⟨S256x4096, .i32⟩
  | .local _ .vmem, ⟨2, _⟩ => ⟨S1x4096, .f32⟩
  | .local _ .vmem, ⟨3, _⟩ => ⟨S256x128, .f32⟩
  | .local _ .vmem, ⟨4, _⟩ => ⟨S256x128, .f32⟩
  | .local _ .vmem, ⟨5, _⟩ => ⟨S128x128, .f32⟩
  | .local _ .vmem, ⟨6, _⟩ => ⟨S128x128, .f32⟩
  | .local _ .vmem, ⟨7, _⟩ => ⟨S256x1, .f32⟩
  | .local _ .vmem, ⟨8, _⟩ => ⟨S256x1, .f32⟩
  | .local _ .vmem, ⟨9, _⟩ => ⟨S256x1, .f32⟩
  | .local _ .vmem, ⟨10, _⟩ => ⟨S256x1, .f32⟩
  | .local _ .vmem, ⟨11, _⟩ => ⟨S256x4096, .bf16⟩
  | .local _ .vmem, ⟨12, _⟩ => ⟨S256x4096, .bf16⟩
  | .local _ .vmem, ⟨13, _⟩ => ⟨S256x4096, .i32⟩
  | .local _ .vmem, ⟨14, _⟩ => ⟨S256x4096, .i32⟩
  | .local _ .vmem, ⟨15, _⟩ => ⟨S1x4096, .f32⟩
  | .local _ .vmem, ⟨16, _⟩ => ⟨S1x4096, .f32⟩
  | .local _ .vmem, ⟨17, _⟩ => ⟨S256x128, .f32⟩
  | .local _ .vmem, ⟨18, _⟩ => ⟨S256x128, .f32⟩
  | .local _ .vmem, ⟨19, _⟩ => ⟨S128x128, .f32⟩
  | .local _ .vmem, ⟨20, _⟩ => ⟨S128x128, .f32⟩
  | .local _ .vmem, ⟨21, _⟩ => ⟨S128x128, .f32⟩
  | .local _ .vmem, ⟨22, _⟩ => ⟨S128x128, .f32⟩
  | .local _ .vmem, ⟨23, _⟩ => ⟨S256x1, .f32⟩
  | .local _ .vmem, ⟨24, _⟩ => ⟨S256x1, .f32⟩
  | .local _ .vmem, ⟨25, _⟩ => ⟨S256x1, .f32⟩
  | .local _ .vmem, ⟨26, _⟩ => ⟨S256x1, .f32⟩
  | .local _ .vmem, ⟨27, _⟩ => ⟨S256x128, .f32⟩
  | .local _ .vmem, ⟨28, _⟩ => ⟨S256x128, .f32⟩
  | .local _ .vmem, ⟨29, _⟩ => ⟨S256x4096, .bf16⟩
  | .local _ .vmem, ⟨30, _⟩ => ⟨S256x4096, .bf16⟩
  | .local _ .vmem, ⟨31, _⟩ => ⟨S4096x1, .f32⟩
  | .local _ .vmem, ⟨32, _⟩ => ⟨S256x128, .f32⟩
  | .local _ .vmem, ⟨33, _⟩ => ⟨S256x128, .f32⟩
  | .local _ .vmem, ⟨34, _⟩ => ⟨S256x1, .f32⟩
  | .local _ .vmem, ⟨35, _⟩ => ⟨S256x1, .f32⟩
  | .local _ .vmem, ⟨36, _⟩ => ⟨S128x128, .f32⟩
  | .local _ .vmem, ⟨37, _⟩ => ⟨S128x128, .f32⟩
  | .local _ .vmem, ⟨38, _⟩ => ⟨S128x128, .f32⟩
  | .local _ .vmem, ⟨39, _⟩ => ⟨S128x128, .f32⟩
  | .local _ .vmem, ⟨40, _⟩ => ⟨S256x128, .f32⟩
  | .local _ .vmem, ⟨41, _⟩ => ⟨S256x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | _, _ => false

abbrev semScoped : Fin 0 → Bool
  | ⟨_, h⟩ => absurd h (Nat.not_lt_zero _)

abbrev dmaSemScoped : Fin 42 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | _ => false

abbrev sig : RefSig :=
  ofTc nBuf bufTy 0 42 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6_0 : Ref sig .tc := ⟨.hbm, 18, rfl⟩
abbrev main_v6_1 : Ref sig .tc := ⟨.hbm, 19, rfl⟩
abbrev main_v6_2 : Ref sig .tc := ⟨.hbm, 20, rfl⟩
abbrev main_v7 : Ref sig .tc := ⟨.hbm, 21, rfl⟩
abbrev main_v8_0 : Ref sig .tc := ⟨.hbm, 22, rfl⟩
abbrev main_v8_1 : Ref sig .tc := ⟨.hbm, 23, rfl⟩
abbrev main_v8_2 : Ref sig .tc := ⟨.hbm, 24, rfl⟩
abbrev main_v9 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg2_0 : Ref sig .tc := ⟨.vmem, 16, rfl⟩
abbrev cc1_stg3_0 : Ref sig .tc := ⟨.vmem, 17, rfl⟩
abbrev cc1_stg3_1 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg6_0 : Ref sig .tc := ⟨.vmem, 21, rfl⟩
abbrev cc1_stg7_0 : Ref sig .tc := ⟨.vmem, 22, rfl⟩
abbrev cc1_stg8_0 : Ref sig .tc := ⟨.vmem, 23, rfl⟩
abbrev cc1_stg8_1 : Ref sig .tc := ⟨.vmem, 24, rfl⟩
abbrev cc1_stg9_0 : Ref sig .tc := ⟨.vmem, 25, rfl⟩
abbrev cc1_stg9_1 : Ref sig .tc := ⟨.vmem, 26, rfl⟩
abbrev cc1_stg10_0 : Ref sig .tc := ⟨.vmem, 27, rfl⟩
abbrev cc1_stg10_1 : Ref sig .tc := ⟨.vmem, 28, rfl⟩
abbrev cc2_stg0_0 : Ref sig .tc := ⟨.vmem, 29, rfl⟩
abbrev cc2_stg0_1 : Ref sig .tc := ⟨.vmem, 30, rfl⟩
abbrev cc2_stg1_0 : Ref sig .tc := ⟨.vmem, 31, rfl⟩
abbrev cc2_stg2_0 : Ref sig .tc := ⟨.vmem, 32, rfl⟩
abbrev cc2_stg2_1 : Ref sig .tc := ⟨.vmem, 33, rfl⟩
abbrev cc2_stg3_0 : Ref sig .tc := ⟨.vmem, 34, rfl⟩
abbrev cc2_stg3_1 : Ref sig .tc := ⟨.vmem, 35, rfl⟩
abbrev cc2_stg4_0 : Ref sig .tc := ⟨.vmem, 36, rfl⟩
abbrev cc2_stg5_0 : Ref sig .tc := ⟨.vmem, 37, rfl⟩
abbrev cc2_stg6_0 : Ref sig .tc := ⟨.vmem, 38, rfl⟩
abbrev cc2_stg7_0 : Ref sig .tc := ⟨.vmem, 39, rfl⟩
abbrev cc2_stg8_0 : Ref sig .tc := ⟨.vmem, 40, rfl⟩
abbrev cc2_stg8_1 : Ref sig .tc := ⟨.vmem, 41, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10
abbrev cc0_sem7_0 : DmaSem sig := 11
abbrev cc0_sem7_1 : DmaSem sig := 12
abbrev cc1_sem0_0 : DmaSem sig := 13
abbrev cc1_sem0_1 : DmaSem sig := 14
abbrev cc1_sem1_0 : DmaSem sig := 15
abbrev cc1_sem2_0 : DmaSem sig := 16
abbrev cc1_sem3_0 : DmaSem sig := 17
abbrev cc1_sem3_1 : DmaSem sig := 18
abbrev cc1_sem4_0 : DmaSem sig := 19
abbrev cc1_sem5_0 : DmaSem sig := 20
abbrev cc1_sem6_0 : DmaSem sig := 21
abbrev cc1_sem7_0 : DmaSem sig := 22
abbrev cc1_sem8_0 : DmaSem sig := 23
abbrev cc1_sem8_1 : DmaSem sig := 24
abbrev cc1_sem9_0 : DmaSem sig := 25
abbrev cc1_sem9_1 : DmaSem sig := 26
abbrev cc1_sem10_0 : DmaSem sig := 27
abbrev cc1_sem10_1 : DmaSem sig := 28
abbrev cc2_sem0_0 : DmaSem sig := 29
abbrev cc2_sem0_1 : DmaSem sig := 30
abbrev cc2_sem1_0 : DmaSem sig := 31
abbrev cc2_sem2_0 : DmaSem sig := 32
abbrev cc2_sem2_1 : DmaSem sig := 33
abbrev cc2_sem3_0 : DmaSem sig := 34
abbrev cc2_sem3_1 : DmaSem sig := 35
abbrev cc2_sem4_0 : DmaSem sig := 36
abbrev cc2_sem5_0 : DmaSem sig := 37
abbrev cc2_sem6_0 : DmaSem sig := 38
abbrev cc2_sem7_0 : DmaSem sig := 39
abbrev cc2_sem8_0 : DmaSem sig := 40
abbrev cc2_sem8_1 : DmaSem sig := 41

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x1 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4096 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![16], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_8 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_9 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_10 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S256x4096 .i32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x4096 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 1 → Memref sig .tc .vmem S1x4096 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 2 → Memref sig .tc .vmem S256x128 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S128x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S128x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 1 → Memref sig .tc .vmem S128x128 .f32 := fun | 0 => Memref.whole cc1_stg7_0 | ⟨_ + 1, h⟩ => absurd h (Nat.not_lt.2 (Nat.le_add_left _ _))
abbrev sem1_7 : Fin 1 → DmaSem sig := fun | 0 => cc1_sem7_0 | ⟨_ + 1, h⟩ => absurd h (Nat.not_lt.2 (Nat.le_add_left _ _))
abbrev reads1_7 : Fin grid1.rank → Bool := ![false]

abbrev stage1_8 : Fin 2 → Memref sig .tc .vmem S256x1 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true]

abbrev stage1_9 : Fin 2 → Memref sig .tc .vmem S256x1 .f32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true]

abbrev stage1_10 : Fin 2 → Memref sig .tc .vmem S256x128 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true]

abbrev grid2 : Pipeline.Grid := ⟨1, ![16], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_6 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_7 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_8 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S256x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S4096x1 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S256x128 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 2 → Memref sig .tc .vmem S256x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 1 → Memref sig .tc .vmem S128x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 1 → Memref sig .tc .vmem S128x128 .f32 := fun | 0 => Memref.whole cc2_stg5_0 | ⟨_ + 1, h⟩ => absurd h (Nat.not_lt.2 (Nat.le_add_left _ _))
abbrev sem2_5 : Fin 1 → DmaSem sig := fun | 0 => cc2_sem5_0 | ⟨_ + 1, h⟩ => absurd h (Nat.not_lt.2 (Nat.le_add_left _ _))
abbrev reads2_5 : Fin grid2.rank → Bool := ![false]

abbrev stage2_6 : Fin 1 → Memref sig .tc .vmem S128x128 .f32 := fun | 0 => Memref.whole cc2_stg6_0 | ⟨_ + 1, h⟩ => absurd h (Nat.not_lt.2 (Nat.le_add_left _ _))
abbrev sem2_6 : Fin 1 → DmaSem sig := fun | 0 => cc2_sem6_0 | ⟨_ + 1, h⟩ => absurd h (Nat.not_lt.2 (Nat.le_add_left _ _))
abbrev reads2_6 : Fin grid2.rank → Bool := ![false]

abbrev stage2_7 : Fin 1 → Memref sig .tc .vmem S128x128 .f32 := fun | 0 => Memref.whole cc2_stg7_0 | ⟨_ + 1, h⟩ => absurd h (Nat.not_lt.2 (Nat.le_add_left _ _))
abbrev sem2_7 : Fin 1 → DmaSem sig := fun | 0 => cc2_sem7_0 | ⟨_ + 1, h⟩ => absurd h (Nat.not_lt.2 (Nat.le_add_left _ _))
abbrev reads2_7 : Fin grid2.rank → Bool := ![false]

abbrev stage2_8 : Fin 2 → Memref sig .tc .vmem S256x128 .f32 := fun | 0 => Memref.whole cc2_stg8_0 | 1 => Memref.whole cc2_stg8_1 | ⟨_ + 2, h⟩ => absurd h (Nat.not_lt.2 (Nat.le_add_left _ _))
abbrev sem2_8 : Fin 2 → DmaSem sig := fun | 0 => cc2_sem8_0 | 1 => cc2_sem8_1 | ⟨_ + 2, h⟩ => absurd h (Nat.not_lt.2 (Nat.le_add_left _ _))
abbrev reads2_8 : Fin grid2.rank → Bool := ![true]

class Facts₀ : Prop where
  slices_S4096x128_S4096x1_0_0 : S4096x128.Slices ![0, 0] S4096x1
  shapeCasts_S4096x1_S4096 : S4096x1.ShapeCasts S4096
  shapeCasts_S4096_S1x4096 : S4096.ShapeCasts S1x4096
  inb_S256x4096_S256x4096_0_0 : ∀ a, (![0, 0] : Fin 2 → Nat) a + S256x4096.size a ≤ S256x4096.size a
  h_S256x4096 : 0 < S256x4096.numel
  inb_S1x4096_S1x4096_0_0 : ∀ a, (![0, 0] : Fin 2 → Nat) a + S1x4096.size a ≤ S1x4096.size a
  h_S1x4096 : 0 < S1x4096.numel
  shapeCasts_S1x4096_S1x4096 : S1x4096.ShapeCasts S1x4096
  broadcasts_S1x4096_S256x4096 : S1x4096.Broadcasts S256x4096
  reduces_S256x4096_S256 : S256x4096.Reduces [1] S256
  shapeCasts_S256_S256x1 : S256.ShapeCasts S256x1
  inb_S256x1_S256x1_0_0 : ∀ a, (![0, 0] : Fin 2 → Nat) a + S256x1.size a ≤ S256x1.size a
  h_S256x1 : 0 < S256x1.numel
  inb_S128x128_S1x128_0_0 : ∀ a, (![0, 0] : Fin 2 → Nat) a + S1x128.size a ≤ S128x128.size a
  h_S1x128 : 0 < S1x128.numel
  shapeCasts_S1x128_S128 : S1x128.ShapeCasts S128
  bitsLt_bf16_f32 : FTy.bits .bf16 < FTy.bits .f32
  shapeCasts_S128_S1x128 : S128.ShapeCasts S1x128
  reduces_S1x128_S1 : S1x128.Reduces [1] S1
  shapeCasts_S1_S1x1 : S1.ShapeCasts S1x1
  inpos_S1x1_p0_0 : ∀ a, (![0, 0] : Fin 2 → Nat) a < S1x1.size a
  inb_S256x128_S256x128_0_0 : ∀ a, (![0, 0] : Fin 2 → Nat) a + S256x128.size a ≤ S256x128.size a
  h_S256x128 : 0 < S256x128.numel
  broadcasts_S1x128_S256x128 : S1x128.Broadcasts S256x128
  reduces_S256x128_S256 : S256x128.Reduces [1] S256
  packedbf16_S256x4096_S256x4096_0_0 : (Rect.unit (s := S256x4096) ![0, 0] S256x4096.size inb_S256x4096_S256x4096_0_0).PackedRows (EltTy.packing .bf16)
  shapeCasts_S4096x1_S1x4096 : S4096x1.ShapeCasts S1x4096
  inb_S128x128_S128x128_0_0 : ∀ a, (![0, 0] : Fin 2 → Nat) a + S128x128.size a ≤ S128x128.size a
  h_S128x128 : 0 < S128x128.numel
  reduces_S128x128_S128 : S128x128.Reduces [1] S128
  broadcasts_S256x1_S256x128 : S256x1.Broadcasts S256x128
  inb_S4096x1_S4096x1_0_0 : ∀ a, (![0, 0] : Fin 2 → Nat) a + S4096x1.size a ≤ S4096x1.size a
  h_S4096x1 : 0 < S4096x1.numel
  shapeCasts_S4096x1_S4096x1 : S4096x1.ShapeCasts S4096x1
  shapeCasts_S256x4096_S256x4096 : S256x4096.ShapeCasts S256x4096
  shapeCasts_S256x1_S256x1 : S256x1.ShapeCasts S256x1
  dot_S256x128_S128x128_S256x128_1_1_0_0_n_n_wf : DotDims.WF S256x128 S128x128 S256x128 [1] [1] [0] [0] [] []
  dot_S256x4096_S4096x1_S256x1_1_0_0_1_n_n_wf : DotDims.WF S256x4096 S4096x1 S256x1 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x4096.size a ≤ S4096x4096.size a
  hwx0_0 : ∀ i : grid0.Coords, EltTy.bits .i32 = 32 ∨ (Rect.block (s := S4096x4096) S256x4096.size (cc0_transform_0 i) (hinb0_0 i)).WholeWords (EltTy.packing .i32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1x4096.size a ≤ S1x4096.size a
  hwx0_1 : ∀ i : grid0.Coords, EltTy.bits .f32 = 32 ∨ (Rect.block (s := S1x4096) S1x4096.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x128.size a ≤ S4096x128.size a
  hwx0_2 : ∀ i : grid0.Coords, EltTy.bits .f32 = 32 ∨ (Rect.block (s := S4096x128) S256x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S256x1.size a ≤ S4096x1.size a
  hwx0_5 : ∀ i : grid0.Coords, EltTy.bits .f32 = 32 ∨ (Rect.block (s := S4096x1) S256x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S256x1.size a ≤ S4096x1.size a
  hwx0_6 : ∀ i : grid0.Coords, EltTy.bits .f32 = 32 ∨ (Rect.block (s := S4096x1) S256x1.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S256x4096.size a ≤ S4096x4096.size a
  hwx0_7 : ∀ i : grid0.Coords, EltTy.bits .bf16 = 32 ∨ (Rect.block (s := S4096x4096) S256x4096.size (cc0_transform_7 i) (hinb0_7 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S256x4096.size a ≤ S4096x4096.size a
  hwx1_0 : ∀ i : grid1.Coords, EltTy.bits .i32 = 32 ∨ (Rect.block (s := S4096x4096) S256x4096.size (cc1_transform_0 i) (hinb1_0 i)).WholeWords (EltTy.packing .i32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x4096.size a ≤ S1x4096.size a
  hwx1_1 : ∀ i : grid1.Coords, EltTy.bits .f32 = 32 ∨ (Rect.block (s := S1x4096) S1x4096.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x4096.size a ≤ S1x4096.size a
  hwx1_2 : ∀ i : grid1.Coords, EltTy.bits .f32 = 32 ∨ (Rect.block (s := S1x4096) S1x4096.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S256x128.size a ≤ S4096x128.size a
  hwx1_3 : ∀ i : grid1.Coords, EltTy.bits .f32 = 32 ∨ (Rect.block (s := S4096x128) S256x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S128x128.size a ≤ S128x128.size a
  hwx1_5 : ∀ i : grid1.Coords, EltTy.bits .f32 = 32 ∨ (Rect.block (s := S128x128) S128x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S128x128.size a ≤ S128x128.size a
  hwx1_6 : ∀ i : grid1.Coords, EltTy.bits .f32 = 32 ∨ (Rect.block (s := S128x128) S128x128.size (cc1_transform_6 i) (hinb1_6 i)).WholeWords (EltTy.packing .f32)
  hstage1_7 : ∀ j, (stage1_7 j).IsWhole
  nbuf1_7 : grid1.bufCount reads1_7 true = 1
  hreads1_7 : ∀ i i' : grid1.Coords, (∀ a, reads1_7 a = true → i a = i' a) → cc1_transform_7 i = cc1_transform_7 i'
  hinb1_7 : ∀ (i : grid1.Coords) a, (cc1_transform_7 i a + 1) * S128x128.size a ≤ S128x128.size a
  hwx1_7 : ∀ i : grid1.Coords, EltTy.bits .f32 = 32 ∨ (Rect.block (s := S128x128) S128x128.size (cc1_transform_7 i) (hinb1_7 i)).WholeWords (EltTy.packing .f32)
  hstage1_8 : ∀ j, (stage1_8 j).IsWhole
  nbuf1_8 : grid1.bufCount reads1_8 false = 2
  hreads1_8 : ∀ i i' : grid1.Coords, (∀ a, reads1_8 a = true → i a = i' a) → cc1_transform_8 i = cc1_transform_8 i'
  hinb1_8 : ∀ (i : grid1.Coords) a, (cc1_transform_8 i a + 1) * S256x1.size a ≤ S4096x1.size a
  hwx1_8 : ∀ i : grid1.Coords, EltTy.bits .f32 = 32 ∨ (Rect.block (s := S4096x1) S256x1.size (cc1_transform_8 i) (hinb1_8 i)).WholeWords (EltTy.packing .f32)
  hstage1_9 : ∀ j, (stage1_9 j).IsWhole
  nbuf1_9 : grid1.bufCount reads1_9 false = 2
  hreads1_9 : ∀ i i' : grid1.Coords, (∀ a, reads1_9 a = true → i a = i' a) → cc1_transform_9 i = cc1_transform_9 i'
  hinb1_9 : ∀ (i : grid1.Coords) a, (cc1_transform_9 i a + 1) * S256x1.size a ≤ S4096x1.size a
  hwx1_9 : ∀ i : grid1.Coords, EltTy.bits .f32 = 32 ∨ (Rect.block (s := S4096x1) S256x1.size (cc1_transform_9 i) (hinb1_9 i)).WholeWords (EltTy.packing .f32)
  hstage1_10 : ∀ j, (stage1_10 j).IsWhole
  nbuf1_10 : grid1.bufCount reads1_10 false = 2
  hreads1_10 : ∀ i i' : grid1.Coords, (∀ a, reads1_10 a = true → i a = i' a) → cc1_transform_10 i = cc1_transform_10 i'
  hinb1_10 : ∀ (i : grid1.Coords) a, (cc1_transform_10 i a + 1) * S256x128.size a ≤ S4096x128.size a
  hwx1_10 : ∀ i : grid1.Coords, EltTy.bits .f32 = 32 ∨ (Rect.block (s := S4096x128) S256x128.size (cc1_transform_10 i) (hinb1_10 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S256x4096.size a ≤ S4096x4096.size a
  hwx2_0 : ∀ i : grid2.Coords, EltTy.bits .bf16 = 32 ∨ (Rect.block (s := S4096x4096) S256x4096.size (cc2_transform_0 i) (hinb2_0 i)).WholeWords (EltTy.packing .bf16)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S4096x1.size a ≤ S4096x1.size a
  hwx2_1 : ∀ i : grid2.Coords, EltTy.bits .f32 = 32 ∨ (Rect.block (s := S4096x1) S4096x1.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S256x128.size a ≤ S4096x128.size a
  hwx2_2 : ∀ i : grid2.Coords, EltTy.bits .f32 = 32 ∨ (Rect.block (s := S4096x128) S256x128.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S256x1.size a ≤ S4096x1.size a
  hwx2_3 : ∀ i : grid2.Coords, EltTy.bits .f32 = 32 ∨ (Rect.block (s := S4096x1) S256x1.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S128x128.size a ≤ S128x128.size a
  hwx2_4 : ∀ i : grid2.Coords, EltTy.bits .f32 = 32 ∨ (Rect.block (s := S128x128) S128x128.size (cc2_transform_4 i) (hinb2_4 i)).WholeWords (EltTy.packing .f32)
  hstage2_5 : ∀ j, (stage2_5 j).IsWhole
  nbuf2_5 : grid2.bufCount reads2_5 true = 1
  hreads2_5 : ∀ i i' : grid2.Coords, (∀ a, reads2_5 a = true → i a = i' a) → cc2_transform_5 i = cc2_transform_5 i'
  hinb2_5 : ∀ (i : grid2.Coords) a, (cc2_transform_5 i a + 1) * S128x128.size a ≤ S128x128.size a
  hwx2_5 : ∀ i : grid2.Coords, EltTy.bits .f32 = 32 ∨ (Rect.block (s := S128x128) S128x128.size (cc2_transform_5 i) (hinb2_5 i)).WholeWords (EltTy.packing .f32)
  hstage2_6 : ∀ j, (stage2_6 j).IsWhole
  nbuf2_6 : grid2.bufCount reads2_6 true = 1
  hreads2_6 : ∀ i i' : grid2.Coords, (∀ a, reads2_6 a = true → i a = i' a) → cc2_transform_6 i = cc2_transform_6 i'
  hinb2_6 : ∀ (i : grid2.Coords) a, (cc2_transform_6 i a + 1) * S128x128.size a ≤ S128x128.size a
  hwx2_6 : ∀ i : grid2.Coords, EltTy.bits .f32 = 32 ∨ (Rect.block (s := S128x128) S128x128.size (cc2_transform_6 i) (hinb2_6 i)).WholeWords (EltTy.packing .f32)
  hstage2_7 : ∀ j, (stage2_7 j).IsWhole
  nbuf2_7 : grid2.bufCount reads2_7 true = 1
  hreads2_7 : ∀ i i' : grid2.Coords, (∀ a, reads2_7 a = true → i a = i' a) → cc2_transform_7 i = cc2_transform_7 i'
  hinb2_7 : ∀ (i : grid2.Coords) a, (cc2_transform_7 i a + 1) * S128x128.size a ≤ S128x128.size a
  hwx2_7 : ∀ i : grid2.Coords, EltTy.bits .f32 = 32 ∨ (Rect.block (s := S128x128) S128x128.size (cc2_transform_7 i) (hinb2_7 i)).WholeWords (EltTy.packing .f32)
  hstage2_8 : ∀ j, (stage2_8 j).IsWhole
  nbuf2_8 : grid2.bufCount reads2_8 false = 2
  hreads2_8 : ∀ i i' : grid2.Coords, (∀ a, reads2_8 a = true → i a = i' a) → cc2_transform_8 i = cc2_transform_8 i'
  hinb2_8 : ∀ (i : grid2.Coords) a, (cc2_transform_8 i a + 1) * S256x128.size a ≤ S4096x128.size a
  hwx2_8 : ∀ i : grid2.Coords, EltTy.bits .f32 = 32 ∨ (Rect.block (s := S4096x128) S256x128.size (cc2_transform_8 i) (hinb2_8 i)).WholeWords (EltTy.packing .f32)

variable [Facts₀]

def dot_S256x128_S128x128_S256x128_1_1_0_0_n_n : DotDims S256x128 S128x128 S256x128 where
  lhsContracting := [1]
  rhsContracting := [1]
  lhsNonContracting := [0]
  rhsNonContracting := [0]
  lhsBatch := []
  rhsBatch := []
  wf := dot_S256x128_S128x128_S256x128_1_1_0_0_n_n_wf
def dot_S256x4096_S4096x1_S256x1_1_0_0_1_n_n : DotDims S256x4096 S4096x1 S256x1 where
  lhsContracting := [1]
  rhsContracting := [0]
  lhsNonContracting := [0]
  rhsNonContracting := [1]
  lhsBatch := []
  rhsBatch := []
  wf := dot_S256x4096_S4096x1_S256x1_1_0_0_1_n_n_wf

abbrev win0_0 : Pipeline.Window sig grid0 :=
  Pipeline.Window.ofSpec (Memref.whole main_arg2) S256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1x4096.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg1) S256x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg6) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg7) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6_0) S256x1.size cc0_transform_5 reads0_5 true false 2 stage0_5 sem0_5
    hrank0 hreads0_5 hinb0_5 nbuf0_5 (Memref.isWhole_whole _) hwx0_5 hstage0_5

abbrev win0_6 : Pipeline.Window sig grid0 :=
  Pipeline.Window.ofSpec (Memref.whole main_v6_1) S256x1.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v6_2) S256x4096.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg3) S256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v5) S1x4096.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v7) S1x4096.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_arg0) S256x128.size cc1_transform_3 reads1_3 false false 2 stage1_3 sem1_3
    hrank1 hreads1_3 hinb1_3 nbuf1_3 (Memref.isWhole_whole _) hwx1_3 hstage1_3

abbrev win1_4 : Pipeline.Window sig grid1 :=
  Pipeline.Window.ofSpec (Memref.whole main_arg4) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_arg5) S128x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_arg8) S128x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_arg9) S128x128.size cc1_transform_7 reads1_7 false true 1 stage1_7 sem1_7
    hrank1 hreads1_7 hinb1_7 nbuf1_7 (Memref.isWhole_whole _) hwx1_7 hstage1_7

abbrev win1_8 : Pipeline.Window sig grid1 :=
  Pipeline.Window.ofSpec (Memref.whole main_v8_0) S256x1.size cc1_transform_8 reads1_8 true false 2 stage1_8 sem1_8
    hrank1 hreads1_8 hinb1_8 nbuf1_8 (Memref.isWhole_whole _) hwx1_8 hstage1_8

abbrev win1_9 : Pipeline.Window sig grid1 :=
  Pipeline.Window.ofSpec (Memref.whole main_v8_1) S256x1.size cc1_transform_9 reads1_9 true false 2 stage1_9 sem1_9
    hrank1 hreads1_9 hinb1_9 nbuf1_9 (Memref.isWhole_whole _) hwx1_9 hstage1_9

abbrev win1_10 : Pipeline.Window sig grid1 :=
  Pipeline.Window.ofSpec (Memref.whole main_v8_2) S256x128.size cc1_transform_10 reads1_10 true false 2 stage1_10 sem1_10
    hrank1 hreads1_10 hinb1_10 nbuf1_10 (Memref.isWhole_whole _) hwx1_10 hstage1_10

abbrev win1 : Fin 11 → Pipeline.Window sig grid1 := fun | 0 => win1_0 | 1 => win1_1 | 2 => win1_2 | 3 => win1_3 | 4 => win1_4 | 5 => win1_5 | 6 => win1_6 | 7 => win1_7 | 8 => win1_8 | 9 => win1_9 | 10 => win1_10 | ⟨_ + 11, h⟩ => absurd h (Nat.not_lt.2 (Nat.le_add_left _ _))
abbrev spec1 : Fin 11 → Pipeline.WinSpec sig grid1.rank := fun w => (win1 w).toWinSpec

abbrev win2_0 : Pipeline.Window sig grid2 :=
  Pipeline.Window.ofSpec (Memref.whole main_v6_2) S256x4096.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v8_1) S4096x1.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg1) S256x128.size cc2_transform_2 reads2_2 false false 2 stage2_2 sem2_2
    hrank2 hreads2_2 hinb2_2 nbuf2_2 (Memref.isWhole_whole _) hwx2_2 hstage2_2

abbrev win2_3 : Pipeline.Window sig grid2 :=
  Pipeline.Window.ofSpec (Memref.whole main_v6_0) S256x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg6) S128x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_arg7) S128x128.size cc2_transform_5 reads2_5 false true 1 stage2_5 sem2_5
    hrank2 hreads2_5 hinb2_5 nbuf2_5 (Memref.isWhole_whole _) hwx2_5 hstage2_5

abbrev win2_6 : Pipeline.Window sig grid2 :=
  Pipeline.Window.ofSpec (Memref.whole main_arg10) S128x128.size cc2_transform_6 reads2_6 false true 1 stage2_6 sem2_6
    hrank2 hreads2_6 hinb2_6 nbuf2_6 (Memref.isWhole_whole _) hwx2_6 hstage2_6

abbrev win2_7 : Pipeline.Window sig grid2 :=
  Pipeline.Window.ofSpec (Memref.whole main_arg11) S128x128.size cc2_transform_7 reads2_7 false true 1 stage2_7 sem2_7
    hrank2 hreads2_7 hinb2_7 nbuf2_7 (Memref.isWhole_whole _) hwx2_7 hstage2_7

abbrev win2_8 : Pipeline.Window sig grid2 :=
  Pipeline.Window.ofSpec (Memref.whole main_v9) S256x128.size cc2_transform_8 reads2_8 true false 2 stage2_8 sem2_8
    hrank2 hreads2_8 hinb2_8 nbuf2_8 (Memref.isWhole_whole _) hwx2_8 hstage2_8

abbrev win2 : Fin 9 → Pipeline.Window sig grid2 := fun | 0 => win2_0 | 1 => win2_1 | 2 => win2_2 | 3 => win2_3 | 4 => win2_4 | 5 => win2_5 | 6 => win2_6 | 7 => win2_7 | 8 => win2_8 | ⟨_ + 9, h⟩ => absurd h (Nat.not_lt.2 (Nat.le_add_left _ _))
abbrev spec2 : Fin 9 → Pipeline.WinSpec sig grid2.rank := fun w => (win2 w).toWinSpec

class Facts : Prop extends Facts₀ where

variable [Facts]
-- ==== ReferenceIdeal.lean ====
abbrev S4096x128 : Shape := ⟨2, ![4096, 128]⟩
abbrev S4096x4096 : Shape := ⟨2, ![4096, 4096]⟩
abbrev S128x128 : Shape := ⟨2, ![128, 128]⟩
abbrev S_ : Shape := ⟨0, ![]⟩
abbrev S4096x1 : Shape := ⟨2, ![4096, 1]⟩
abbrev S4096 : Shape := ⟨1, ![4096]⟩
abbrev S1x4096 : Shape := ⟨2, ![1, 4096]⟩

abbrev nBuf : Space → Nat
  | .hbm => 114
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x4096, .i32⟩
  | .hbm, ⟨3, _⟩ => ⟨S4096x4096, .i32⟩
  | .hbm, ⟨4, _⟩ => ⟨S128x128, .f32⟩
  | .hbm, ⟨5, _⟩ => ⟨S128x128, .f32⟩
  | .hbm, ⟨6, _⟩ => ⟨S128x128, .f32⟩
  | .hbm, ⟨7, _⟩ => ⟨S128x128, .f32⟩
  | .hbm, ⟨8, _⟩ => ⟨S128x128, .f32⟩
  | .hbm, ⟨9, _⟩ => ⟨S128x128, .f32⟩
  | .hbm, ⟨10, _⟩ => ⟨S128x128, .f32⟩
  | .hbm, ⟨11, _⟩ => ⟨S128x128, .f32⟩
  | .hbm, ⟨12, _⟩ => ⟨S_, .i32⟩
  | .hbm, ⟨13, _⟩ => ⟨S4096x4096, .i32⟩
  | .hbm, ⟨14, _⟩ => ⟨S4096x4096, .i1⟩
  | .hbm, ⟨15, _⟩ => ⟨S4096x1, .f32⟩
  | .hbm, ⟨16, _⟩ => ⟨S4096, .f32⟩
  | .hbm, ⟨17, _⟩ => ⟨S1x4096, .f32⟩
  | .hbm, ⟨18, _⟩ => ⟨S_, .f32⟩
  | .hbm, ⟨19, _⟩ => ⟨S4096x4096, .f32⟩
  | .hbm, ⟨20, _⟩ => ⟨S4096x4096, .f32⟩
  | .hbm, ⟨21, _⟩ => ⟨S4096x4096, .f32⟩
  | .hbm, ⟨22, _⟩ => ⟨S_, .f32⟩
  | .hbm, ⟨23, _⟩ => ⟨S4096, .f32⟩
  | .hbm, ⟨24, _⟩ => ⟨S_, .i1⟩
  | .hbm, ⟨25, _⟩ => ⟨S4096, .i1⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096x1, .f32⟩
  | .hbm, ⟨30, _⟩ => ⟨S4096x128, .f32⟩
  | .hbm, ⟨31, _⟩ => ⟨S_, .i32⟩
  | .hbm, ⟨32, _⟩ => ⟨S4096x4096, .i32⟩
  | .hbm, ⟨33, _⟩ => ⟨S4096x4096, .i1⟩
  | .hbm, ⟨34, _⟩ => ⟨S4096x1, .f32⟩
  | .hbm, ⟨35, _⟩ => ⟨S4096, .f32⟩
  | .hbm, ⟨36, _⟩ => ⟨S1x4096, .f32⟩
  | .hbm, ⟨37, _⟩ => ⟨S_, .f32⟩
  | .hbm, ⟨38, _⟩ => ⟨S4096x4096, .f32⟩
  | .hbm, ⟨39, _⟩ => ⟨S4096x4096, .f32⟩
  | .hbm, ⟨40, _⟩ => ⟨S4096x4096, .f32⟩
  | .hbm, ⟨41, _⟩ => ⟨S_, .f32⟩
  | .hbm, ⟨42, _⟩ => ⟨S4096, .f32⟩
  | .hbm, ⟨43, _⟩ => ⟨S_, .i1⟩
  | .hbm, ⟨44, _⟩ => ⟨S4096, .i1⟩
  | .hbm, ⟨45, _⟩ => ⟨S_, .f32⟩
  | .hbm, ⟨46, _⟩ => ⟨S4096, .f32⟩
  | .hbm, ⟨47, _⟩ => ⟨S4096, .f32⟩
  | .hbm, ⟨48, _⟩ => ⟨S4096x1, .f32⟩
  | .hbm, ⟨49, _⟩ => ⟨S4096x128, .f32⟩
  | .hbm, ⟨50, _⟩ => ⟨S128x128, .f32⟩
  | .hbm, ⟨51, _⟩ => ⟨S4096x128, .f32⟩
  | .hbm, ⟨52, _⟩ => ⟨S128x128, .f32⟩
  | .hbm, ⟨53, _⟩ => ⟨S4096x128, .f32⟩
  | .hbm, ⟨54, _⟩ => ⟨S4096x128, .f32⟩
  | .hbm, ⟨55, _⟩ => ⟨S_, .f32⟩
  | .hbm, ⟨56, _⟩ => ⟨S4096x128, .f32⟩
  | .hbm, ⟨57, _⟩ => ⟨S4096x128, .f32⟩
  | .hbm, ⟨58, _⟩ => ⟨S128x128, .f32⟩
  | .hbm, ⟨59, _⟩ => ⟨S4096x128, .f32⟩
  | .hbm, ⟨60, _⟩ => ⟨S128x128, .f32⟩
  | .hbm, ⟨61, _⟩ => ⟨S4096x128, .f32⟩
  | .hbm, ⟨62, _⟩ => ⟨S4096x128, .f32⟩
  | .hbm, ⟨63, _⟩ => ⟨S_, .f32⟩
  | .hbm, ⟨64, _⟩ => ⟨S4096x128, .f32⟩
  | .hbm, ⟨65, _⟩ => ⟨S4096x128, .f32⟩
  | .hbm, ⟨66, _⟩ => ⟨S_, .i32⟩
  | .hbm, ⟨67, _⟩ => ⟨S4096x4096, .i32⟩
  | .hbm, ⟨68, _⟩ => ⟨S4096x4096, .i1⟩
  | .hbm, ⟨69, _⟩ => ⟨S4096x1, .f32⟩
  | .hbm, ⟨70, _⟩ => ⟨S4096, .f32⟩
  | .hbm, ⟨71, _⟩ => ⟨S1x4096, .f32⟩
  | .hbm, ⟨72, _⟩ => ⟨S_, .f32⟩
  | .hbm, ⟨73, _⟩ => ⟨S4096x4096, .f32⟩
  | .hbm, ⟨74, _⟩ => ⟨S4096x4096, .f32⟩
  | .hbm, ⟨75, _⟩ => ⟨S4096x4096, .f32⟩
  | .hbm, ⟨76, _⟩ => ⟨S_, .f32⟩
  | .hbm, ⟨77, _⟩ => ⟨S4096, .f32⟩
  | .hbm, ⟨78, _⟩ => ⟨S_, .i1⟩
  | .hbm, ⟨79, _⟩ => ⟨S4096, .i1⟩
  | .hbm, ⟨80, _⟩ => ⟨S_, .f32⟩
  | .hbm, ⟨81, _⟩ => ⟨S4096, .f32⟩
  | .hbm, ⟨82, _⟩ => ⟨S4096, .f32⟩
  | .hbm, ⟨83, _⟩ => ⟨S4096x1, .f32⟩
  | .hbm, ⟨84, _⟩ => ⟨S4096x128, .f32⟩
  | .hbm, ⟨85, _⟩ => ⟨S_, .i32⟩
  | .hbm, ⟨86, _⟩ => ⟨S4096x4096, .i32⟩
  | .hbm, ⟨87, _⟩ => ⟨S4096x4096, .i1⟩
  | .hbm, ⟨88, _⟩ => ⟨S4096x1, .f32⟩
  | .hbm, ⟨89, _⟩ => ⟨S4096, .f32⟩
  | .hbm, ⟨90, _⟩ => ⟨S1x4096, .f32⟩
  | .hbm, ⟨91, _⟩ => ⟨S_, .f32⟩
  | .hbm, ⟨92, _⟩ => ⟨S4096x4096, .f32⟩
  | .hbm, ⟨93, _⟩ => ⟨S4096x4096, .f32⟩
  | .hbm, ⟨94, _⟩ => ⟨S4096x4096, .f32⟩
  | .hbm, ⟨95, _⟩ => ⟨S_, .f32⟩
  | .hbm, ⟨96, _⟩ => ⟨S4096, .f32⟩
  | .hbm, ⟨97, _⟩ => ⟨S_, .i1⟩
  | .hbm, ⟨98, _⟩ => ⟨S4096, .i1⟩
  | .hbm, ⟨99, _⟩ => ⟨S_, .f32⟩
  | .hbm, ⟨100, _⟩ => ⟨S4096, .f32⟩
  | .hbm, ⟨101, _⟩ => ⟨S4096, .f32⟩
  | .hbm, ⟨102, _⟩ => ⟨S4096x1, .f32⟩
  | .hbm, ⟨103, _⟩ => ⟨S4096x128, .f32⟩
  | .hbm, ⟨104, _⟩ => ⟨S128x128, .f32⟩
  | .hbm, ⟨105, _⟩ => ⟨S4096x128, .f32⟩
  | .hbm, ⟨106, _⟩ => ⟨S128x128, .f32⟩
  | .hbm, ⟨107, _⟩ => ⟨S4096x128, .f32⟩
  | .hbm, ⟨108, _⟩ => ⟨S4096x128, .f32⟩
  | .hbm, ⟨109, _⟩ => ⟨S128x128, .f32⟩
  | .hbm, ⟨110, _⟩ => ⟨S4096x128, .f32⟩
  | .hbm, ⟨111, _⟩ => ⟨S128x128, .f32⟩
  | .hbm, ⟨112, _⟩ => ⟨S4096x128, .f32⟩
  | .hbm, ⟨113, _⟩ => ⟨S4096x128, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_c : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_call0_v0 : Ref sig .tc := ⟨.hbm, 19, rfl⟩
abbrev main_call0_v1 : Ref sig .tc := ⟨.hbm, 20, rfl⟩
abbrev main_v5 : Ref sig .tc := ⟨.hbm, 21, rfl⟩
abbrev main_cst_0 : Ref sig .tc := ⟨.hbm, 22, rfl⟩
abbrev main_v6 : Ref sig .tc := ⟨.hbm, 23, rfl⟩
abbrev main_c_1 : Ref sig .tc := ⟨.hbm, 24, rfl⟩
abbrev main_v7 : Ref sig .tc := ⟨.hbm, 25, rfl⟩
abbrev main_cst_2 : Ref sig .tc := ⟨.hbm, 26, rfl⟩
abbrev main_call1_v0 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_c_3 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_v14 : Ref sig .tc := ⟨.hbm, 35, rfl⟩
abbrev main_v15 : Ref sig .tc := ⟨.hbm, 36, rfl⟩
abbrev main_cst_4 : Ref sig .tc := ⟨.hbm, 37, rfl⟩
abbrev main_call2_v0 : Ref sig .tc := ⟨.hbm, 38, rfl⟩
abbrev main_call2_v1 : Ref sig .tc := ⟨.hbm, 39, rfl⟩
abbrev main_v16 : Ref sig .tc := ⟨.hbm, 40, rfl⟩
abbrev main_cst_5 : Ref sig .tc := ⟨.hbm, 41, rfl⟩
abbrev main_v17 : Ref sig .tc := ⟨.hbm, 42, rfl⟩
abbrev main_c_6 : Ref sig .tc := ⟨.hbm, 43, rfl⟩
abbrev main_v18 : Ref sig .tc := ⟨.hbm, 44, rfl⟩
abbrev main_cst_7 : Ref sig .tc := ⟨.hbm, 45, rfl⟩
abbrev main_call3_v0 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_call4_cst : Ref sig .tc := ⟨.hbm, 55, rfl⟩
abbrev main_call4_v0 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_v31 : Ref sig .tc := ⟨.hbm, 61, rfl⟩
abbrev main_v32 : Ref sig .tc := ⟨.hbm, 62, rfl⟩
abbrev main_call5_cst : Ref sig .tc := ⟨.hbm, 63, rfl⟩
abbrev main_call5_v0 : Ref sig .tc := ⟨.hbm, 64, rfl⟩
abbrev main_v33 : Ref sig .tc := ⟨.hbm, 65, rfl⟩
abbrev main_c_8 : Ref sig .tc := ⟨.hbm, 66, rfl⟩
abbrev main_v34 : Ref sig .tc := ⟨.hbm, 67, rfl⟩
abbrev main_v35 : Ref sig .tc := ⟨.hbm, 68, rfl⟩
abbrev main_v36 : Ref sig .tc := ⟨.hbm, 69, rfl⟩
abbrev main_v37 : Ref sig .tc := ⟨.hbm, 70, rfl⟩
abbrev main_v38 : Ref sig .tc := ⟨.hbm, 71, rfl⟩
abbrev main_cst_9 : Ref sig .tc := ⟨.hbm, 72, rfl⟩
abbrev main_call6_v0 : Ref sig .tc := ⟨.hbm, 73, rfl⟩
abbrev main_call6_v1 : Ref sig .tc := ⟨.hbm, 74, rfl⟩
abbrev main_v39 : Ref sig .tc := ⟨.hbm, 75, rfl⟩
abbrev main_cst_10 : Ref sig .tc := ⟨.hbm, 76, rfl⟩
abbrev main_v40 : Ref sig .tc := ⟨.hbm, 77, rfl⟩
abbrev main_c_11 : Ref sig .tc := ⟨.hbm, 78, rfl⟩
abbrev main_v41 : Ref sig .tc := ⟨.hbm, 79, rfl⟩
abbrev main_cst_12 : Ref sig .tc := ⟨.hbm, 80, rfl⟩
abbrev main_call7_v0 : Ref sig .tc := ⟨.hbm, 81, rfl⟩
abbrev main_v42 : Ref sig .tc := ⟨.hbm, 82, rfl⟩
abbrev main_v43 : Ref sig .tc := ⟨.hbm, 83, rfl⟩
abbrev main_v44 : Ref sig .tc := ⟨.hbm, 84, rfl⟩
abbrev main_c_13 : Ref sig .tc := ⟨.hbm, 85, rfl⟩
abbrev main_v45 : Ref sig .tc := ⟨.hbm, 86, rfl⟩
abbrev main_v46 : Ref sig .tc := ⟨.hbm, 87, rfl⟩
abbrev main_v47 : Ref sig .tc := ⟨.hbm, 88, rfl⟩
abbrev main_v48 : Ref sig .tc := ⟨.hbm, 89, rfl⟩
abbrev main_v49 : Ref sig .tc := ⟨.hbm, 90, rfl⟩
abbrev main_cst_14 : Ref sig .tc := ⟨.hbm, 91, rfl⟩
abbrev main_call8_v0 : Ref sig .tc := ⟨.hbm, 92, rfl⟩
abbrev main_call8_v1 : Ref sig .tc := ⟨.hbm, 93, rfl⟩
abbrev main_v50 : Ref sig .tc := ⟨.hbm, 94, rfl⟩
abbrev main_cst_15 : Ref sig .tc := ⟨.hbm, 95, rfl⟩
abbrev main_v51 : Ref sig .tc := ⟨.hbm, 96, rfl⟩
abbrev main_c_16 : Ref sig .tc := ⟨.hbm, 97, rfl⟩
abbrev main_v52 : Ref sig .tc := ⟨.hbm, 98, rfl⟩
abbrev main_cst_17 : Ref sig .tc := ⟨.hbm, 99, rfl⟩
abbrev main_call9_v0 : Ref sig .tc := ⟨.hbm, 100, rfl⟩
abbrev main_v53 : Ref sig .tc := ⟨.hbm, 101, rfl⟩
abbrev main_v54 : Ref sig .tc := ⟨.hbm, 102, rfl⟩
abbrev main_v55 : Ref sig .tc := ⟨.hbm, 103, rfl⟩
abbrev main_v56 : Ref sig .tc := ⟨.hbm, 104, rfl⟩
abbrev main_v57 : Ref sig .tc := ⟨.hbm, 105, rfl⟩
abbrev main_v58 : Ref sig .tc := ⟨.hbm, 106, rfl⟩
abbrev main_v59 : Ref sig .tc := ⟨.hbm, 107, rfl⟩
abbrev main_v60 : Ref sig .tc := ⟨.hbm, 108, rfl⟩
abbrev main_v61 : Ref sig .tc := ⟨.hbm, 109, rfl⟩
abbrev main_v62 : Ref sig .tc := ⟨.hbm, 110, rfl⟩
abbrev main_v63 : Ref sig .tc := ⟨.hbm, 111, rfl⟩
abbrev main_v64 : Ref sig .tc := ⟨.hbm, 112, rfl⟩
abbrev main_v65 : Ref sig .tc := ⟨.hbm, 113, rfl⟩

abbrev nD : Nat := 1
abbrev τ : Topo := Topo.v7x

variable {F : FTy → Type} [FloatOps F]

class Facts₀ : Prop where
  bcast_S_S4096x4096 : S_.BroadcastsInDim S4096x4096 (![] : Fin 0 → Fin S4096x4096.rank)
  slices_S4096x128_S4096x1_0_0 : S4096x128.Slices ![0, 0] S4096x1
  shapeCasts_S4096x1_S4096 : S4096x1.ShapeCasts S4096
  bcast_S4096_S1x4096_1 : S4096.BroadcastsInDim S1x4096 (![1] : Fin 1 → Fin S1x4096.rank)
  bcast_S1x4096_S4096x4096_0_1 : S1x4096.BroadcastsInDim S4096x4096 (![0, 1] : Fin 2 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x128_0_1 : S4096x1.BroadcastsInDim S4096x128 (![0, 1] : Fin 2 → Fin S4096x128.rank)
  transposes_S128x128_S128x128_1_0 : S128x128.Transposes [1, 0] S128x128
  bcast_S_S4096x128 : S_.BroadcastsInDim S4096x128 (![] : Fin 0 → Fin S4096x128.rank)
  dot_S4096x128_S128x128_S4096x128_1_0_0_1_n_n_wf : DotDims.WF S4096x128 S128x128 S4096x128 [1] [0] [0] [1] [] []

variable [Facts₀]

def dot_S4096x128_S128x128_S4096x128_1_0_0_1_n_n : DotDims S4096x128 S128x128 S4096x128 where
  lhsContracting := [1]
  rhsContracting := [0]
  lhsNonContracting := [0]
  rhsNonContracting := [1]
  lhsBatch := []
  rhsBatch := []
  wf := dot_S4096x128_S128x128_S4096x128_1_0_0_1_n_n_wf

class Facts : Prop extends Facts₀ where

variable [Facts]
-- ==== Proof.LibKeepdimsColumn.lean ====
/-
  A per-row quantity carried back to a matrix's shape through a column.

  A reduction along the columns of an [a, b] matrix leaves a vector of a numbers, one per row. To combine it with the
  matrix again it is reshaped to an [a, 1] column and broadcast along the columns to [a, b]. Entry (p, q) of the
  result is the p-th number, whatever q: the reshape keeps the row-major position p, and the broadcast reads the
  column's only entry of row p. Stated for any extents a and b and any element type; nothing is computed.
-/
import Idealize.ShloMosaic.Lib.Pipeline.Value
import Idealize.ShloMosaic.Lib.ValueIdx

noncomputable section

namespace Cert.Lib.KeepdimsColumn

open Idealize.ShloMosaic Idealize.ShloMosaic.ValueIdx

/-- The [a] → [a, 1] reshape, entry (p, 0): the p-th number. -/
theorem column_cast_at {α : Type} {a : Nat} (u : (⟨1, ![a]⟩ : Shape).Idx → α)
    (h : (⟨1, ![a]⟩ : Shape).ShapeCasts ⟨2, ![a, 1]⟩) (p : Fin a) :
    shapeCast ⟨2, ![a, 1]⟩ u h (ix2 (n0 := a) (n1 := 1) p ⟨0, Nat.one_pos⟩) = u (ix1 p) :=
  shapeCast_apply u h _ (ix1 p) (by
    rw [Shape.rowMajor_val_one, Shape.rowMajor_val_two]
    show p.val = p.val * 1 + 0
    omega)

/-- The [a, 1] → [a, b] broadcast, entry (p, q): the column's entry of row p. -/
theorem column_broadcast_at {α : Type} {a b : Nat} (v : (⟨2, ![a, 1]⟩ : Shape).Idx → α)
    (h : (⟨2, ![a, 1]⟩ : Shape).Broadcasts ⟨2, ![a, b]⟩) (p : Fin a) (q : Fin b) :
    broadcastTo ⟨2, ![a, b]⟩ v h (ix2 p q) = v (ix2 (n0 := a) (n1 := 1) p ⟨0, Nat.one_pos⟩) :=
  broadcastTo_apply v h (ix2 p q) _ (fun d => by
    match d with
    | ⟨0, _⟩ =>
      show p.val = if a = 1 then 0 else p.val
      split
      · have := p.isLt; omega
      · rfl
    | ⟨1, _⟩ =>
      show 0 = if (1 : Nat) = 1 then 0 else q.val
      rw [if_pos rfl])

/-- Both together: a vector of a numbers turned into a column and broadcast along the columns reads, at (p, q), the
    p-th number. -/
theorem column_at {α : Type} {a b : Nat} (u : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (p : Fin a) (q : Fin b) :
    broadcastTo ⟨2, ![a, b]⟩ (shapeCast ⟨2, ![a, 1]⟩ u hc) hb (ix2 p q) = u (ix1 p) :=
  (column_broadcast_at _ hb p q).trans (column_cast_at u hc p)

end Cert.Lib.KeepdimsColumn

end
-- ==== Proof.LibMaxReduce.lean ====
/-
  Maxima at the extended reals, for any shapes.

  A float maximum-reduction over ONE axis started from -inf (the word 0xFF800000), read at a reduced index, is the
  supremum over that axis's coordinates of the operand at the index with the coordinate put back. It rests on two
  small facts: the word 0xFF800000 denotes -inf, the least extended real, and a fold of max started from the least
  element over a whole finite range is the supremum over the range.
-/
import Idealize.ShloMosaic.PureOps.Ideal.Laws
import Idealize.ShloMosaic.PureOps.Reduce

noncomputable section

open scoped BigOperators

namespace Cert.Lib.MaxReduce

open Idealize.ShloMosaic

/-- The f32 word 0xFF800000 denotes -inf. -/
theorem ofBits_neg_inf_f32 : Ideal.ofBits .f32 0xFF800000#32 = (⊥ : EReal) := by
  simp [Ideal.ofBits, Ideal.ieee]

/-- A fold of max started from -inf over all of a finite index range is the supremum over the range. -/
theorem fold_max_bot_eq_iSup {K : Nat} (f : Fin K → EReal) :
    (Finset.univ : Finset (Fin K)).fold max (⊥ : EReal) f = ⨆ k, f k := by
  rw [← Finset.sup_univ_eq_iSup]
  rfl

/-- The host's one-operand reduce with a maximum body over one axis, its initial value the -inf constant, at reduced
    index j: the supremum over that axis's coordinates k of the operand at j with k put back (`h'` is the host's
    shape fact, `h` the lane form of the same fact, which names the index with the coordinate put back). -/
theorem hostMaxReduce_single {s t u : Shape} {a : Fin s.rank} (x : FVec Ideal s .f32) (h' : s.ReducesTo [a] t)
    (h : s.Reduces [a] t) (hu : 0 < u.numel) (j : t.Idx) :
    Host.reduce FloatOps.maximumf x (constant (F := Ideal) u .f32 0xFF800000#32) h' hu j
      = ⨆ k : Fin (s.size a), x (h.lift j k) := by
  rw [Host.reduce_eq_fold_single FloatOps.maximumf x _ h' h hu]
  show (Finset.univ : Finset (Fin (s.size a))).fold max (Ideal.ofBits .f32 0xFF800000#32) (fun k => x (h.lift j k)) = _
  rw [ofBits_neg_inf_f32]
  exact fold_max_bot_eq_iSup _

end Cert.Lib.MaxReduce

end
-- ==== Proof.LibMaxLane.lean ====
/-
  A lane maximum at the extended reals, for any shapes.

  A kernel's float maximum-reduction over ONE axis started from -inf (the word 0xFF800000), read at a reduced index,
  is the supremum over that axis's coordinates of the operand at the index with the coordinate put back: the mirror,
  for the lane reduction, of the host's maximum and of the lane minimum. It rests on the same two facts: the word
  0xFF800000 denotes -inf, and a fold of max started from the least element over a whole finite range is the supremum.
-/
import Idealize.ShloMosaic.PureOps.Ideal.Laws
import Idealize.ShloMosaic.PureOps.Reduce
import proofs.«173209_g89215060672586_cont_9to1c4b_471_9_alg».proof.Proof.LibMaxReduce

noncomputable section

open scoped BigOperators

namespace Cert.Lib.MaxLane

open Idealize.ShloMosaic

/-- A kernel's lane maximum over one axis started from -inf, at reduced index j: the supremum over that axis's
    coordinates k of the operand at j with k put back (`h.lift j k`). The accumulator's proof is taken as the
    printed program spells it. -/
theorem maxReduce_single {s t : Shape} {a : Fin s.rank} (src : FVec Ideal s .f32) (h : s.Reduces [a] t)
    (hφ : FKind.Formats .f32) (hacc : (0xFF800000#32 : BitVec 32) = FKind.maximumf.neutral .f32 hφ) (j : t.Idx) :
    multiReduction .maximumf [a] t src 0xFF800000#32 h hφ hacc j = ⨆ k : Fin (s.size a), src (h.lift j k) := by
  refine (Ideal.multiReduction_maximumf_single src 0xFF800000#32 h hφ hacc j).trans ?_
  show (Finset.univ : Finset (Fin (s.size a))).fold max (Ideal.ofBits .f32 0xFF800000#32) (fun k => src (h.lift j k)) = _
  rw [Cert.Lib.MaxReduce.ofBits_neg_inf_f32]
  exact Cert.Lib.MaxReduce.fold_max_bot_eq_iSup _

end Cert.Lib.MaxLane

end
-- ==== Proof.LibRowOps.lean ====
/-
  A kernel body's operations on one block of rows, read at an entry, at the extended reals.

  Each lemma reads one spelling at one entry (p, q) of its result: a lane sum or a lane maximum (from -inf) kept
  as a column, a [1, b] row repeated over a block of rows, and the sums of a matrix's rows laid out as a [1, n] row — for any
  extents. (A column repeated along the columns is read by the keepdims-column lemmas this file imports.)
-/
import Idealize.ShloMosaic.PureOps.Ideal.Laws
import Idealize.ShloMosaic.Lib.ValueIdx
import Idealize.ShloMosaic.Lib.Pipeline.Value
import proofs.«173209_g89215060672586_cont_9to1c4b_471_9_alg».proof.Proof.LibKeepdimsColumn
import proofs.«173209_g89215060672586_cont_9to1c4b_471_9_alg».proof.Proof.LibMaxLane

noncomputable section

open scoped BigOperators

namespace Cert.Dual.Body

open Idealize.ShloMosaic Idealize.ShloMosaic.ValueIdx

/-- The index of an [a, b] array over the reduced index p of its rows with column k put back is (p, k). -/
theorem lift_cols {a b : Nat} (h : Shape.Reduces ⟨2, ![a, b]⟩ [1] ⟨1, ![a]⟩) (p : Fin a) (k : Fin b) :
    h.lift (ix1 p) k = ix2 p k := funext fun d => Fin.ext (by
  match d with
  | ⟨0, _⟩ => rfl
  | ⟨1, _⟩ => rfl)

/-- A lane sum of an [a, b] block kept as an [a, 1] column, at row p: the sum of row p. -/
theorem rowSum_at {a b : Nat} (v : FVec Ideal ⟨2, ![a, b]⟩ .f32)
    (hr : Shape.Reduces ⟨2, ![a, b]⟩ [1] ⟨1, ![a]⟩) (hφ : FKind.Formats .f32)
    (hacc : (0x00000000#32 : BitVec FTy.f32.bits) = FKind.add.neutral .f32 hφ)
    (hc : (⟨1, ![a]⟩ : Shape).ShapeCasts ⟨2, ![a, 1]⟩) (p : Fin a) :
    shapeCast ⟨2, ![a, 1]⟩ (multiReduction .add [1] ⟨1, ![a]⟩ v 0x00000000#32 hr hφ hacc) hc
        (ix2 (n0 := a) (n1 := 1) p ⟨0, Nat.one_pos⟩)
      = ∑ k : Fin b, v (ix2 p k) := by
  rw [Cert.Lib.KeepdimsColumn.column_cast_at _ hc p, Ideal.multiReduction_add_single v _ hr hφ hacc (ix1 p)]
  exact Finset.sum_congr rfl fun k _ => by rw [lift_cols hr p k]

/-- A lane maximum from -inf of an [a, b] block kept as an [a, 1] column, at row p: the supremum of row p. -/
theorem rowMax_at {a b : Nat} (v : FVec Ideal ⟨2, ![a, b]⟩ .f32)
    (hr : Shape.Reduces ⟨2, ![a, b]⟩ [1] ⟨1, ![a]⟩) (hφ : FKind.Formats .f32)
    (hacc : (0xFF800000#32 : BitVec 32) = FKind.maximumf.neutral .f32 hφ)
    (hc : (⟨1, ![a]⟩ : Shape).ShapeCasts ⟨2, ![a, 1]⟩) (p : Fin a) :
    shapeCast ⟨2, ![a, 1]⟩ (multiReduction .maximumf [1] ⟨1, ![a]⟩ v 0xFF800000#32 hr hφ hacc) hc
        (ix2 (n0 := a) (n1 := 1) p ⟨0, Nat.one_pos⟩)
      = ⨆ k : Fin b, v (ix2 p k) := by
  rw [Cert.Lib.KeepdimsColumn.column_cast_at _ hc p, Cert.Lib.MaxLane.maxReduce_single v hr hφ hacc (ix1 p)]
  exact iSup_congr fun k => by rw [lift_cols hr p k]

/-- A [1, b] row repeated over a block of a rows, at (p, q): the row's entry q. -/
theorem rowBcast_at {α : Type} {a b : Nat} (v : (⟨2, ![1, b]⟩ : Shape).Idx → α)
    (h : (⟨2, ![1, b]⟩ : Shape).Broadcasts ⟨2, ![a, b]⟩) (p : Fin a) (q : Fin b) :
    broadcastTo ⟨2, ![a, b]⟩ v h (ix2 p q) = v (ix2 (n0 := 1) (n1 := b) ⟨0, Nat.one_pos⟩ q) :=
  broadcastTo_apply v h (ix2 p q) _ (fun d => by
    match d with
    | ⟨0, _⟩ => exact (if_pos rfl).symm
    | ⟨1, _⟩ =>
      show q.val = if b = 1 then 0 else q.val
      split
      · have := q.isLt; omega
      · rfl)

/-- The sums of the rows of an [n, b] matrix laid out as a [1, n] row, at entry h: the sum of row h. -/
theorem rowSums_row_at {n b : Nat} (w : FVec Ideal ⟨2, ![n, b]⟩ .f32)
    (hr : Shape.Reduces ⟨2, ![n, b]⟩ [1] ⟨1, ![n]⟩) (hφ : FKind.Formats .f32)
    (hacc : (0x00000000#32 : BitVec FTy.f32.bits) = FKind.add.neutral .f32 hφ)
    (hc : (⟨1, ![n]⟩ : Shape).ShapeCasts ⟨2, ![1, n]⟩) (h : Fin n) :
    shapeCast ⟨2, ![1, n]⟩ (multiReduction .add [1] ⟨1, ![n]⟩ w 0x00000000#32 hr hφ hacc) hc
        (ix2 (n0 := 1) (n1 := n) ⟨0, Nat.one_pos⟩ h)
      = ∑ d : Fin b, w (ix2 h d) := by
  rw [shapeCast_addUnit_apply ![n] _ hc _]
  have e : (fun a : Fin 1 => (ix2 (n0 := 1) (n1 := n) ⟨0, Nat.one_pos⟩ h) a.succ) = ix1 h :=
    funext fun a => by match a with | ⟨0, _⟩ => rfl
  rw [e, Ideal.multiReduction_add_single w _ hr hφ hacc (ix1 h)]
  exact Finset.sum_congr rfl fun k _ => by rw [lift_cols hr h k]

end Cert.Dual.Body

end
-- ==== Proof.PhaseSpec.lean ====
/-
  The three phases of the kernel as functions of the arrays each phase is handed, row by row.

  Phase A is handed the table a12, the row f of side-1 features, x2 and two weight matrices, and leaves the neighbour sums
  `S2`, the hidden feature `G2` and the table made numbers `MB`. Phase B is handed the table a21, the rows f and g of
  side-2 features (input and hidden), x1 and four weight matrices, and leaves the neighbour maxima `S1`, the hidden
  feature `G1` and the finished side-1 output. Phase C is handed the table as numbers, the hidden column of side 1, x2,
  the neighbour sums and four weight matrices, and leaves the finished side-2 output. A layer's hidden rows `H` and
  a side's output `O` have one spelling for both sides.
-/
import Idealize.ShloMosaic.PureOps.Ideal
import Idealize.ShloMosaic.Lib.ValueIdx

noncomputable section

open scoped BigOperators

namespace Cert.Dual.K

open Idealize.ShloMosaic Idealize.ShloMosaic.ValueIdx

abbrev Tab := (⟨2, ![4096, 4096]⟩ : Shape).Idx → BitVec 32
abbrev Mat := (⟨2, ![4096, 4096]⟩ : Shape).Idx → EReal
abbrev Feat := (⟨2, ![4096, 128]⟩ : Shape).Idx → EReal
abbrev Wt := (⟨2, ![128, 128]⟩ : Shape).Idx → EReal
abbrev Col := (⟨2, ![4096, 1]⟩ : Shape).Idx → EReal
abbrev Row := (⟨2, ![1, 4096]⟩ : Shape).Idx → EReal

/-- The mask bit of a table word: 1 when the word, read signed, is greater than 0. -/
abbrev bit (v : BitVec 32) : BitVec 1 := IntOp.cmpi .sgt v 0#32

/-- Phase A: the sum over the selected places of row (i 0) of the row f. -/
def S2 (A : Tab) (f : Row) : Col := fun i => ∑ j : Fin 4096, Scalar.select (bit (A (ix2 (i 0) j))) (f (ix2 0 j)) 0
/-- The hidden feature 0 of a side: max (x(r,·) · ws(0,·) + s(r) · Σ wn(0,·), 0). -/
def G (X : Feat) (Ws Wn : Wt) (s : Col) : Col := fun i =>
  max ((∑ d : Fin 128, X (ix2 (i 0) d) * Ws (ix2 0 d)) + s (ix2 (i 0) 0) * ∑ d : Fin 128, Wn (ix2 0 d)) 0
/-- The table's words made numbers. -/
def MB (A : Tab) : Mat := fun i => FloatOps.sitofp (F := Ideal) .bf16 (A i)
/-- Phase B: the maximum over the selected places of row (i 0) of the row f, -inf elsewhere. -/
def MX (A : Tab) (f : Row) : Col := fun i => ⨆ j : Fin 4096, Scalar.select (bit (A (ix2 (i 0) j))) (f (ix2 0 j)) ⊥
/-- … with -inf (no selected place) replaced by 0. -/
def S1 (A : Tab) (f : Row) : Col := fun i => if MX A f i = ⊥ then 0 else MX A f i
/-- The maximum over the selected places of the row g, 0 elsewhere. -/
def S1P (A : Tab) (g : Row) : Col := fun i => ⨆ j : Fin 4096, Scalar.select (bit (A (ix2 (i 0) j))) (g (ix2 0 j)) 0
/-- A layer's hidden rows: max (x · ws^T + s ⊗ rowsums(wn), 0). -/
def H (X : Feat) (Ws Wn : Wt) (s : Col) : Feat := fun i =>
  max ((∑ d : Fin 128, X (ix2 (i 0) d) * Ws (ix2 (i 1) d)) + s (ix2 (i 0) 0) * ∑ d : Fin 128, Wn (ix2 (i 1) d)) 0
/-- A side's output: hidden · ws1^T + sp ⊗ rowsums(wn1). -/
def O (X : Feat) (Ws0 Wn0 Ws1 Wn1 : Wt) (s sp : Col) : Feat := fun i =>
  (∑ h : Fin 128, H X Ws0 Wn0 s (ix2 (i 0) h) * Ws1 (ix2 (i 1) h)) + sp (ix2 (i 0) 0) * ∑ d : Fin 128, Wn1 (ix2 (i 1) d)
/-- Phase C: the table's numbers against the column g, and against g minus itself. -/
def SP (M : Mat) (g : Col) : Col := fun i =>
  (∑ j : Fin 4096, M (ix2 (i 0) j) * g (ix2 j 0)) + ∑ j : Fin 4096, M (ix2 (i 0) j) * (g (ix2 j 0) - g (ix2 j 0))

end Cert.Dual.K

end
-- ==== Proof.Phase0.lean ====
/-
  Phase A of the kernel (the first of its three regions), one block of 256 rows at a time, then as whole arrays.

  At grid point t the body sees rows 256·t … 256·t + 255 of the adjacency table a12 and of the feature array x2, the whole
  row f of side-1 features and two whole weight matrices. It writes three blocks of 256 rows: the neighbour sums
  s(r) = Σ_j [a12(r, j) > 0] · f(j); the hidden feature max (Σ_d x2(r, d) · ws(0, d) + s(r) · Σ_d wn(0, d), 0); and the
  table's words made numbers. Every row of the three result arrays lies in exactly one block, so after the sixteen points the
  arrays hold these formulas at every row.
-/
import proofs.«173209_g89215060672586_cont_9to1c4b_471_9_alg».proof.Proof.Gen.KernelIdeal.Frame
import proofs.«173209_g89215060672586_cont_9to1c4b_471_9_alg».proof.Proof.LibRowOps
import proofs.«173209_g89215060672586_cont_9to1c4b_471_9_alg».proof.Proof.PhaseSpec
import Idealize.ShloMosaic.Lib.Pipeline.Value
import Idealize.ShloMosaic.Lib.Tactic

noncomputable section

open scoped BigOperators

namespace Cert.Dual.K

open Idealize.ShloMosaic Idealize.ShloMosaic.TcCoe Idealize.SL.Sem Idealize.ShloMosaic.ValueIdx
open Idealize.ShloMosaic.Pipeline (Dat)
open Cert.KernelIdeal Cert.KernelIdeal.Gen Cert.Dual.Body

theorem hz : (![0, 0] : Fin 2 → Nat) = fun _ => 0 := funext fun a => by fin_cases a <;> rfl

/-! ## The body's three results at an entry of the block -/

/-- The neighbour sums of a block of rows. -/
theorem sumBlk_at (v0 : Vec Ideal S256x4096 .i32) (v3 : Vec Ideal S1x4096 .f32) (p : Fin 256) :
    k0_pay2 (F := Ideal) v0 v3 (ix2 p 0)
      = ∑ j : Fin 4096, Scalar.select (IntOp.cmpi .sgt (v0 (ix2 p j)) 0#32) (v3 (ix2 0 j)) 0 := by
  unfold k0_pay2
  refine (rowSum_at _ reduces_S256x4096_S256 (.inl rfl) rfl shapeCasts_S256_S256x1 p).trans ?_
  refine Finset.sum_congr rfl fun j _ => ?_
  show Scalar.select (IntOp.cmpi .sgt (v0 (ix2 p j)) 0#32)
      (broadcastTo S256x4096 (shapeCast S1x4096 (shapeCast S1x4096 v3 shapeCasts_S1x4096_S1x4096) shapeCasts_S1x4096_S1x4096)
        broadcasts_S1x4096_S256x4096 (ix2 p j)) (Ideal.ofBits .f32 0x00000000#32) = _
  rw [rowBcast_at, shapeCast_self, shapeCast_self, Ideal.ofBits_zero_f32]
  rfl

/-- The sum of the one row a [1, 128] load holds, taken as the body takes it: made a vector, made a row again, summed
    along the lanes, made a [1, 1] array, its one entry extracted. -/
theorem rowScalar (v : Vec Ideal S1x128 .f32) :
    extractAt ![0, 0] (shapeCast S1x1 (multiReduction (F := Ideal) .add [1] Cert.KernelIdeal.S1
        (shapeCast S1x128 (shapeCast S128 v shapeCasts_S1x128_S128) shapeCasts_S128_S1x128)
        0x00000000#32 reduces_S1x128_S1 (.inl rfl) rfl) shapeCasts_S1_S1x1) inpos_S1x1_p0_0
      = ∑ d : Fin 128, v (ix2 0 d) := by
  rw [shapeCast_shapeCast]
  have e : (fun a => ⟨(![0, 0] : Fin 2 → Nat) a, inpos_S1x1_p0_0 a⟩ : S1x1.Idx)
      = ix2 (n0 := 1) (n1 := 1) ⟨0, Nat.one_pos⟩ ⟨0, Nat.one_pos⟩ :=
    funext fun a => Fin.ext (by match a with | ⟨0, _⟩ => rfl | ⟨1, _⟩ => rfl)
  show shapeCast S1x1 _ shapeCasts_S1_S1x1 (fun a => ⟨(![0, 0] : Fin 2 → Nat) a, inpos_S1x1_p0_0 a⟩) = _
  rw [e]
  exact rowSum_at v reduces_S1x128_S1 (.inl rfl) rfl shapeCasts_S1_S1x1 ⟨0, Nat.one_pos⟩

/-- A block of rows against one weight row, summed along the lanes and kept as a column. -/
theorem rowDot_at (x : Vec Ideal S256x128 .f32) (w : Vec Ideal S1x128 .f32) (p : Fin 256) :
    shapeCast S256x1 (multiReduction (F := Ideal) .add [1] S256 (mulf x (broadcastTo S256x128 w broadcasts_S1x128_S256x128))
        0x00000000#32 reduces_S256x128_S256 (.inl rfl) rfl) shapeCasts_S256_S256x1
        (ix2 (n0 := 256) (n1 := 1) p ⟨0, Nat.one_pos⟩)
      = ∑ d : Fin 128, x (ix2 p d) * w (ix2 0 d) := by
  refine (rowSum_at _ reduces_S256x128_S256 (.inl rfl) rfl shapeCasts_S256_S256x1 p).trans
    (Finset.sum_congr rfl fun d _ => ?_)
  rw [mulf_apply, rowBcast_at]
  rfl

/-- The hidden feature 0 of a block of rows. -/
theorem hidBlk_at (v0 : Vec Ideal S256x4096 .i32) (v3 : Vec Ideal S1x4096 .f32) (v12 : Vec Ideal S1x128 .f32)
    (v20 : Vec Ideal S256x128 .f32) (v23 : Vec Ideal S1x128 .f32) (p : Fin 256) :
    k0_pay3 (F := Ideal) v0 v3 v12 v20 v23 (ix2 p 0)
      = max ((∑ d : Fin 128, v20 (ix2 p d) * v23 (ix2 0 d))
          + k0_pay2 (F := Ideal) v0 v3 (ix2 p 0) * ∑ d : Fin 128, v12 (ix2 0 d)) 0 := by
  unfold k0_pay3
  show max (shapeCast S256x1 (multiReduction (F := Ideal) .add [1] S256 (mulf v20 (broadcastTo S256x128 v23 broadcasts_S1x128_S256x128))
        0x00000000#32 reduces_S256x128_S256 (.inl rfl) rfl) shapeCasts_S256_S256x1
        (ix2 (n0 := 256) (n1 := 1) p ⟨0, Nat.one_pos⟩)
      + k0_pay2 (F := Ideal) v0 v3 (ix2 p 0)
        * extractAt ![0, 0] (shapeCast S1x1 (multiReduction (F := Ideal) .add [1] Cert.KernelIdeal.S1
            (shapeCast S1x128 (shapeCast S128 v12 shapeCasts_S1x128_S128) shapeCasts_S128_S1x128)
            0x00000000#32 reduces_S1x128_S1 (.inl rfl) rfl) shapeCasts_S1_S1x1) inpos_S1x1_p0_0)
      (Ideal.ofBits .f32 0x00000000#32) = _
  rw [rowDot_at, rowScalar, Ideal.ofBits_zero_f32]

/-! ## From the block's coordinates to the arrays' -/

/-- The neighbour sums: a block whose row p is row r of the table gives entry r of `S2`. -/
theorem sum_transfer (A : Tab) (f : Row) (b0 : Vec Ideal S256x4096 .i32) (b1 : Vec Ideal S1x4096 .f32) (p : Fin 256)
    (r : Fin 4096) (h0 : ∀ j : Fin 4096, b0 (ix2 p j) = A (ix2 r j)) (h1 : ∀ j : Fin 4096, b1 (ix2 0 j) = f (ix2 0 j)) :
    k0_pay2 (F := Ideal) b0 b1 (ix2 p 0) = S2 A f (ix2 r 0) := by
  rw [sumBlk_at]
  show _ = ∑ j : Fin 4096, Scalar.select (IntOp.cmpi .sgt (A (ix2 r j)) 0#32) (f (ix2 0 j)) 0
  exact Finset.sum_congr rfl fun j _ => by rw [h0 j, h1 j]

/-- The hidden feature: likewise, with the block of x2 and row 0 of the two weight matrices. -/
theorem hid_transfer (A : Tab) (f : Row) (X : Feat) (Ws Wn : Wt) (b0 : Vec Ideal S256x4096 .i32) (b1 : Vec Ideal S1x4096 .f32)
    (n0 : Vec Ideal S1x128 .f32) (x : Vec Ideal S256x128 .f32) (s0 : Vec Ideal S1x128 .f32) (p : Fin 256) (r : Fin 4096)
    (h0 : ∀ j : Fin 4096, b0 (ix2 p j) = A (ix2 r j)) (h1 : ∀ j : Fin 4096, b1 (ix2 0 j) = f (ix2 0 j))
    (hx : ∀ d : Fin 128, x (ix2 p d) = X (ix2 r d)) (hs : ∀ d : Fin 128, s0 (ix2 0 d) = Ws (ix2 0 d))
    (hn : ∀ d : Fin 128, n0 (ix2 0 d) = Wn (ix2 0 d)) :
    k0_pay3 (F := Ideal) b0 b1 n0 x s0 (ix2 p 0) = G X Ws Wn (S2 A f) (ix2 r 0) := by
  rw [hidBlk_at, sum_transfer A f b0 b1 p r h0 h1]
  show _ = max ((∑ d : Fin 128, X (ix2 r d) * Ws (ix2 0 d)) + S2 A f (ix2 r 0) * ∑ d : Fin 128, Wn (ix2 0 d)) 0
  rw [Finset.sum_congr rfl fun d _ => by rw [hx d, hs d], Finset.sum_congr rfl fun d _ => hn d]

/-! ## The blocks are rows of the arrays -/

variable (V : (c : Dev nD) → (b : Ref sig .tc) → Buf (Elt Ideal) ((c : Thread nD τ).loc b))

/-- The printed index maps over the sixteen points: the three row-blocked inputs and the three outputs are at block row t,
    the whole-array inputs at block (0, 0). -/
theorem idx0 : ∀ t : Fin cfg0.N,
    win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = t.val ∧ win0_5.index t (1 : Fin 2) = 0
    ∧ win0_6.index t (0 : Fin 2) = t.val ∧ win0_6.index t (1 : Fin 2) = 0
    ∧ win0_7.index t (0 : Fin 2) = t.val ∧ win0_7.index t (1 : Fin 2) = 0 :=
  (by decide +kernel : ∀ t : Fin grid0.N, _)

theorem tlt (t : Fin cfg0.N) : t.val < 16 := lt_of_lt_of_eq t.isLt N_0

/-- Row p of the table's block at point t is row 256·t + p of the table. -/
theorem blkA (c : Dev nD) (t : Fin cfg0.N) (p : Fin 256) (j : Fin 4096) (r : Fin 4096) (hr : r.val = t.val * 256 + p.val) :
    (iblk0 V c 0 t : Vec Ideal S256x4096 .i32) (ix2 p j) = (V c main_arg2 : S4096x4096.Idx → BitVec 32) (ix2 r j) := by
  obtain ⟨e0, e1, -⟩ := idx0 t
  unfold iblk0
  rw [View.read_apply]
  show (V c main_arg2 : S4096x4096.Idx → BitVec 32) _ = _
  refine congrArg _ (funext fun a => Fin.ext ?_)
  match a with
  | ⟨0, _⟩ => show win0_0.index t 0 * 256 + 1 * p.val = r.val; rw [e0, hr]; omega
  | ⟨1, _⟩ => show win0_0.index t 1 * 4096 + 1 * j.val = j.val; rw [e1]; omega

/-- The feature row is handed whole to every point. -/
theorem blkF (c : Dev nD) (t : Fin cfg0.N) (j : Fin 4096) :
    (iblk0 V c 1 t : Vec Ideal S1x4096 .f32) (ix2 0 j) = (V c main_v2 : S1x4096.Idx → EReal) (ix2 0 j) := by
  obtain ⟨-, -, e0, e1, -⟩ := idx0 t
  unfold iblk0
  rw [View.read_apply]
  show (V c main_v2 : S1x4096.Idx → EReal) _ = _
  refine congrArg _ (funext fun a => Fin.ext ?_)
  match a with
  | ⟨0, _⟩ => show win0_1.index t 0 * 1 + 1 * 0 = 0; rw [e0]
  | ⟨1, _⟩ => show win0_1.index t 1 * 4096 + 1 * j.val = j.val; rw [e1]; omega

/-- Row p of x2's block at point t is row 256·t + p of x2. -/
theorem blkX (c : Dev nD) (t : Fin cfg0.N) (p : Fin 256) (d : Fin 128) (r : Fin 4096) (hr : r.val = t.val * 256 + p.val) :
    (iblk0 V c 2 t : Vec Ideal S256x128 .f32) (ix2 p d) = (V c main_arg1 : S4096x128.Idx → EReal) (ix2 r d) := by
  obtain ⟨-, -, -, -, e0, e1, -⟩ := idx0 t
  unfold iblk0
  rw [View.read_apply]
  show (V c main_arg1 : S4096x128.Idx → EReal) _ = _
  refine congrArg _ (funext fun a => Fin.ext ?_)
  match a with
  | ⟨0, _⟩ => show win0_2.index t 0 * 256 + 1 * p.val = r.val; rw [e0, hr]; omega
  | ⟨1, _⟩ => show win0_2.index t 1 * 128 + 1 * d.val = d.val; rw [e1]; omega

/-- Row 0 of a weight matrix handed whole, read through the one-row rectangle the body loads. -/
theorem blkWs (c : Dev nD) (t : Fin cfg0.N) (d : Fin 128) :
    View.ld (iblk0 V c 3 t : Vec Ideal S128x128 .f32) r0_3 (ix2 0 d) = (V c main_arg6 : S128x128.Idx → EReal) (ix2 0 d) := by
  obtain ⟨-, -, -, -, -, -, e0, e1, -⟩ := idx0 t
  show (iblk0 V c 3 t : Vec Ideal S128x128 .f32) (r0_3.emb (ix2 0 d)) = _
  unfold iblk0
  rw [View.read_apply]
  show (V c main_arg6 : S128x128.Idx → EReal) _ = _
  refine congrArg _ (funext fun a => Fin.ext ?_)
  match a with
  | ⟨0, _⟩ => show win0_3.index t 0 * 128 + 1 * (r0_3.emb (ix2 0 d) 0).val = 0; rw [e0]; simp only [Rect.emb_apply, Rect.off_unit, Rect.stride_unit]; rfl
  | ⟨1, _⟩ => show win0_3.index t 1 * 128 + 1 * (r0_3.emb (ix2 0 d) 1).val = d.val; rw [e1]; simp only [Rect.emb_apply, Rect.off_unit, Rect.stride_unit]; show 0 * 128 + 1 * (0 + 1 * d.val) = d.val; omega

theorem blkWn (c : Dev nD) (t : Fin cfg0.N) (d : Fin 128) :
    View.ld (iblk0 V c 4 t : Vec Ideal S128x128 .f32) r0_3 (ix2 0 d) = (V c main_arg7 : S128x128.Idx → EReal) (ix2 0 d) := by
  obtain ⟨-, -, -, -, -, -, -, -, e0, e1, -⟩ := idx0 t
  show (iblk0 V c 4 t : Vec Ideal S128x128 .f32) (r0_3.emb (ix2 0 d)) = _
  unfold iblk0
  rw [View.read_apply]
  show (V c main_arg7 : S128x128.Idx → EReal) _ = _
  refine congrArg _ (funext fun a => Fin.ext ?_)
  match a with
  | ⟨0, _⟩ => show win0_4.index t 0 * 128 + 1 * (r0_3.emb (ix2 0 d) 0).val = 0; rw [e0]; simp only [Rect.emb_apply, Rect.off_unit, Rect.stride_unit]; rfl
  | ⟨1, _⟩ => show win0_4.index t 1 * 128 + 1 * (r0_3.emb (ix2 0 d) 1).val = d.val; rw [e1]; simp only [Rect.emb_apply, Rect.off_unit, Rect.stride_unit]; show 0 * 128 + 1 * (0 + 1 * d.val) = d.val; omega

/-! ## What each point writes back, and the arrays after the sixteen points -/

/-- Point t writes back block t of the neighbour sums. -/
theorem flushed5 (c : Dev nD) (t : Fin cfg0.N) :
    (dat0 V c).flushed 5 t = ((cfg0.win 5).blk t).view.read (Elt Ideal) (S2 (V c main_arg2) (V c main_v2)) := by
  show (cfg0.win 5).cut (grid0.coords t) ((dat0 V c).after 5 t) = _
  rw [after0_5]
  unfold out0_5
  rw [View.canon_unit_zero hz]
  simp only [View.ld_unit_zero (S := S256x4096) hz, View.ld_unit_zero (S := S1x4096) hz]
  have e0 : win0_5.index t (0 : Fin 2) = t.val := by have := idx0 t; tauto
  have e1 : win0_5.index t (1 : Fin 2) = 0 := by have := idx0 t; tauto
  have ht := tlt t
  funext y
  obtain ⟨p, q, rfl⟩ : ∃ (p : Fin 256) (q : Fin 1), y = ix2 p q := ⟨y 0, y 1, eq_ix2 y⟩
  obtain rfl : q = 0 := Subsingleton.elim _ _
  have hr : t.val * 256 + p.val < 4096 := by have := p.isLt; omega
  show k0_pay2 (F := Ideal) (iblk0 V c 0 t) (iblk0 V c 1 t) (ix2 p 0)
    = S2 (V c main_arg2) (V c main_v2) (((cfg0.win 5).blk t).view.emb (ix2 p 0))
  refine (sum_transfer (V c main_arg2) (V c main_v2) _ _ p ⟨t.val * 256 + p.val, hr⟩
    (fun j => blkA V c t p j _ rfl) (fun j => blkF V c t j)).trans ?_
  refine congrArg _ (funext fun a => Fin.ext ?_)
  match a with
  | ⟨0, _⟩ => show t.val * 256 + p.val = win0_5.index t 0 * 256 + 1 * p.val; rw [e0]; omega
  | ⟨1, _⟩ => show 0 = win0_5.index t 1 * 1 + 1 * 0; rw [e1]

theorem mem_blk5 (t : Fin cfg0.N) (i : S4096x1.Idx) :
    i ∈ ((cfg0.win 5).blk t).view.set ↔ ∀ a : Fin 2, win0_5.index t a * S256x1.size a ≤ (i a).val ∧ (i a).val < win0_5.index t a * S256x1.size a + S256x1.size a := by
  show i ∈ ((View.whole main_v6_0).slice (win0_5.rect t)).set ↔ _
  rw [View.set_slice_whole, Rect.mem_set_unit]
  exact Iff.rfl

/-- Every row lies in the block of the point its number divided by 256 names. -/
theorem cover5 (i : S4096x1.Idx) : ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  have e0 : win0_5.index t (0 : Fin 2) = t.val := by have := idx0 t; tauto
  have e1 : win0_5.index t (1 : Fin 2) = 0 := by have := idx0 t; tauto
  refine ⟨t, flush0_5 t, ?_⟩
  rw [mem_blk5]
  intro a
  match a with
  | ⟨0, _⟩ => show win0_5.index t 0 * 256 ≤ (i 0).val ∧ (i 0).val < win0_5.index t 0 * 256 + 256; rw [e0, ht]; omega
  | ⟨1, _⟩ => show win0_5.index t 1 * 1 ≤ (i 1).val ∧ (i 1).val < win0_5.index t 1 * 1 + 1; rw [e1]; omega

/-- Phase A leaves the neighbour sums in its first result. -/
theorem phaseA_s2 (c : Dev nD) : (dat0 V c).arrAt 5 cfg0.N = S2 (V c main_arg2) (V c main_v2) :=
  (dat0 V c).arrAt_eq_of_cover 5 _ (fun t _ => flushed5 V c t) cover5

/-- Point t writes back block t of the hidden feature. -/
theorem flushed6 (c : Dev nD) (t : Fin cfg0.N) :
    (dat0 V c).flushed 6 t = ((cfg0.win 6).blk t).view.read (Elt Ideal)
      (G (V c main_arg1) (V c main_arg6) (V c main_arg7) (S2 (V c main_arg2) (V c main_v2))) := by
  show (cfg0.win 6).cut (grid0.coords t) ((dat0 V c).after 6 t) = _
  rw [after0_6]
  unfold out0_6
  rw [View.canon_unit_zero hz]
  simp only [View.ld_unit_zero (S := S256x4096) hz, View.ld_unit_zero (S := S1x4096) hz, View.ld_unit_zero (S := S256x128) hz]
  have e0 : win0_6.index t (0 : Fin 2) = t.val := by have := idx0 t; tauto
  have e1 : win0_6.index t (1 : Fin 2) = 0 := by have := idx0 t; tauto
  have ht := tlt t
  funext y
  obtain ⟨p, q, rfl⟩ : ∃ (p : Fin 256) (q : Fin 1), y = ix2 p q := ⟨y 0, y 1, eq_ix2 y⟩
  obtain rfl : q = 0 := Subsingleton.elim _ _
  have hr : t.val * 256 + p.val < 4096 := by have := p.isLt; omega
  show k0_pay3 (F := Ideal) (iblk0 V c 0 t) (iblk0 V c 1 t) (View.ld (iblk0 V c 4 t) r0_3) (iblk0 V c 2 t)
      (View.ld (iblk0 V c 3 t) r0_3) (ix2 p 0)
    = G (V c main_arg1) (V c main_arg6) (V c main_arg7) (S2 (V c main_arg2) (V c main_v2)) (((cfg0.win 6).blk t).view.emb (ix2 p 0))
  refine (hid_transfer (V c main_arg2) (V c main_v2) (V c main_arg1) (V c main_arg6) (V c main_arg7) _ _ _ _ _ p
    ⟨t.val * 256 + p.val, hr⟩ (fun j => blkA V c t p j _ rfl) (fun j => blkF V c t j) (fun d => blkX V c t p d _ rfl)
    (fun d => blkWs V c t d) (fun d => blkWn V c t d)).trans ?_
  refine congrArg _ (funext fun a => Fin.ext ?_)
  match a with
  | ⟨0, _⟩ => show t.val * 256 + p.val = win0_6.index t 0 * 256 + 1 * p.val; rw [e0]; omega
  | ⟨1, _⟩ => show 0 = win0_6.index t 1 * 1 + 1 * 0; rw [e1]

theorem mem_blk6 (t : Fin cfg0.N) (i : S4096x1.Idx) :
    i ∈ ((cfg0.win 6).blk t).view.set ↔ ∀ a : Fin 2, win0_6.index t a * S256x1.size a ≤ (i a).val ∧ (i a).val < win0_6.index t a * S256x1.size a + S256x1.size a := by
  show i ∈ ((View.whole main_v6_1).slice (win0_6.rect t)).set ↔ _
  rw [View.set_slice_whole, Rect.mem_set_unit]
  exact Iff.rfl

/-- Every row lies in the block of the point its number divided by 256 names. -/
theorem cover6 (i : S4096x1.Idx) : ∃ t : Fin cfg0.N, (cfg0.win 6).flush t = true ∧ i ∈ ((cfg0.win 6).blk t).view.set := by
  have hi0 : (i 0).val < 4096 := (i 0).isLt
  have hi1 : (i 1).val < 1 := (i 1).isLt
  have hN : cfg0.N = 16 := N_0
  obtain ⟨t, ht⟩ : ∃ t : Fin cfg0.N, t.val = (i 0).val / 256 := ⟨⟨(i 0).val / 256, by rw [hN]; omega⟩, rfl⟩
  have e0 : win0_6.index t (0 : Fin 2) = t.val := by have := idx0 t; tauto
  have e1 : win0_6.index t (1 : Fin 2) = 0 := by have := idx0 t; tauto
  refine ⟨t, flush0_6 t, ?_⟩
  rw [mem_blk6]
  intro a
  match a with
  | ⟨0, _⟩ => show win0_6.index t 0 * 256 ≤ (i 0).val ∧ (i 0).val < win0_6.index t 0 * 256 + 256; rw [e0, ht]; omega
  | ⟨1, _⟩ => show win0_6.index t 1 * 1 ≤ (i 1).val ∧ (i 1).val < win0_6.index t 1 * 1 + 1; rw [e1]; omega

/-- Phase A leaves the hidden feature 0 of side 2 in its second result. -/
theorem phaseA_g2 (c : Dev nD) : (dat0 V c).arrAt 6 cfg0.N
    = G (V c main_arg1) (V c main_arg6) (V c main_arg7) (S2 (V c main_arg2) (V c main_v2)) :=
  (dat0 V c).arrAt_eq_of_cover 6 _ (fun t _ => flushed6 V c t) cover6

/-- Point t writes back block t of the table made numbers. -/
theorem flushed7 (c : Dev nD) (t : Fin cfg0.N) :
    (dat0 V c).flushed 7 t = ((cfg0.win 7).blk t).view.read (Elt Ideal) (MB (V c main_arg2)) := by
  show (cfg0.win 7).cut (grid0.coords t) ((dat0 V c).after 7 t) = _
  rw [after0_7]
  unfold out0_7
  rw [View.canon_unit_zero hz]
  simp only [View.ld_unit_zero (S := S256x4096) hz]
  have e0 : win0_7.index t (0 : Fin 2) = t.val := by have := idx0 t; tauto
  have e1 : win0_7.index t (1 : Fin 2) = 0 := by have := idx0 t; tauto
  have ht := tlt t
  funext y
  obtain ⟨p, j, rfl⟩ : ∃ (p : Fin 256) (j : Fin 4096), y = ix2 p j := ⟨y 0, y 1, eq_ix2 y⟩
  have hr : t.val * 256 + p.val < 4096 := by have := p.isLt; omega
  show FloatOps.sitofp (F := Ideal) .bf16 ((iblk0 V c 0 t : Vec Ideal S256x4096 .i32) (ix2 p j))
    = MB (V c main_arg2) (((cfg0.win 7).blk t).view.emb (ix2 p j))
  rw [blkA V c t p j ⟨t.val * 256 + p.val, hr⟩ rfl]
  show MB (V c main_arg2) (ix2 ⟨t.val * 256 + p.val, hr⟩ j) = _
  refine congrArg _ (funext fun a => Fin.ext ?_)
  match a with
  | ⟨0, _⟩ => show t.val * 256 + p.val = win0_7.index t 0 * 256 + 1 * p.val; rw [e0]; omega
  | ⟨1, _⟩ => show j.val = win0_7.index t 1 * 4096 + 1 * j.val; rw [e1]; omega

theorem mem_blk7 (t : Fin cfg0.N) (i : S4096x4096.Idx) :
    i ∈ ((cfg0.win 7).blk t).view.set ↔ ∀ a : Fin 2, win0_7.index t a * S256x4096.size a ≤ (i a).val ∧ (i a).val < win0_7.index t a * S256x4096.size a + S256x4096.size a := by
  show i ∈ ((View.whole main_v6_2).slice (win0_7.rect t)).set ↔ _
  rw [View.set_slice_whole, Rect.mem_set_unit]
  exact Iff.rfl

/-- Every row lies in the block of the point its number divided by 256 names. -/
theorem cover7 (i : S4096x4096.Idx) : ∃ t : Fin cfg0.N, (cfg0.win 7).flush t = true ∧ i ∈ ((cfg0.win 7).blk t).view.set := by
  have hi0 : (i 0).val < 4096 := (i 0).isLt
  have hi1 : (i 1).val < 4096 := (i 1).isLt
  have hN : cfg0.N = 16 := N_0
  obtain ⟨t, ht⟩ : ∃ t : Fin cfg0.N, t.val = (i 0).val / 256 := ⟨⟨(i 0).val / 256, by rw [hN]; omega⟩, rfl⟩
  have e0 : win0_7.index t (0 : Fin 2) = t.val := by have := idx0 t; tauto
  have e1 : win0_7.index t (1 : Fin 2) = 0 := by have := idx0 t; tauto
  refine ⟨t, flush0_7 t, ?_⟩
  rw [mem_blk7]
  intro a
  match a with
  | ⟨0, _⟩ => show win0_7.index t 0 * 256 ≤ (i 0).val ∧ (i 0).val < win0_7.index t 0 * 256 + 256; rw [e0, ht]; omega
  | ⟨1, _⟩ => show win0_7.index t 1 * 4096 ≤ (i 1).val ∧ (i 1).val < win0_7.index t 1 * 4096 + 4096; rw [e1]; omega

/-- Phase A leaves the table made numbers in its third result. -/
theorem phaseA_mb (c : Dev nD) : (dat0 V c).arrAt 7 cfg0.N = MB (V c main_arg2) :=
  (dat0 V c).arrAt_eq_of_cover 7 _ (fun t _ => flushed7 V c t) cover7

end Cert.Dual.K

end
-- ==== Proof.LibOneAxisDot.lean ====
/-
  A matrix product that contracts ONE axis, read at one output index, at the extended reals.

  Whatever the dimension numbers are (which axis of each operand is contracted, in which order the free axes
  appear in the result), once the contraction has a single axis of extent K the product's entry at an output
  index j is a sum over k < K of a left entry times a right entry: the left operand read at the index the
  dimension numbers assign to (j, k), the right operand likewise. The two families of operand indices are
  parameters here; each concrete product supplies them (for x · wᵀ they are (r, k) and (c, k), for x · w they
  are (r, k) and (k, c)). No finiteness is asked of any entry: only the index set of the sum is renamed.
-/
import Idealize.ShloMosaic.PureOps.Ideal.Laws
import Idealize.ShloMosaic.Lib.ValueIdx

noncomputable section

open scoped BigOperators

namespace Cert.Lib.OneAxisDot

open Idealize.ShloMosaic Idealize.ShloMosaic.ValueIdx

/-- The contraction's sum, indexed by the dimension numbers' own one-axis contraction index, is the sum over
    k < K of l(li k) · r(ri k), when li k and ri k are the operand indices at the k-th contraction index. -/
theorem contraction_sum_at {sl sr so : Shape} (d : DotDims sl sr so) (K : Nat) (hr : d.contr.rank = 1)
    (hs : d.contr.size ⟨0, by omega⟩ = K) (l : sl.Idx → EReal) (r : sr.Idx → EReal) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    ∑ q : d.contr.Idx, l (d.lhsIdx j q) * r (d.rhsIdx j q) = ∑ k : Fin K, l (li k) * r (ri k) := by
  rw [← Equiv.sum_comp (contrEquiv1 d K hr hs).symm]
  exact Finset.sum_congr rfl fun k _ => by rw [hl k, hrr k]

/-- A matrix unit's product accumulated into the zero matrix, at output index j: the zero adds nothing, and the
    rest is the contraction's sum. -/
theorem matmul_zero_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    matmul d prec l r (constant so .f32 0x00000000#32) j = ∑ k : Fin K, l (li k) * r (ri k) :=
  (Ideal.matmul_constant_zero_apply d prec l r j).trans (contraction_sum_at d K hr hs l r j li ri hl hrr)

/-- The host's dot_general at output index j: the same sum, with no accumulator. -/
theorem dotGeneral_apply_at {sl sr so : Shape} {φ₁ φ₂ : FTy} (d : DotDims sl sr so) (K : Nat) (hr : d.contr.rank = 1)
    (hs : d.contr.size ⟨0, by omega⟩ = K) (prec : Option ContractPrecision)
    (l : FVec Ideal sl φ₁) (r : FVec Ideal sr φ₂) (j : so.Idx)
    (li : Fin K → sl.Idx) (ri : Fin K → sr.Idx)
    (hl : ∀ k, d.lhsIdx j ((contrEquiv1 d K hr hs).symm k) = li k)
    (hrr : ∀ k, d.rhsIdx j ((contrEquiv1 d K hr hs).symm k) = ri k) :
    Host.dotGeneral d prec l r j = ∑ k : Fin K, l (li k) * r (ri k) :=
  (Ideal.dotGeneral_apply d prec .single l r j).trans (contraction_sum_at d K hr hs l r j li ri hl hrr)

end Cert.Lib.OneAxisDot

end
-- ==== Proof.LibDotFreeAxis.lean ====
/-
  The free (non-contracted, non-batch) axes of a matrix product's operand indices.

  A product's dimension numbers say, for every axis of each operand, where its coordinate comes from: a free axis of
  the left operand reads the output index at the axis's place among the left free axes (after the batch axes), a free
  axis of the right operand reads it after all of the left operand's. With no batch axes and one free axis on each
  side, the left operand's free coordinate is the output's coordinate 0 and the right operand's is the output's
  coordinate 1, whatever the contraction position is. These are the companions, for the free axes, of the
  library's statements about the single contracted axis.
-/
import Idealize.ShloMosaic.PureOps.Dims

namespace Cert.Lib.DotFreeAxis

open Idealize.ShloMosaic

variable {sl sr so : Shape} (d : DotDims sl sr so)

/-- No batch axes, one left free axis a: the left operand's coordinate on a is the output's coordinate 0. -/
theorem lhsIdx_val_of_free {a : Fin sl.rank} (hb : d.lhsBatch = []) (hn : d.lhsNonContracting = [a])
    (h0 : 0 < so.rank) (j : so.Idx) (k : d.contr.Idx) :
    (d.lhsIdx j k a).val = (j ⟨0, h0⟩).val := by
  have h1 : a ∉ d.lhsBatch := by rw [hb]; exact List.not_mem_nil
  have h2 : a ∈ d.lhsNonContracting := by rw [hn]; exact List.mem_singleton.mpr rfl
  unfold DotDims.lhsIdx
  rw [dif_neg h1, dif_pos h2]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn])

/-- No batch axes, one free axis on each side: the right operand's coordinate on its free axis a is the output's
    coordinate 1. -/
theorem rhsIdx_val_of_free {a : Fin sr.rank} {a' : Fin sl.rank} (hb : d.lhsBatch = []) (hb' : d.rhsBatch = [])
    (hn' : d.lhsNonContracting = [a']) (hn : d.rhsNonContracting = [a])
    (h1 : 1 < so.rank) (j : so.Idx) (k : d.contr.Idx) :
    (d.rhsIdx j k a).val = (j ⟨1, h1⟩).val := by
  have h2 : a ∉ d.rhsBatch := by rw [hb']; exact List.not_mem_nil
  have h3 : a ∈ d.rhsNonContracting := by rw [hn]; exact List.mem_singleton.mpr rfl
  unfold DotDims.rhsIdx
  rw [dif_neg h2, dif_pos h3]
  simp only [Fin.val_cast]
  have key : ∀ (p q : Nat) (hp : p < so.rank) (hq : q < so.rank), p = q → (j ⟨p, hp⟩).val = (j ⟨q, hq⟩).val :=
    fun p q hp hq h => by subst h; rfl
  exact key _ _ _ _ (by simp [hb, hn', hn])

end Cert.Lib.DotFreeAxis
-- ==== Proof.Phase1.lean ====
/-
  Phase B of the kernel (the second of its three regions): the finished output of side 1, one block of 256 rows at a time,
  then as a whole array.

  At grid point t the body sees rows 256·t … 256·t + 255 of the adjacency table a21 and of the feature array x1, the whole
  rows f and g of side-2 features (input and hidden) and four whole weight matrices. For each of its rows r it takes
  m(r) = sup_j [a21(r, j) > 0 ? f(j) : -inf], s(r) = (m(r) = -inf ? 0 : m(r)) and sp(r) = sup_j [a21(r, j) > 0 ? g(j) : 0],
  the hidden row hid(r, h) = max (Σ_d x1(r, d) · ws0(h, d) + s(r) · Σ_d wn0(h, d), 0), and writes
  out(r, q) = Σ_h hid(r, h) · ws1(q, h) + sp(r) · Σ_d wn1(q, d). The two products with a transposed weight matrix are taken
  by the matrix unit into a zero accumulator; the row sums of the neighbour weights are lane sums laid out as a row. Every
  row of the result lies in exactly one block, so after the sixteen points the array holds this formula at every row.
-/
import proofs.«173209_g89215060672586_cont_9to1c4b_471_9_alg».proof.Proof.Gen.KernelIdeal.Frame
import proofs.«173209_g89215060672586_cont_9to1c4b_471_9_alg».proof.Proof.PhaseSpec
import proofs.«173209_g89215060672586_cont_9to1c4b_471_9_alg».proof.Proof.LibRowOps
import proofs.«173209_g89215060672586_cont_9to1c4b_471_9_alg».proof.Proof.LibOneAxisDot
import proofs.«173209_g89215060672586_cont_9to1c4b_471_9_alg».proof.Proof.LibDotFreeAxis
import Idealize.ShloMosaic.Lib.Pipeline.Value
import Idealize.ShloMosaic.Lib.Tactic

noncomputable section

open scoped BigOperators

namespace Cert.Dual.K.PhaseB

open Idealize.ShloMosaic Idealize.ShloMosaic.TcCoe Idealize.SL.Sem Idealize.ShloMosaic.ValueIdx
open Idealize.ShloMosaic.Pipeline (Dat)
open Cert.KernelIdeal Cert.KernelIdeal.Gen Cert.Dual.Body

theorem hz : (![0, 0] : Fin 2 → Nat) = fun _ => 0 := funext fun a => by fin_cases a <;> rfl

/-! ## The matrix unit's product x · wᵀ into the zero accumulator, at an entry -/

/-- Entry (p, q) of a block of rows against the transpose of a square matrix: the sum over k of l(p, k) · r(q, k). -/
theorem dotT_at {φ₁ φ₂ : FTy} (l : FVec Ideal S256x128 φ₁) (r : FVec Ideal S128x128 φ₂) (p : Fin 256) (q : Fin 128) :
    matmul (F := Ideal) dot_S256x128_S128x128_S256x128_1_1_0_0_n_n none l r (constant (F := Ideal) S256x128 .f32 0x00000000#32) (ix2 p q)
      = ∑ k : Fin 128, l (ix2 p k) * r (ix2 q k) := by
  refine Cert.Lib.OneAxisDot.matmul_zero_apply_at dot_S256x128_S128x128_S256x128_1_1_0_0_n_n 128 rfl rfl none l r (ix2 p q)
    (fun k => ix2 p k) (fun k => ix2 q k) (fun k => ?_) (fun k => ?_)
  · have hk := contrEquiv1_symm_val dot_S256x128_S128x128_S256x128_1_1_0_0_n_n 128 rfl rfl k
    refine funext fun a => Fin.ext ?_
    match a with
    | ⟨0, _⟩ => exact Cert.Lib.DotFreeAxis.lhsIdx_val_of_free _ rfl rfl (by decide) _ _
    | ⟨1, _⟩ => exact (dot_S256x128_S128x128_S256x128_1_1_0_0_n_n.lhsIdx_val_of_single rfl _ _).trans hk
  · have hk := contrEquiv1_symm_val dot_S256x128_S128x128_S256x128_1_1_0_0_n_n 128 rfl rfl k
    refine funext fun a => Fin.ext ?_
    match a with
    | ⟨0, _⟩ => exact Cert.Lib.DotFreeAxis.rhsIdx_val_of_free _ rfl rfl rfl rfl (by decide) _ _
    | ⟨1, _⟩ => exact (dot_S256x128_S128x128_S256x128_1_1_0_0_n_n.rhsIdx_val_of_single rfl _ _).trans hk

/-! ## The comparison with -inf -/

/-- "x if x is not -inf, else a". -/
theorem select_oeq_bot (x a : EReal) : Scalar.select (Ideal.cmp .oeq x ⊥) a x = if x = ⊥ then a else x := by
  by_cases h : x = ⊥
  · have e : Ideal.cmp .oeq x ⊥ = 1#1 := by simp [Ideal.cmp, h]
    rw [if_pos h, e, select_one]
  · have e : Ideal.cmp .oeq x ⊥ = 0#1 := by simp [Ideal.cmp, h]
    rw [if_neg h, e, select_zero]

/-! ## The body's values at an entry of the block -/

/-- The lane maximum over the selected places of the row, -inf elsewhere, kept as a column. -/
def mxCol (v0 : Vec Ideal S256x4096 .i32) (v3 : Vec Ideal S1x4096 .f32) : FVec Ideal S256x1 .f32 :=
  shapeCast S256x1 (multiReduction (F := Ideal) .maximumf [1] S256
    (select (k1_pay2 (F := Ideal) v0)
      (broadcastTo S256x4096 (shapeCast S1x4096 (shapeCast S1x4096 v3 shapeCasts_S1x4096_S1x4096) shapeCasts_S1x4096_S1x4096) broadcasts_S1x4096_S256x4096)
      (broadcast S256x4096 (Scalar.ofBits (F := Ideal) .f32 0xFF800000#32)))
    0xFF800000#32 reduces_S256x4096_S256 (.inl rfl) rfl) shapeCasts_S256_S256x1

theorem mxCol_at (v0 : Vec Ideal S256x4096 .i32) (v3 : Vec Ideal S1x4096 .f32) (p : Fin 256) :
    mxCol v0 v3 (ix2 p 0)
      = ⨆ j : Fin 4096, Scalar.select (IntOp.cmpi .sgt (v0 (ix2 p j)) 0#32) (v3 (ix2 0 j)) (⊥ : EReal) := by
  unfold mxCol
  refine (rowMax_at _ reduces_S256x4096_S256 (.inl rfl) rfl shapeCasts_S256_S256x1 p).trans ?_
  refine iSup_congr fun j => ?_
  show Scalar.select (IntOp.cmpi .sgt (v0 (ix2 p j)) 0#32)
      (broadcastTo S256x4096 (shapeCast S1x4096 (shapeCast S1x4096 v3 shapeCasts_S1x4096_S1x4096) shapeCasts_S1x4096_S1x4096)
        broadcasts_S1x4096_S256x4096 (ix2 p j)) (Ideal.ofBits .f32 0xFF800000#32) = _
  rw [rowBcast_at, shapeCast_self, shapeCast_self, Cert.Lib.MaxReduce.ofBits_neg_inf_f32]
  rfl

/-- The neighbour maxima of a block of rows, -inf replaced by 0. -/
theorem maxBlk_at (v0 : Vec Ideal S256x4096 .i32) (v3 : Vec Ideal S1x4096 .f32) (p : Fin 256) :
    k1_pay3 (F := Ideal) v0 v3 (ix2 p 0)
      = if mxCol v0 v3 (ix2 p 0) = ⊥ then 0 else mxCol v0 v3 (ix2 p 0) := by
  have e : k1_pay3 (F := Ideal) v0 v3
      = select (cmpf (F := Ideal) .oeq (mxCol v0 v3) (broadcast S256x1 (Scalar.ofBits (F := Ideal) .f32 0xFF800000#32)))
          (broadcast S256x1 (Scalar.ofBits (F := Ideal) .f32 0x00000000#32)) (mxCol v0 v3) := rfl
  rw [e, select_apply, cmpf_apply, broadcast_apply, broadcast_apply]
  generalize mxCol v0 v3 (ix2 p 0) = x
  show Scalar.select (Ideal.cmp .oeq x (Ideal.ofBits .f32 0xFF800000#32)) (Ideal.ofBits .f32 0x00000000#32) x = _
  rw [Cert.Lib.MaxReduce.ofBits_neg_inf_f32, Ideal.ofBits_zero_f32]
  exact select_oeq_bot _ _

/-- The maxima of the hidden row over the selected places, 0 elsewhere. -/
theorem maxZeroBlk_at (v0 : Vec Ideal S256x4096 .i32) (v15 : Vec Ideal S1x4096 .f32) (p : Fin 256) :
    k1_pay4 (F := Ideal) v0 v15 (ix2 p 0)
      = ⨆ j : Fin 4096, Scalar.select (IntOp.cmpi .sgt (v0 (ix2 p j)) 0#32) (v15 (ix2 0 j)) (0 : EReal) := by
  unfold k1_pay4
  refine (rowMax_at _ reduces_S256x4096_S256 (.inl rfl) rfl shapeCasts_S256_S256x1 p).trans ?_
  refine iSup_congr fun j => ?_
  show Scalar.select (IntOp.cmpi .sgt (v0 (ix2 p j)) 0#32)
      (broadcastTo S256x4096 (shapeCast S1x4096 (shapeCast S1x4096 v15 shapeCasts_S1x4096_S1x4096) shapeCasts_S1x4096_S1x4096)
        broadcasts_S1x4096_S256x4096 (ix2 p j)) (Ideal.ofBits .f32 0x00000000#32) = _
  rw [rowBcast_at, shapeCast_self, shapeCast_self, Ideal.ofBits_zero_f32]
  rfl

/-- The row sums of a weight matrix laid out as a row. -/
theorem rowSumsRow_at (v55 : Vec Ideal S128x128 .f32) (h : Fin 128) :
    k1_pay8 (F := Ideal) v55 (ix2 0 h) = ∑ d : Fin 128, v55 (ix2 h d) :=
  rowSums_row_at v55 reduces_S128x128_S128 (.inl rfl) rfl shapeCasts_S128_S1x128 h

/-- The hidden rows of a block: max (x · wsᵀ + s ⊗ rowsums(wn), 0). -/
theorem hidBlk_at (v14 : FVec Ideal S256x1 .f32) (v50 : Vec Ideal S128x128 .f32) (v60 : Vec Ideal S256x128 .f32)
    (v61 : Vec Ideal S128x128 .f32) (p : Fin 256) (h : Fin 128) :
    k1_pay9 (F := Ideal) v14 v50 v60 v61 (ix2 p h)
      = max ((∑ d : Fin 128, v60 (ix2 p d) * v61 (ix2 h d)) + v14 (ix2 p 0) * ∑ d : Fin 128, v50 (ix2 h d)) (0 : EReal) := by
  show max ((matmul (F := Ideal) dot_S256x128_S128x128_S256x128_1_1_0_0_n_n none
        (truncf (F := Ideal) .bf16 v60 bitsLt_bf16_f32) (truncf (F := Ideal) .bf16 v61 bitsLt_bf16_f32)
        (constant (F := Ideal) S256x128 .f32 0x00000000#32) (ix2 p h) : EReal)
      + broadcastTo S256x128 v14 broadcasts_S256x1_S256x128 (ix2 p h)
        * broadcastTo S256x128 (shapeCast S1x128 (multiReduction (F := Ideal) .add [1] S128 v50 0x00000000#32 reduces_S128x128_S128 (.inl rfl) rfl) shapeCasts_S128_S1x128)
            broadcasts_S1x128_S256x128 (ix2 p h)) (Ideal.ofBits .f32 0x00000000#32) = _
  rw [dotT_at, Cert.Lib.KeepdimsColumn.column_broadcast_at, rowBcast_at,
    rowSums_row_at v50 reduces_S128x128_S128 (.inl rfl) rfl shapeCasts_S128_S1x128 h, Ideal.ofBits_zero_f32]
  rfl

/-- A side's output on a block: hidden · ws1ᵀ + sp ⊗ rowsums(wn1), the row sums handed in as a row. -/
theorem outBlk_at (v22 : FVec Ideal S256x1 .f32) (v59 : FVec Ideal S1x128 .f32) (v74 : FVec Ideal S256x128 .bf16)
    (v75 : FVec Ideal S128x128 .bf16) (p : Fin 256) (q : Fin 128) :
    k1_pay1 (F := Ideal) v22 v59 v74 v75 (constant (F := Ideal) S256x128 .f32 0x00000000#32) (ix2 p q)
      = (∑ h : Fin 128, v74 (ix2 p h) * v75 (ix2 q h)) + v22 (ix2 p 0) * v59 (ix2 0 q) := by
  show (matmul (F := Ideal) dot_S256x128_S128x128_S256x128_1_1_0_0_n_n none v74 v75
        (constant (F := Ideal) S256x128 .f32 0x00000000#32) (ix2 p q) : EReal)
      + broadcastTo S256x128 v22 broadcasts_S256x1_S256x128 (ix2 p q)
        * broadcastTo S256x128 v59 broadcasts_S1x128_S256x128 (ix2 p q) = _
  rw [dotT_at, Cert.Lib.KeepdimsColumn.column_broadcast_at, rowBcast_at]
  rfl

/-! ## From the block's coordinates to the arrays' -/

/-- The neighbour maxima: a block whose row p is row r of the table gives entry r of the maxima with -inf made 0. -/
theorem max_transfer (A : Tab) (f : Row) (b0 : Vec Ideal S256x4096 .i32) (b1 : Vec Ideal S1x4096 .f32) (p : Fin 256)
    (r : Fin 4096) (h0 : ∀ j : Fin 4096, b0 (ix2 p j) = A (ix2 r j)) (h1 : ∀ j : Fin 4096, b1 (ix2 0 j) = f (ix2 0 j)) :
    k1_pay3 (F := Ideal) b0 b1 (ix2 p 0) = S1 A f (ix2 r 0) := by
  have e : mxCol b0 b1 (ix2 p 0) = MX A f (ix2 r 0) := by
    rw [mxCol_at]
    show _ = ⨆ j : Fin 4096, Scalar.select (IntOp.cmpi .sgt (A (ix2 r j)) 0#32) (f (ix2 0 j)) (⊥ : EReal)
    exact iSup_congr fun j => by rw [h0 j, h1 j]
  rw [maxBlk_at, e]
  by_cases hb : MX A f (ix2 r 0) = ⊥
  · have e' : S1 A f (ix2 r 0) = 0 := if_pos hb
    rw [e', if_pos hb]
  · have e' : S1 A f (ix2 r 0) = MX A f (ix2 r 0) := if_neg hb
    rw [e', if_neg hb]

/-- The maxima of the hidden row, unselected places 0: likewise. -/
theorem maxZero_transfer (A : Tab) (g : Row) (b0 : Vec Ideal S256x4096 .i32) (b2 : Vec Ideal S1x4096 .f32) (p : Fin 256)
    (r : Fin 4096) (h0 : ∀ j : Fin 4096, b0 (ix2 p j) = A (ix2 r j)) (h2 : ∀ j : Fin 4096, b2 (ix2 0 j) = g (ix2 0 j)) :
    k1_pay4 (F := Ideal) b0 b2 (ix2 p 0) = S1P A g (ix2 r 0) := by
  rw [maxZeroBlk_at]
  show _ = ⨆ j : Fin 4096, Scalar.select (IntOp.cmpi .sgt (A (ix2 r j)) 0#32) (g (ix2 0 j)) (0 : EReal)
  exact iSup_congr fun j => by rw [h0 j, h2 j]

/-- The hidden rows: a block of x whose row p is row r of x, and the two weight matrices whole. -/
theorem hid_transfer (A : Tab) (f : Row) (X : Feat) (Ws Wn : Wt) (b0 : Vec Ideal S256x4096 .i32) (b1 : Vec Ideal S1x4096 .f32)
    (x : Vec Ideal S256x128 .f32) (ws wn : Vec Ideal S128x128 .f32) (p : Fin 256) (r : Fin 4096) (h : Fin 128)
    (h0 : ∀ j : Fin 4096, b0 (ix2 p j) = A (ix2 r j)) (h1 : ∀ j : Fin 4096, b1 (ix2 0 j) = f (ix2 0 j))
    (hx : ∀ d : Fin 128, x (ix2 p d) = X (ix2 r d)) (hs : ∀ a d : Fin 128, ws (ix2 a d) = Ws (ix2 a d))
    (hn : ∀ a d : Fin 128, wn (ix2 a d) = Wn (ix2 a d)) :
    k1_pay9 (F := Ideal) (k1_pay3 (F := Ideal) b0 b1) wn x ws (ix2 p h) = H X Ws Wn (S1 A f) (ix2 r h) := by
  have e1 : (∑ d : Fin 128, x (ix2 p d) * ws (ix2 h d)) = ∑ d : Fin 128, X (ix2 r d) * Ws (ix2 h d) :=
    Finset.sum_congr rfl fun d _ => by rw [hx d, hs h d]
  have e2 : (∑ d : Fin 128, wn (ix2 h d)) = ∑ d : Fin 128, Wn (ix2 h d) := Finset.sum_congr rfl fun d _ => hn h d
  show _ = max ((∑ d : Fin 128, X (ix2 r d) * Ws (ix2 h d)) + S1 A f (ix2 r 0) * ∑ d : Fin 128, Wn (ix2 h d)) (0 : EReal)
  rw [hidBlk_at, max_transfer A f b0 b1 p r h0 h1, e1, e2]

/-- The finished output of side 1 on a block. -/
theorem out_transfer (A : Tab) (f g : Row) (X : Feat) (Ws0 Wn0 Ws1 Wn1 : Wt) (b0 : Vec Ideal S256x4096 .i32)
    (b1 b2 : Vec Ideal S1x4096 .f32) (x : Vec Ideal S256x128 .f32) (ws0 wn0 ws1 wn1 : Vec Ideal S128x128 .f32)
    (p : Fin 256) (r : Fin 4096) (q : Fin 128)
    (h0 : ∀ j : Fin 4096, b0 (ix2 p j) = A (ix2 r j)) (h1 : ∀ j : Fin 4096, b1 (ix2 0 j) = f (ix2 0 j))
    (h2 : ∀ j : Fin 4096, b2 (ix2 0 j) = g (ix2 0 j)) (hx : ∀ d : Fin 128, x (ix2 p d) = X (ix2 r d))
    (hs0 : ∀ a d : Fin 128, ws0 (ix2 a d) = Ws0 (ix2 a d)) (hn0 : ∀ a d : Fin 128, wn0 (ix2 a d) = Wn0 (ix2 a d))
    (hs1 : ∀ a d : Fin 128, ws1 (ix2 a d) = Ws1 (ix2 a d)) (hn1 : ∀ a d : Fin 128, wn1 (ix2 a d) = Wn1 (ix2 a d)) :
    k1_pay1 (F := Ideal) (k1_pay4 (F := Ideal) b0 b2) (k1_pay8 (F := Ideal) wn1)
        (k1_pay9 (F := Ideal) (k1_pay3 (F := Ideal) b0 b1) wn0 x ws0) (k1_pay10 (F := Ideal) ws1)
        (constant (F := Ideal) S256x128 .f32 0x00000000#32) (ix2 p q)
      = O X Ws0 Wn0 Ws1 Wn1 (S1 A f) (S1P A g) (ix2 r q) := by
  show _ = (∑ h : Fin 128, H X Ws0 Wn0 (S1 A f) (ix2 r h) * Ws1 (ix2 q h))
      + S1P A g (ix2 r 0) * ∑ d : Fin 128, Wn1 (ix2 q d)
  rw [outBlk_at]
  refine congrArg₂ (· + ·) (Finset.sum_congr rfl fun h _ => ?_) ?_
  · rw [hid_transfer A f X Ws0 Wn0 b0 b1 x ws0 wn0 p r h h0 h1 hx hs0 hn0]
    show _ * ws1 (ix2 q h) = _
    rw [hs1 q h]
  · rw [maxZero_transfer A g b0 b2 p r h0 h2, rowSumsRow_at]
    exact congrArg _ (Finset.sum_congr rfl fun d _ => hn1 q d)

/-! ## The blocks are rows of the arrays -/

variable (V : (c : Dev nD) → (b : Ref sig .tc) → Buf (Elt Ideal) ((c : Thread nD τ).loc b))

/-- The printed index maps over the sixteen points: the table, the block of x and the output are at block row t, the two
    feature rows and the four weight matrices at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = 0 ∧ win1_2.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0
    ∧ win1_7.index t (0 : Fin 2) = 0 ∧ win1_7.index t (1 : Fin 2) = 0
    ∧ win1_10.index t (0 : Fin 2) = t.val ∧ win1_10.index t (1 : Fin 2) = 0 :=
  (by decide +kernel : ∀ t : Fin grid1.N, _)

theorem tlt (t : Fin cfg1.N) : t.val < 16 := lt_of_lt_of_eq t.isLt N_1

/-- Row p of the table's block at point t is row 256·t + p of the table. -/
theorem blkA (c : Dev nD) (t : Fin cfg1.N) (p : Fin 256) (j : Fin 4096) (r : Fin 4096) (hr : r.val = t.val * 256 + p.val) :
    (iblk1 V c 0 t : Vec Ideal S256x4096 .i32) (ix2 p j) = (V c main_arg3 : S4096x4096.Idx → BitVec 32) (ix2 r j) := by
  obtain ⟨a00, a01, a10, a11, a20, a21, a30, a31, a40, a41, a50, a51, a60, a61, a70, a71, o0, o1⟩ := idx1 t
  unfold iblk1
  rw [View.read_apply]
  show (V c main_arg3 : S4096x4096.Idx → BitVec 32) _ = _
  refine congrArg _ (funext fun b => Fin.ext ?_)
  match b with
  | ⟨0, _⟩ => show win1_0.index t 0 * 256 + 1 * p.val = r.val; rw [a00, hr]; omega
  | ⟨1, _⟩ => show win1_0.index t 1 * 4096 + 1 * j.val = j.val; rw [a01]; omega

/-- The input feature row is handed whole to every point. -/
theorem blkF (c : Dev nD) (t : Fin cfg1.N) (j : Fin 4096) :
    (iblk1 V c 1 t : Vec Ideal S1x4096 .f32) (ix2 0 j) = (V c main_v5 : S1x4096.Idx → EReal) (ix2 0 j) := by
  obtain ⟨a00, a01, a10, a11, a20, a21, a30, a31, a40, a41, a50, a51, a60, a61, a70, a71, o0, o1⟩ := idx1 t
  unfold iblk1
  rw [View.read_apply]
  show (V c main_v5 : S1x4096.Idx → EReal) _ = _
  refine congrArg _ (funext fun b => Fin.ext ?_)
  match b with
  | ⟨0, _⟩ => show win1_1.index t 0 * 1 + 1 * 0 = 0; rw [a10]
  | ⟨1, _⟩ => show win1_1.index t 1 * 4096 + 1 * j.val = j.val; rw [a11]; omega

/-- The hidden feature row is handed whole to every point. -/
theorem blkG (c : Dev nD) (t : Fin cfg1.N) (j : Fin 4096) :
    (iblk1 V c 2 t : Vec Ideal S1x4096 .f32) (ix2 0 j) = (V c main_v7 : S1x4096.Idx → EReal) (ix2 0 j) := by
  obtain ⟨a00, a01, a10, a11, a20, a21, a30, a31, a40, a41, a50, a51, a60, a61, a70, a71, o0, o1⟩ := idx1 t
  unfold iblk1
  rw [View.read_apply]
  show (V c main_v7 : S1x4096.Idx → EReal) _ = _
  refine congrArg _ (funext fun b => Fin.ext ?_)
  match b with
  | ⟨0, _⟩ => show win1_2.index t 0 * 1 + 1 * 0 = 0; rw [a20]
  | ⟨1, _⟩ => show win1_2.index t 1 * 4096 + 1 * j.val = j.val; rw [a21]; omega

/-- Row p of x's block at point t is row 256·t + p of x. -/
theorem blkX (c : Dev nD) (t : Fin cfg1.N) (p : Fin 256) (d : Fin 128) (r : Fin 4096) (hr : r.val = t.val * 256 + p.val) :
    (iblk1 V c 3 t : Vec Ideal S256x128 .f32) (ix2 p d) = (V c main_arg0 : S4096x128.Idx → EReal) (ix2 r d) := by
  obtain ⟨a00, a01, a10, a11, a20, a21, a30, a31, a40, a41, a50, a51, a60, a61, a70, a71, o0, o1⟩ := idx1 t
  unfold iblk1
  rw [View.read_apply]
  show (V c main_arg0 : S4096x128.Idx → EReal) _ = _
  refine congrArg _ (funext fun b => Fin.ext ?_)
  match b with
  | ⟨0, _⟩ => show win1_3.index t 0 * 256 + 1 * p.val = r.val; rw [a30, hr]; omega
  | ⟨1, _⟩ => show win1_3.index t 1 * 128 + 1 * d.val = d.val; rw [a31]; omega

/-- The first layer's self weights are handed whole to every point. -/
theorem blkWs0 (c : Dev nD) (t : Fin cfg1.N) (a d : Fin 128) :
    (iblk1 V c 4 t : Vec Ideal S128x128 .f32) (ix2 a d) = (V c main_arg4 : S128x128.Idx → EReal) (ix2 a d) := by
  obtain ⟨a00, a01, a10, a11, a20, a21, a30, a31, a40, a41, a50, a51, a60, a61, a70, a71, o0, o1⟩ := idx1 t
  unfold iblk1
  rw [View.read_apply]
  show (V c main_arg4 : S128x128.Idx → EReal) _ = _
  refine congrArg _ (funext fun b => Fin.ext ?_)
  match b with
  | ⟨0, _⟩ => show win1_4.index t 0 * 128 + 1 * a.val = a.val; rw [a40]; omega
  | ⟨1, _⟩ => show win1_4.index t 1 * 128 + 1 * d.val = d.val; rw [a41]; omega

/-- The first layer's neighbour weights are handed whole to every point. -/
theorem blkWn0 (c : Dev nD) (t : Fin cfg1.N) (a d : Fin 128) :
    (iblk1 V c 5 t : Vec Ideal S128x128 .f32) (ix2 a d) = (V c main_arg5 : S128x128.Idx → EReal) (ix2 a d) := by
  obtain ⟨a00, a01, a10, a11, a20, a21, a30, a31, a40, a41, a50, a51, a60, a61, a70, a71, o0, o1⟩ := idx1 t
  unfold iblk1
  rw [View.read_apply]
  show (V c main_arg5 : S128x128.Idx → EReal) _ = _
  refine congrArg _ (funext fun b => Fin.ext ?_)
  match b with
  | ⟨0, _⟩ => show win1_5.index t 0 * 128 + 1 * a.val = a.val; rw [a50]; omega
  | ⟨1, _⟩ => show win1_5.index t 1 * 128 + 1 * d.val = d.val; rw [a51]; omega

/-- The second layer's self weights are handed whole to every point. -/
theorem blkWs1 (c : Dev nD) (t : Fin cfg1.N) (a d : Fin 128) :
    (iblk1 V c 6 t : Vec Ideal S128x128 .f32) (ix2 a d) = (V c main_arg8 : S128x128.Idx → EReal) (ix2 a d) := by
  obtain ⟨a00, a01, a10, a11, a20, a21, a30, a31, a40, a41, a50, a51, a60, a61, a70, a71, o0, o1⟩ := idx1 t
  unfold iblk1
  rw [View.read_apply]
  show (V c main_arg8 : S128x128.Idx → EReal) _ = _
  refine congrArg _ (funext fun b => Fin.ext ?_)
  match b with
  | ⟨0, _⟩ => show win1_6.index t 0 * 128 + 1 * a.val = a.val; rw [a60]; omega
  | ⟨1, _⟩ => show win1_6.index t 1 * 128 + 1 * d.val = d.val; rw [a61]; omega

/-- The second layer's neighbour weights are handed whole to every point. -/
theorem blkWn1 (c : Dev nD) (t : Fin cfg1.N) (a d : Fin 128) :
    (iblk1 V c 7 t : Vec Ideal S128x128 .f32) (ix2 a d) = (V c main_arg9 : S128x128.Idx → EReal) (ix2 a d) := by
  obtain ⟨a00, a01, a10, a11, a20, a21, a30, a31, a40, a41, a50, a51, a60, a61, a70, a71, o0, o1⟩ := idx1 t
  unfold iblk1
  rw [View.read_apply]
  show (V c main_arg9 : S128x128.Idx → EReal) _ = _
  refine congrArg _ (funext fun b => Fin.ext ?_)
  match b with
  | ⟨0, _⟩ => show win1_7.index t 0 * 128 + 1 * a.val = a.val; rw [a70]; omega
  | ⟨1, _⟩ => show win1_7.index t 1 * 128 + 1 * d.val = d.val; rw [a71]; omega

/-! ## What each point writes back, and the array after the sixteen points -/

/-- Point t writes back block t of the finished output of side 1. -/
theorem flushed10 (c : Dev nD) (t : Fin cfg1.N) :
    (dat1 V c).flushed 10 t = ((cfg1.win 10).blk t).view.read (Elt Ideal)
      (O (V c main_arg0) (V c main_arg4) (V c main_arg5) (V c main_arg8) (V c main_arg9)
        (S1 (V c main_arg3) (V c main_v5)) (S1P (V c main_arg3) (V c main_v7))) := by
  show (cfg1.win 10).cut (grid1.coords t) ((dat1 V c).after 10 t) = _
  rw [after1_10]
  unfold out1_10
  rw [View.canon_unit_zero hz]
  simp only [View.ld_unit_zero (S := S256x4096) hz, View.ld_unit_zero (S := S1x4096) hz,
    View.ld_unit_zero (S := S256x128) hz, View.ld_unit_zero (S := S128x128) hz]
  obtain ⟨a00, a01, a10, a11, a20, a21, a30, a31, a40, a41, a50, a51, a60, a61, a70, a71, o0, o1⟩ := idx1 t
  have ht := tlt t
  funext y
  obtain ⟨p, q, rfl⟩ : ∃ (p : Fin 256) (q : Fin 128), y = ix2 p q := ⟨y 0, y 1, eq_ix2 y⟩
  have hr : t.val * 256 + p.val < 4096 := by have := p.isLt; omega
  show k1_pay1 (F := Ideal) (k1_pay4 (F := Ideal) (iblk1 V c 0 t) (iblk1 V c 2 t)) (k1_pay8 (F := Ideal) (iblk1 V c 7 t))
      (k1_pay9 (F := Ideal) (k1_pay3 (F := Ideal) (iblk1 V c 0 t) (iblk1 V c 1 t)) (iblk1 V c 5 t) (iblk1 V c 3 t) (iblk1 V c 4 t))
      (k1_pay10 (F := Ideal) (iblk1 V c 6 t)) (constant (F := Ideal) S256x128 .f32 0x00000000#32) (ix2 p q)
    = O (V c main_arg0) (V c main_arg4) (V c main_arg5) (V c main_arg8) (V c main_arg9)
        (S1 (V c main_arg3) (V c main_v5)) (S1P (V c main_arg3) (V c main_v7)) (((cfg1.win 10).blk t).view.emb (ix2 p q))
  refine (out_transfer (V c main_arg3) (V c main_v5) (V c main_v7) (V c main_arg0) (V c main_arg4) (V c main_arg5)
    (V c main_arg8) (V c main_arg9) _ _ _ _ _ _ _ _ p ⟨t.val * 256 + p.val, hr⟩ q
    (fun j => blkA V c t p j _ rfl) (fun j => blkF V c t j) (fun j => blkG V c t j) (fun d => blkX V c t p d _ rfl)
    (fun a d => blkWs0 V c t a d) (fun a d => blkWn0 V c t a d) (fun a d => blkWs1 V c t a d)
    (fun a d => blkWn1 V c t a d)).trans ?_
  refine congrArg _ (funext fun b => Fin.ext ?_)
  match b with
  | ⟨0, _⟩ => show t.val * 256 + p.val = win1_10.index t 0 * 256 + 1 * p.val; rw [o0]; omega
  | ⟨1, _⟩ => show q.val = win1_10.index t 1 * 128 + 1 * q.val; rw [o1]; omega

theorem mem_blk10 (t : Fin cfg1.N) (i : S4096x128.Idx) :
    i ∈ ((cfg1.win 10).blk t).view.set ↔ ∀ a : Fin 2, win1_10.index t a * S256x128.size a ≤ (i a).val ∧ (i a).val < win1_10.index t a * S256x128.size a + S256x128.size a := by
  show i ∈ ((View.whole main_v8_2).slice (win1_10.rect t)).set ↔ _
  rw [View.set_slice_whole, Rect.mem_set_unit]
  exact Iff.rfl

/-- Every row lies in the block of the point its number divided by 256 names. -/
theorem cover10 (i : S4096x128.Idx) : ∃ t : Fin cfg1.N, (cfg1.win 10).flush t = true ∧ i ∈ ((cfg1.win 10).blk t).view.set := by
  have hi0 : (i 0).val < 4096 := (i 0).isLt
  have hi1 : (i 1).val < 128 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨a00, a01, a10, a11, a20, a21, a30, a31, a40, a41, a50, a51, a60, a61, a70, a71, o0, o1⟩ := idx1 t
  refine ⟨t, flush1_10 t, ?_⟩
  rw [mem_blk10]
  intro a
  match a with
  | ⟨0, _⟩ => show win1_10.index t 0 * 256 ≤ (i 0).val ∧ (i 0).val < win1_10.index t 0 * 256 + 256; rw [o0, ht]; omega
  | ⟨1, _⟩ => show win1_10.index t 1 * 128 ≤ (i 1).val ∧ (i 1).val < win1_10.index t 1 * 128 + 128; rw [o1]; omega

/-- Phase B leaves the finished output of side 1 in its third result. -/
theorem _root_.Cert.Dual.K.phaseB_o1 (c : Dev nD) : (dat1 V c).arrAt 10 cfg1.N
    = O (V c main_arg0) (V c main_arg4) (V c main_arg5) (V c main_arg8) (V c main_arg9)
        (S1 (V c main_arg3) (V c main_v5)) (S1P (V c main_arg3) (V c main_v7)) :=
  (dat1 V c).arrAt_eq_of_cover 10 _ (fun t _ => flushed10 V c t) cover10

end Cert.Dual.K.PhaseB

end
-- ==== Proof.Phase1b.lean ====
/-
  Phase B of the kernel (the second of its three regions): its first two results, one block of 256 rows at a time, then
  as whole arrays.

  At grid point t the body sees rows 256·t … 256·t + 255 of the adjacency table a21 and of the feature array x1, the whole
  row f of side-2 features and the whole weight matrices. Its first result is the neighbour maximum
  m(r) = max_j [a21(r, j) > 0 ? f(j) : -inf], with -inf (a row with nothing selected) replaced by 0: s(r). Its second is the
  hidden feature max (Σ_d x1(r, d) · ws(0, d) + s(r) · Σ_d wn(0, d), 0). Every row of the two result arrays lies in
  exactly one block, so after the sixteen points the arrays hold these formulas at every row.
-/
import proofs.«173209_g89215060672586_cont_9to1c4b_471_9_alg».proof.Proof.Gen.KernelIdeal.Frame
import proofs.«173209_g89215060672586_cont_9to1c4b_471_9_alg».proof.Proof.LibRowOps
import proofs.«173209_g89215060672586_cont_9to1c4b_471_9_alg».proof.Proof.PhaseSpec
import Idealize.ShloMosaic.Lib.Pipeline.Value
import Idealize.ShloMosaic.Lib.Tactic

set_option maxRecDepth 16384

noncomputable section

open scoped BigOperators

namespace Cert.Dual.K

open Idealize.ShloMosaic Idealize.ShloMosaic.TcCoe Idealize.SL.Sem Idealize.ShloMosaic.ValueIdx
open Idealize.ShloMosaic.Pipeline (Dat)
open Cert.KernelIdeal Cert.KernelIdeal.Gen Cert.Dual.Body

namespace PhaseB2

/-- The offsets of a whole-buffer access are all zero. -/
theorem zero_offsets : (![0, 0] : Fin 2 → Nat) = fun _ => 0 := funext fun a => by fin_cases a <;> rfl

/-! ## The body's two results at an entry of the block -/

/-- The lane maximum of the masked block kept as a column: the neighbour maximum before -inf is replaced by 0. -/
def maxCol (v0 : Vec Ideal S256x4096 .i32) (v3 : Vec Ideal S1x4096 .f32) : FVec Ideal S256x1 .f32 :=
  shapeCast S256x1 (multiReduction (F := Ideal) .maximumf [1] S256
    (select (k1_pay2 (F := Ideal) v0)
      (broadcastTo S256x4096 (shapeCast S1x4096 (shapeCast S1x4096 v3 shapeCasts_S1x4096_S1x4096) shapeCasts_S1x4096_S1x4096)
        broadcasts_S1x4096_S256x4096)
      (broadcast S256x4096 (Scalar.ofBits (F := Ideal) .f32 0xFF800000#32)))
    0xFF800000#32 reduces_S256x4096_S256 (.inl rfl) rfl) shapeCasts_S256_S256x1

/-- At row p it is the supremum over the row of the selected features, -inf at the unselected places. -/
theorem maxCol_at (v0 : Vec Ideal S256x4096 .i32) (v3 : Vec Ideal S1x4096 .f32) (p : Fin 256) :
    maxCol v0 v3 (ix2 (n0 := 256) (n1 := 1) p ⟨0, Nat.one_pos⟩)
      = ⨆ j : Fin 4096, Scalar.select (IntOp.cmpi .sgt (v0 (ix2 p j)) 0#32) (v3 (ix2 0 j)) ⊥ := by
  unfold maxCol
  refine (rowMax_at _ reduces_S256x4096_S256 (.inl rfl) rfl shapeCasts_S256_S256x1 p).trans ?_
  refine iSup_congr fun j => ?_
  show Scalar.select (IntOp.cmpi .sgt (v0 (ix2 p j)) 0#32)
      (broadcastTo S256x4096 (shapeCast S1x4096 (shapeCast S1x4096 v3 shapeCasts_S1x4096_S1x4096) shapeCasts_S1x4096_S1x4096)
        broadcasts_S1x4096_S256x4096 (ix2 p j)) (Ideal.ofBits .f32 0xFF800000#32) = _
  rw [rowBcast_at, shapeCast_self, shapeCast_self, Cert.Lib.MaxReduce.ofBits_neg_inf_f32]
  rfl

/-- The neighbour maximum of a block of rows: the lane maximum, replaced by 0 where it compares equal to -inf. -/
theorem maxBlk_eq (v0 : Vec Ideal S256x4096 .i32) (v3 : Vec Ideal S1x4096 .f32) :
    k1_pay3 (F := Ideal) v0 v3
      = select (cmpf .oeq (maxCol v0 v3) (broadcast S256x1 (Scalar.ofBits (F := Ideal) .f32 0xFF800000#32)))
          (broadcast S256x1 (Scalar.ofBits (F := Ideal) .f32 0x00000000#32)) (maxCol v0 v3) := rfl

theorem maxBlk_at (v0 : Vec Ideal S256x4096 .i32) (v3 : Vec Ideal S1x4096 .f32) (p : Fin 256) :
    k1_pay3 (F := Ideal) v0 v3 (ix2 p 0)
      = Scalar.select (Ideal.cmp .oeq (maxCol v0 v3 (ix2 p 0)) ⊥) (0 : EReal) (maxCol v0 v3 (ix2 p 0)) := by
  have hs : ∀ b : BitVec FTy.f32.bits, Scalar.ofBits (F := Ideal) .f32 b = Ideal.ofBits .f32 b := fun _ => rfl
  rw [maxBlk_eq, select_apply, cmpf_apply, broadcast_apply, broadcast_apply, Ideal.cmpf_def, hs, hs,
    Cert.Lib.MaxReduce.ofBits_neg_inf_f32, Ideal.ofBits_zero_f32]

/-- The ordered-equal comparison of two extended reals is 1 exactly when they are equal. -/
theorem cmp_oeq_eq_one_iff (x y : EReal) : Ideal.cmp .oeq x y = 1#1 ↔ x = y := by
  unfold Ideal.cmp
  by_cases h : x = y
  · simp [h]
  · simp [h]

/-- Selecting 0 where a value compares equal to -inf is the if-then-else on "the value is -inf". -/
theorem zeroed (M : EReal) (inst : Decidable (M = ⊥)) :
    Scalar.select (Ideal.cmp .oeq M ⊥) (0 : EReal) M = @ite _ (M = ⊥) inst 0 M := by
  by_cases h : M = ⊥
  · rw [if_pos h, (cmp_oeq_eq_one_iff M ⊥).2 h, select_one]
  · rw [if_neg h, eq_zero_of_ne_one (fun e => h ((cmp_oeq_eq_one_iff M ⊥).1 e)), select_zero]

/-- The sum of the one row a [1, 128] load holds, taken as the body takes it: made a vector, made a row again, summed
    along the lanes, made a [1, 1] array, its one entry extracted. -/
theorem rowScalar (v : Vec Ideal S1x128 .f32) : k1_pay5 (F := Ideal) v = ∑ d : Fin 128, v (ix2 0 d) := by
  unfold k1_pay5
  show extractAt ![0, 0] (shapeCast S1x1 (multiReduction (F := Ideal) .add [1] Cert.KernelIdeal.S1
        (shapeCast S1x128 (shapeCast S128 v shapeCasts_S1x128_S128) shapeCasts_S128_S1x128)
        0x00000000#32 reduces_S1x128_S1 (.inl rfl) rfl) shapeCasts_S1_S1x1) inpos_S1x1_p0_0 = _
  rw [shapeCast_shapeCast]
  have e : (fun a => ⟨(![0, 0] : Fin 2 → Nat) a, inpos_S1x1_p0_0 a⟩ : S1x1.Idx)
      = ix2 (n0 := 1) (n1 := 1) ⟨0, Nat.one_pos⟩ ⟨0, Nat.one_pos⟩ :=
    funext fun a => Fin.ext (by match a with | ⟨0, _⟩ => rfl | ⟨1, _⟩ => rfl)
  show shapeCast S1x1 _ shapeCasts_S1_S1x1 (fun a => ⟨(![0, 0] : Fin 2 → Nat) a, inpos_S1x1_p0_0 a⟩) = _
  rw [e]
  exact rowSum_at v reduces_S1x128_S1 (.inl rfl) rfl shapeCasts_S1_S1x1 ⟨0, Nat.one_pos⟩

/-- A block of rows against one weight row, summed along the lanes and kept as a column. -/
theorem rowDot_at (x : Vec Ideal S256x128 .f32) (w : Vec Ideal S1x128 .f32) (p : Fin 256) :
    shapeCast S256x1 (multiReduction (F := Ideal) .add [1] S256 (mulf x (broadcastTo S256x128 w broadcasts_S1x128_S256x128))
        0x00000000#32 reduces_S256x128_S256 (.inl rfl) rfl) shapeCasts_S256_S256x1
        (ix2 (n0 := 256) (n1 := 1) p ⟨0, Nat.one_pos⟩)
      = ∑ d : Fin 128, x (ix2 p d) * w (ix2 0 d) := by
  refine (rowSum_at _ reduces_S256x128_S256 (.inl rfl) rfl shapeCasts_S256_S256x1 p).trans
    (Finset.sum_congr rfl fun d _ => ?_)
  rw [mulf_apply, rowBcast_at]
  rfl

/-- The hidden feature 0 of a block of rows, from the column of summaries and the scalar sum of the neighbour weights. -/
theorem hidBlk_at (v14 : FVec Ideal S256x1 .f32) (v31 : Ideal .f32) (v34 : FVec Ideal S256x128 .f32)
    (v35 : Vec Ideal S1x128 .f32) (p : Fin 256) :
    k1_pay7 (F := Ideal) v14 v31 v34 v35 (ix2 p 0)
      = max ((∑ d : Fin 128, v34 (ix2 p d) * v35 (ix2 0 d)) + v14 (ix2 p 0) * v31) 0 := by
  unfold k1_pay7
  show max (shapeCast S256x1 (multiReduction (F := Ideal) .add [1] S256 (mulf v34 (broadcastTo S256x128 v35 broadcasts_S1x128_S256x128))
        0x00000000#32 reduces_S256x128_S256 (.inl rfl) rfl) shapeCasts_S256_S256x1
        (ix2 (n0 := 256) (n1 := 1) p ⟨0, Nat.one_pos⟩)
      + v14 (ix2 p 0) * v31)
      (Ideal.ofBits .f32 0x00000000#32) = _
  rw [rowDot_at, Ideal.ofBits_zero_f32]

/-! ## From the block's coordinates to the arrays' -/

/-- The neighbour maxima: a block whose row p is row r of the table gives entry r of S1. -/
theorem max_transfer (A : Tab) (f : Row) (b0 : Vec Ideal S256x4096 .i32) (b1 : Vec Ideal S1x4096 .f32) (p : Fin 256)
    (r : Fin 4096) (h0 : ∀ j : Fin 4096, b0 (ix2 p j) = A (ix2 r j)) (h1 : ∀ j : Fin 4096, b1 (ix2 0 j) = f (ix2 0 j)) :
    k1_pay3 (F := Ideal) b0 b1 (ix2 p 0) = S1 A f (ix2 r 0) := by
  have hM : maxCol b0 b1 (ix2 p 0) = MX A f (ix2 r 0) := by
    refine (maxCol_at b0 b1 p).trans ?_
    show _ = ⨆ j : Fin 4096, Scalar.select (IntOp.cmpi .sgt (A (ix2 r j)) 0#32) (f (ix2 0 j)) ⊥
    exact iSup_congr fun j => by rw [h0 j, h1 j]
  rw [maxBlk_at, hM]
  exact zeroed _ _

/-- The hidden feature: likewise, with the block of x1 and row 0 of the two weight matrices. -/
theorem hid_transfer (A : Tab) (f : Row) (X : Feat) (Ws Wn : Wt) (b0 : Vec Ideal S256x4096 .i32) (b1 : Vec Ideal S1x4096 .f32)
    (n0 : Vec Ideal S1x128 .f32) (x : Vec Ideal S256x128 .f32) (s0 : Vec Ideal S1x128 .f32) (p : Fin 256) (r : Fin 4096)
    (h0 : ∀ j : Fin 4096, b0 (ix2 p j) = A (ix2 r j)) (h1 : ∀ j : Fin 4096, b1 (ix2 0 j) = f (ix2 0 j))
    (hx : ∀ d : Fin 128, x (ix2 p d) = X (ix2 r d)) (hs : ∀ d : Fin 128, s0 (ix2 0 d) = Ws (ix2 0 d))
    (hn : ∀ d : Fin 128, n0 (ix2 0 d) = Wn (ix2 0 d)) :
    k1_pay7 (F := Ideal) (k1_pay3 (F := Ideal) b0 b1) (k1_pay5 (F := Ideal) n0) (k1_pay6 (F := Ideal) x) s0 (ix2 p 0)
      = G X Ws Wn (S1 A f) (ix2 r 0) := by
  rw [hidBlk_at, max_transfer A f b0 b1 p r h0 h1, rowScalar]
  have e1 : ∑ d : Fin 128, x (ix2 p d) * s0 (ix2 0 d) = ∑ d : Fin 128, X (ix2 r d) * Ws (ix2 0 d) :=
    Finset.sum_congr rfl fun d _ => by rw [hx d, hs d]
  have e2 : ∑ d : Fin 128, n0 (ix2 0 d) = ∑ d : Fin 128, Wn (ix2 0 d) := Finset.sum_congr rfl fun d _ => hn d
  show max ((∑ d : Fin 128, x (ix2 p d) * s0 (ix2 0 d)) + S1 A f (ix2 r 0) * ∑ d : Fin 128, n0 (ix2 0 d)) 0
    = max ((∑ d : Fin 128, X (ix2 r d) * Ws (ix2 0 d)) + S1 A f (ix2 r 0) * ∑ d : Fin 128, Wn (ix2 0 d)) 0
  rw [e1, e2]

/-! ## The blocks are rows of the arrays -/

variable (V : (c : Dev nD) → (b : Ref sig .tc) → Buf (Elt Ideal) ((c : Thread nD τ).loc b))

/-- The printed index maps over the sixteen points: the two row-blocked inputs and the two outputs are at block row t,
    the whole-array inputs at block (0, 0). -/
theorem idx1 : ∀ t : Fin cfg1.N,
    win1_0.index t (0 : Fin 2) = t.val ∧ win1_0.index t (1 : Fin 2) = 0
    ∧ win1_1.index t (0 : Fin 2) = 0 ∧ win1_1.index t (1 : Fin 2) = 0
    ∧ win1_3.index t (0 : Fin 2) = t.val ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_8.index t (0 : Fin 2) = t.val ∧ win1_8.index t (1 : Fin 2) = 0
    ∧ win1_9.index t (0 : Fin 2) = t.val ∧ win1_9.index t (1 : Fin 2) = 0 :=
  (by decide +kernel : ∀ t : Fin grid1.N, _)

theorem point_lt (t : Fin cfg1.N) : t.val < 16 := lt_of_lt_of_eq t.isLt N_1

/-- Row p of the table's block at point t is row 256·t + p of the table. -/
theorem blkA (c : Dev nD) (t : Fin cfg1.N) (p : Fin 256) (j : Fin 4096) (r : Fin 4096) (hr : r.val = t.val * 256 + p.val) :
    (iblk1 V c 0 t : Vec Ideal S256x4096 .i32) (ix2 p j) = (V c main_arg3 : S4096x4096.Idx → BitVec 32) (ix2 r j) := by
  obtain ⟨e0, e1⟩ : win1_0.index t (0 : Fin 2) = t.val ∧ win1_0.index t (1 : Fin 2) = 0 := by have := idx1 t; tauto
  unfold iblk1
  rw [View.read_apply]
  show (V c main_arg3 : S4096x4096.Idx → BitVec 32) _ = _
  refine congrArg _ (funext fun a => Fin.ext ?_)
  match a with
  | ⟨0, _⟩ => show win1_0.index t 0 * 256 + 1 * p.val = r.val; rw [e0, hr]; omega
  | ⟨1, _⟩ => show win1_0.index t 1 * 4096 + 1 * j.val = j.val; rw [e1]; omega

/-- The feature row is handed whole to every point. -/
theorem blkF (c : Dev nD) (t : Fin cfg1.N) (j : Fin 4096) :
    (iblk1 V c 1 t : Vec Ideal S1x4096 .f32) (ix2 0 j) = (V c main_v5 : S1x4096.Idx → EReal) (ix2 0 j) := by
  obtain ⟨e0, e1⟩ : win1_1.index t (0 : Fin 2) = 0 ∧ win1_1.index t (1 : Fin 2) = 0 := by have := idx1 t; tauto
  unfold iblk1
  rw [View.read_apply]
  show (V c main_v5 : S1x4096.Idx → EReal) _ = _
  refine congrArg _ (funext fun a => Fin.ext ?_)
  match a with
  | ⟨0, _⟩ => show win1_1.index t 0 * 1 + 1 * 0 = 0; rw [e0]
  | ⟨1, _⟩ => show win1_1.index t 1 * 4096 + 1 * j.val = j.val; rw [e1]; omega

/-- Row p of x1's block at point t is row 256·t + p of x1. -/
theorem blkX (c : Dev nD) (t : Fin cfg1.N) (p : Fin 256) (d : Fin 128) (r : Fin 4096) (hr : r.val = t.val * 256 + p.val) :
    (iblk1 V c 3 t : Vec Ideal S256x128 .f32) (ix2 p d) = (V c main_arg0 : S4096x128.Idx → EReal) (ix2 r d) := by
  obtain ⟨e0, e1⟩ : win1_3.index t (0 : Fin 2) = t.val ∧ win1_3.index t (1 : Fin 2) = 0 := by have := idx1 t; tauto
  unfold iblk1
  rw [View.read_apply]
  show (V c main_arg0 : S4096x128.Idx → EReal) _ = _
  refine congrArg _ (funext fun a => Fin.ext ?_)
  match a with
  | ⟨0, _⟩ => show win1_3.index t 0 * 256 + 1 * p.val = r.val; rw [e0, hr]; omega
  | ⟨1, _⟩ => show win1_3.index t 1 * 128 + 1 * d.val = d.val; rw [e1]; omega

/-- Row 0 of the self weights handed whole, read through the one-row rectangle the body loads. -/
theorem blkWs (c : Dev nD) (t : Fin cfg1.N) (d : Fin 128) :
    View.ld (iblk1 V c 4 t : Vec Ideal S128x128 .f32) r1_3 (ix2 0 d) = (V c main_arg4 : S128x128.Idx → EReal) (ix2 0 d) := by
  obtain ⟨e0, e1⟩ : win1_4.index t (0 : Fin 2) = 0 ∧ win1_4.index t (1 : Fin 2) = 0 := by have := idx1 t; tauto
  show (iblk1 V c 4 t : Vec Ideal S128x128 .f32) (r1_3.emb (ix2 0 d)) = _
  unfold iblk1
  rw [View.read_apply]
  show (V c main_arg4 : S128x128.Idx → EReal) _ = _
  refine congrArg _ (funext fun a => Fin.ext ?_)
  match a with
  | ⟨0, _⟩ => show win1_4.index t 0 * 128 + 1 * (r1_3.emb (ix2 0 d) 0).val = 0; rw [e0]; simp only [Rect.emb_apply, Rect.off_unit, Rect.stride_unit]; rfl
  | ⟨1, _⟩ => show win1_4.index t 1 * 128 + 1 * (r1_3.emb (ix2 0 d) 1).val = d.val; rw [e1]; simp only [Rect.emb_apply, Rect.off_unit, Rect.stride_unit]; show 0 * 128 + 1 * (0 + 1 * d.val) = d.val; omega

/-- Row 0 of the neighbour weights, likewise. -/
theorem blkWn (c : Dev nD) (t : Fin cfg1.N) (d : Fin 128) :
    View.ld (iblk1 V c 5 t : Vec Ideal S128x128 .f32) r1_3 (ix2 0 d) = (V c main_arg5 : S128x128.Idx → EReal) (ix2 0 d) := by
  obtain ⟨e0, e1⟩ : win1_5.index t (0 : Fin 2) = 0 ∧ win1_5.index t (1 : Fin 2) = 0 := by have := idx1 t; tauto
  show (iblk1 V c 5 t : Vec Ideal S128x128 .f32) (r1_3.emb (ix2 0 d)) = _
  unfold iblk1
  rw [View.read_apply]
  show (V c main_arg5 : S128x128.Idx → EReal) _ = _
  refine congrArg _ (funext fun a => Fin.ext ?_)
  match a with
  | ⟨0, _⟩ => show win1_5.index t 0 * 128 + 1 * (r1_3.emb (ix2 0 d) 0).val = 0; rw [e0]; simp only [Rect.emb_apply, Rect.off_unit, Rect.stride_unit]; rfl
  | ⟨1, _⟩ => show win1_5.index t 1 * 128 + 1 * (r1_3.emb (ix2 0 d) 1).val = d.val; rw [e1]; simp only [Rect.emb_apply, Rect.off_unit, Rect.stride_unit]; show 0 * 128 + 1 * (0 + 1 * d.val) = d.val; omega

/-! ## What each point writes back -/

/-- Point t writes back block t of the hidden feature. -/
theorem flushed9 (c : Dev nD) (t : Fin cfg1.N) :
    (dat1 V c).flushed 9 t = ((cfg1.win 9).blk t).view.read (Elt Ideal)
      (G (V c main_arg0) (V c main_arg4) (V c main_arg5) (S1 (V c main_arg3) (V c main_v5))) := by
  show (cfg1.win 9).cut (grid1.coords t) ((dat1 V c).after 9 t) = _
  rw [after1_9]
  unfold out1_9
  rw [View.canon_unit_zero zero_offsets]
  simp only [View.ld_unit_zero (S := S256x4096) zero_offsets, View.ld_unit_zero (S := S1x4096) zero_offsets,
    View.ld_unit_zero (S := S256x128) zero_offsets]
  obtain ⟨e0, e1⟩ : win1_9.index t (0 : Fin 2) = t.val ∧ win1_9.index t (1 : Fin 2) = 0 := by have := idx1 t; tauto
  have ht := point_lt t
  funext y
  obtain ⟨p, q, rfl⟩ : ∃ (p : Fin 256) (q : Fin 1), y = ix2 p q := ⟨y 0, y 1, eq_ix2 y⟩
  obtain rfl : q = 0 := Subsingleton.elim _ _
  have hr : t.val * 256 + p.val < 4096 := by have := p.isLt; omega
  show k1_pay7 (F := Ideal) (k1_pay3 (F := Ideal) (iblk1 V c 0 t) (iblk1 V c 1 t)) (k1_pay5 (F := Ideal) (View.ld (iblk1 V c 5 t) r1_3))
      (k1_pay6 (F := Ideal) (iblk1 V c 3 t)) (View.ld (iblk1 V c 4 t) r1_3) (ix2 p 0)
    = G (V c main_arg0) (V c main_arg4) (V c main_arg5) (S1 (V c main_arg3) (V c main_v5)) (((cfg1.win 9).blk t).view.emb (ix2 p 0))
  refine (hid_transfer (V c main_arg3) (V c main_v5) (V c main_arg0) (V c main_arg4) (V c main_arg5) _ _ _ _ _ p
    ⟨t.val * 256 + p.val, hr⟩ (fun j => blkA V c t p j _ rfl) (fun j => blkF V c t j) (fun d => blkX V c t p d _ rfl)
    (fun d => blkWs V c t d) (fun d => blkWn V c t d)).trans ?_
  refine congrArg _ (funext fun a => Fin.ext ?_)
  match a with
  | ⟨0, _⟩ => show t.val * 256 + p.val = win1_9.index t 0 * 256 + 1 * p.val; rw [e0]; omega
  | ⟨1, _⟩ => show 0 = win1_9.index t 1 * 1 + 1 * 0; rw [e1]

theorem mem_blk9 (t : Fin cfg1.N) (i : S4096x1.Idx) :
    i ∈ ((cfg1.win 9).blk t).view.set ↔ ∀ a : Fin 2, win1_9.index t a * S256x1.size a ≤ (i a).val ∧ (i a).val < win1_9.index t a * S256x1.size a + S256x1.size a := by
  show i ∈ ((View.whole main_v8_1).slice (win1_9.rect t)).set ↔ _
  rw [View.set_slice_whole, Rect.mem_set_unit]
  exact Iff.rfl

/-- Every row lies in the block of the point its number divided by 256 names. -/
theorem cover9 (i : S4096x1.Idx) : ∃ t : Fin cfg1.N, (cfg1.win 9).flush t = true ∧ i ∈ ((cfg1.win 9).blk t).view.set := by
  have hi0 : (i 0).val < 4096 := (i 0).isLt
  have hi1 : (i 1).val < 1 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨e0, e1⟩ : win1_9.index t (0 : Fin 2) = t.val ∧ win1_9.index t (1 : Fin 2) = 0 := by have := idx1 t; tauto
  refine ⟨t, flush1_9 t, ?_⟩
  rw [mem_blk9]
  intro a
  match a with
  | ⟨0, _⟩ => show win1_9.index t 0 * 256 ≤ (i 0).val ∧ (i 0).val < win1_9.index t 0 * 256 + 256; rw [e0, ht]; omega
  | ⟨1, _⟩ => show win1_9.index t 1 * 1 ≤ (i 1).val ∧ (i 1).val < win1_9.index t 1 * 1 + 1; rw [e1]; omega

/-- Point t writes back block t of the neighbour maxima. -/
theorem flushed8 (c : Dev nD) (t : Fin cfg1.N) :
    (dat1 V c).flushed 8 t = ((cfg1.win 8).blk t).view.read (Elt Ideal) (S1 (V c main_arg3) (V c main_v5)) := by
  show (cfg1.win 8).cut (grid1.coords t) ((dat1 V c).after 8 t) = _
  rw [after1_8]
  unfold out1_8
  rw [View.canon_unit_zero zero_offsets]
  simp only [View.ld_unit_zero (S := S256x4096) zero_offsets, View.ld_unit_zero (S := S1x4096) zero_offsets]
  obtain ⟨e0, e1⟩ : win1_8.index t (0 : Fin 2) = t.val ∧ win1_8.index t (1 : Fin 2) = 0 := by have := idx1 t; tauto
  have ht := point_lt t
  funext y
  obtain ⟨p, q, rfl⟩ : ∃ (p : Fin 256) (q : Fin 1), y = ix2 p q := ⟨y 0, y 1, eq_ix2 y⟩
  obtain rfl : q = 0 := Subsingleton.elim _ _
  have hr : t.val * 256 + p.val < 4096 := by have := p.isLt; omega
  show k1_pay3 (F := Ideal) (iblk1 V c 0 t) (iblk1 V c 1 t) (ix2 p 0)
    = S1 (V c main_arg3) (V c main_v5) (((cfg1.win 8).blk t).view.emb (ix2 p 0))
  refine (max_transfer (V c main_arg3) (V c main_v5) _ _ p ⟨t.val * 256 + p.val, hr⟩
    (fun j => blkA V c t p j _ rfl) (fun j => blkF V c t j)).trans ?_
  refine congrArg _ (funext fun a => Fin.ext ?_)
  match a with
  | ⟨0, _⟩ => show t.val * 256 + p.val = win1_8.index t 0 * 256 + 1 * p.val; rw [e0]; omega
  | ⟨1, _⟩ => show 0 = win1_8.index t 1 * 1 + 1 * 0; rw [e1]

theorem mem_blk8 (t : Fin cfg1.N) (i : S4096x1.Idx) :
    i ∈ ((cfg1.win 8).blk t).view.set ↔ ∀ a : Fin 2, win1_8.index t a * S256x1.size a ≤ (i a).val ∧ (i a).val < win1_8.index t a * S256x1.size a + S256x1.size a := by
  show i ∈ ((View.whole main_v8_0).slice (win1_8.rect t)).set ↔ _
  rw [View.set_slice_whole, Rect.mem_set_unit]
  exact Iff.rfl

/-- Every row lies in the block of the point its number divided by 256 names. -/
theorem cover8 (i : S4096x1.Idx) : ∃ t : Fin cfg1.N, (cfg1.win 8).flush t = true ∧ i ∈ ((cfg1.win 8).blk t).view.set := by
  have hi0 : (i 0).val < 4096 := (i 0).isLt
  have hi1 : (i 1).val < 1 := (i 1).isLt
  have hN : cfg1.N = 16 := N_1
  obtain ⟨t, ht⟩ : ∃ t : Fin cfg1.N, t.val = (i 0).val / 256 := ⟨⟨(i 0).val / 256, by rw [hN]; omega⟩, rfl⟩
  obtain ⟨e0, e1⟩ : win1_8.index t (0 : Fin 2) = t.val ∧ win1_8.index t (1 : Fin 2) = 0 := by have := idx1 t; tauto
  refine ⟨t, flush1_8 t, ?_⟩
  rw [mem_blk8]
  intro a
  match a with
  | ⟨0, _⟩ => show win1_8.index t 0 * 256 ≤ (i 0).val ∧ (i 0).val < win1_8.index t 0 * 256 + 256; rw [e0, ht]; omega
  | ⟨1, _⟩ => show win1_8.index t 1 * 1 ≤ (i 1).val ∧ (i 1).val < win1_8.index t 1 * 1 + 1; rw [e1]; omega

end PhaseB2

/-! ## The arrays after the sixteen points -/

variable (V : (c : Dev nD) → (b : Ref sig .tc) → Buf (Elt Ideal) ((c : Thread nD τ).loc b))

/-- Phase B leaves the hidden feature 0 of side 1 in its second result. -/
theorem phaseB_g1 (c : Dev nD) : (dat1 V c).arrAt 9 cfg1.N
    = G (V c main_arg0) (V c main_arg4) (V c main_arg5) (S1 (V c main_arg3) (V c main_v5)) :=
  (dat1 V c).arrAt_eq_of_cover 9 _ (fun t _ => PhaseB2.flushed9 V c t) PhaseB2.cover9

/-- Phase B leaves the neighbour maxima, -inf replaced by 0, in its first result. -/
theorem phaseB_s1 (c : Dev nD) : (dat1 V c).arrAt 8 cfg1.N = S1 (V c main_arg3) (V c main_v5) :=
  (dat1 V c).arrAt_eq_of_cover 8 _ (fun t _ => PhaseB2.flushed8 V c t) PhaseB2.cover8

end Cert.Dual.K

end
-- ==== Proof.Phase2.lean ====
/-
  Phase C of the kernel (the last of its three regions), one block of 256 rows at a time, then as a whole array.

  At grid point t the body sees rows 256·t … 256·t + 255 of the table made numbers, of the feature array x2 and of the
  column of neighbour sums, the whole hidden column g of side 1 and four whole weight matrices. It forms, for each row r
  of the block: the hidden row  hid(r, h) = max (Σ_d x2(r, d) · ws0(h, d) + s(r) · Σ_d wn0(h, d), 0);  the neighbour
  summary  sp(r) = Σ_j m(r, j) · g(j) + Σ_j m(r, j) · (g(j) - g(j)), the table's numbers against the column taken twice
  through the matrix unit; and writes  out(r, o) = Σ_h hid(r, h) · ws1(o, h) + sp(r) · Σ_d wn1(o, d).  Every row of the
  result array lies in exactly one block, so after the sixteen points the array holds this formula at every row.
-/
import proofs.«173209_g89215060672586_cont_9to1c4b_471_9_alg».proof.Proof.Gen.KernelIdeal.Frame
import proofs.«173209_g89215060672586_cont_9to1c4b_471_9_alg».proof.Proof.PhaseSpec
import proofs.«173209_g89215060672586_cont_9to1c4b_471_9_alg».proof.Proof.LibRowOps
import proofs.«173209_g89215060672586_cont_9to1c4b_471_9_alg».proof.Proof.LibOneAxisDot
import proofs.«173209_g89215060672586_cont_9to1c4b_471_9_alg».proof.Proof.LibDotFreeAxis
import Idealize.ShloMosaic.Lib.Pipeline.Value
import Idealize.ShloMosaic.Lib.Tactic

noncomputable section

open scoped BigOperators

namespace Cert.Dual.K.PhaseC

open Idealize.ShloMosaic Idealize.ShloMosaic.TcCoe Idealize.SL.Sem Idealize.ShloMosaic.ValueIdx
open Idealize.ShloMosaic.Pipeline (Dat)
open Cert.KernelIdeal Cert.KernelIdeal.Gen Cert.Dual.Body Cert.Dual.K

/-- The two zero offsets of a whole-buffer access, spelt as a constant function. -/
theorem zeroOffsets : (![0, 0] : Fin 2 → Nat) = fun _ => 0 := funext fun a => by fin_cases a <;> rfl

/-! ## The two products of the matrix unit, at an entry -/

/-- A block of rows against the TRANSPOSE of a square matrix, into the zero accumulator: entry (p, h) is
    Σ_d x(p, d) · w(h, d). -/
theorem dotT_at (x : FVec Ideal S256x128 .bf16) (w : FVec Ideal S128x128 .bf16) (p : Fin 256) (h : Fin 128) :
    matmul dot_S256x128_S128x128_S256x128_1_1_0_0_n_n none x w (constant S256x128 .f32 0x00000000#32) (ix2 p h)
      = ∑ d : Fin 128, x (ix2 p d) * w (ix2 h d) :=
  Cert.Lib.OneAxisDot.matmul_zero_apply_at dot_S256x128_S128x128_S256x128_1_1_0_0_n_n 128 rfl rfl none x w (ix2 p h)
    (fun d => ix2 p d) (fun d => ix2 h d)
    (fun k => funext fun a => Fin.ext (by
      have hk := ValueIdx.contrEquiv1_symm_val dot_S256x128_S128x128_S256x128_1_1_0_0_n_n 128 rfl rfl k
      match a with
      | ⟨0, _⟩ => exact Cert.Lib.DotFreeAxis.lhsIdx_val_of_free dot_S256x128_S128x128_S256x128_1_1_0_0_n_n rfl rfl (by decide) _ _
      | ⟨1, _⟩ => exact (dot_S256x128_S128x128_S256x128_1_1_0_0_n_n.lhsIdx_val_of_single rfl _ _).trans hk))
    (fun k => funext fun a => Fin.ext (by
      have hk := ValueIdx.contrEquiv1_symm_val dot_S256x128_S128x128_S256x128_1_1_0_0_n_n 128 rfl rfl k
      match a with
      | ⟨0, _⟩ => exact Cert.Lib.DotFreeAxis.rhsIdx_val_of_free dot_S256x128_S128x128_S256x128_1_1_0_0_n_n rfl rfl rfl rfl (by decide) _ _
      | ⟨1, _⟩ => exact (dot_S256x128_S128x128_S256x128_1_1_0_0_n_n.rhsIdx_val_of_single rfl _ _).trans hk))

/-- A block of rows of a wide matrix against a column, into the zero accumulator: entry (p, 0) is Σ_j m(p, j) · g(j). -/
theorem dotCol_at (m : FVec Ideal S256x4096 .bf16) (g : FVec Ideal S4096x1 .bf16) (p : Fin 256) :
    matmul dot_S256x4096_S4096x1_S256x1_1_0_0_1_n_n none m g (constant S256x1 .f32 0x00000000#32) (ix2 p 0)
      = ∑ j : Fin 4096, m (ix2 p j) * g (ix2 j 0) :=
  Cert.Lib.OneAxisDot.matmul_zero_apply_at dot_S256x4096_S4096x1_S256x1_1_0_0_1_n_n 4096 rfl rfl none m g (ix2 p 0)
    (fun j => ix2 p j) (fun j => ix2 j 0)
    (fun k => funext fun a => Fin.ext (by
      have hk := ValueIdx.contrEquiv1_symm_val dot_S256x4096_S4096x1_S256x1_1_0_0_1_n_n 4096 rfl rfl k
      match a with
      | ⟨0, _⟩ => exact Cert.Lib.DotFreeAxis.lhsIdx_val_of_free dot_S256x4096_S4096x1_S256x1_1_0_0_1_n_n rfl rfl (by decide) _ _
      | ⟨1, _⟩ => exact (dot_S256x4096_S4096x1_S256x1_1_0_0_1_n_n.lhsIdx_val_of_single rfl _ _).trans hk))
    (fun k => funext fun a => Fin.ext (by
      have hk := ValueIdx.contrEquiv1_symm_val dot_S256x4096_S4096x1_S256x1_1_0_0_1_n_n 4096 rfl rfl k
      match a with
      | ⟨0, _⟩ => exact (dot_S256x4096_S4096x1_S256x1_1_0_0_1_n_n.rhsIdx_val_of_single rfl _ _).trans hk
      | ⟨1, _⟩ => exact Cert.Lib.DotFreeAxis.rhsIdx_val_of_free dot_S256x4096_S4096x1_S256x1_1_0_0_1_n_n rfl rfl rfl rfl (by decide) _ _))

/-! ## The body's payloads at an entry of the block -/

/-- The row sums of a weight matrix laid out as a row: entry (0, q) is Σ_d w(q, d). -/
theorem rowSums_at (v16 : Vec Ideal S128x128 .f32) (q : Fin 128) :
    k2_pay3 (F := Ideal) v16 (ix2 0 q) = ∑ d : Fin 128, v16 (ix2 q d) := by
  unfold k2_pay3
  exact rowSums_row_at _ reduces_S128x128_S128 (.inl rfl) rfl shapeCasts_S128_S1x128 q

/-- The hidden rows of a block: entry (p, h) is max (Σ_d x(p, d) · ws(h, d) + s(p) · Σ_d wn(h, d), 0). -/
theorem hid_at (v11 : Vec Ideal S128x128 .f32) (v21 : Vec Ideal S256x128 .f32) (v22 : Vec Ideal S128x128 .f32)
    (v26 : Vec Ideal S256x1 .f32) (p : Fin 256) (h : Fin 128) :
    k2_pay4 (F := Ideal) v11 v21 v22 v26 (ix2 p h)
      = max ((∑ d : Fin 128, v21 (ix2 p d) * v22 (ix2 h d)) + v26 (ix2 p 0) * ∑ d : Fin 128, v11 (ix2 h d)) 0 := by
  unfold k2_pay4
  show max (matmul (F := Ideal) dot_S256x128_S128x128_S256x128_1_1_0_0_n_n none (truncf .bf16 v21 bitsLt_bf16_f32)
          (truncf .bf16 v22 bitsLt_bf16_f32) (constant S256x128 .f32 0x00000000#32) (ix2 p h)
        + broadcastTo S256x128 (shapeCast S256x1 v26 shapeCasts_S256x1_S256x1) broadcasts_S256x1_S256x128 (ix2 p h)
          * broadcastTo S256x128 (shapeCast S1x128 (multiReduction (F := Ideal) .add [1] S128 v11 0x00000000#32
              reduces_S128x128_S128 (.inl rfl) rfl) shapeCasts_S128_S1x128) broadcasts_S1x128_S256x128 (ix2 p h))
      (Ideal.ofBits .f32 0x00000000#32) = _
  rw [dotT_at, Cert.Lib.KeepdimsColumn.column_broadcast_at, shapeCast_self, rowBcast_at,
    rowSums_row_at _ reduces_S128x128_S128 (.inl rfl) rfl shapeCasts_S128_S1x128 h, Ideal.ofBits_zero_f32]
  rfl

/-- The neighbour summary of a block: entry (p, 0) is Σ_j m(p, j) · g(j) + Σ_j m(p, j) · (g(j) - g(j)). -/
theorem sp_at (v0 : Vec Ideal S4096x1 .f32) (v6 : Vec Ideal S256x4096 .bf16) (p : Fin 256) :
    k2_pay2 (F := Ideal) v0 v6 (ix2 p 0)
      = (∑ j : Fin 4096, v6 (ix2 p j) * v0 (ix2 j 0)) + ∑ j : Fin 4096, v6 (ix2 p j) * (v0 (ix2 j 0) - v0 (ix2 j 0)) := by
  unfold k2_pay2
  show matmul (F := Ideal) dot_S256x4096_S4096x1_S256x1_1_0_0_1_n_n none (shapeCast S256x4096 v6 shapeCasts_S256x4096_S256x4096)
        (truncf .bf16 (shapeCast S4096x1 v0 shapeCasts_S4096x1_S4096x1) bitsLt_bf16_f32) (constant S256x1 .f32 0x00000000#32) (ix2 p 0)
      + matmul (F := Ideal) dot_S256x4096_S4096x1_S256x1_1_0_0_1_n_n none (shapeCast S256x4096 v6 shapeCasts_S256x4096_S256x4096)
        (truncf .bf16 (subf (shapeCast S4096x1 v0 shapeCasts_S4096x1_S4096x1) (shapeCast S4096x1 v0 shapeCasts_S4096x1_S4096x1)) bitsLt_bf16_f32)
        (constant S256x1 .f32 0x00000000#32) (ix2 p 0) = _
  rw [dotCol_at, dotCol_at, shapeCast_self, shapeCast_self]
  rfl

/-- What the body stores: entry (p, q) is Σ_h hid(p, h) · ws1(q, h) + sp(p) · rs(q). -/
theorem store_at (v10 : FVec Ideal S256x1 .f32) (v20 : FVec Ideal S1x128 .f32) (v35 : FVec Ideal S256x128 .f32)
    (v36 : Vec Ideal S128x128 .f32) (p : Fin 256) (q : Fin 128) :
    k2_pay1 (F := Ideal) v10 v20 v35 v36 (ix2 p q)
      = (∑ h : Fin 128, v35 (ix2 p h) * v36 (ix2 q h)) + v10 (ix2 p 0) * v20 (ix2 0 q) := by
  unfold k2_pay1
  show matmul (F := Ideal) dot_S256x128_S128x128_S256x128_1_1_0_0_n_n none (truncf .bf16 v35 bitsLt_bf16_f32)
        (truncf .bf16 v36 bitsLt_bf16_f32) (constant S256x128 .f32 0x00000000#32) (ix2 p q)
      + broadcastTo S256x128 v10 broadcasts_S256x1_S256x128 (ix2 p q)
        * broadcastTo S256x128 v20 broadcasts_S1x128_S256x128 (ix2 p q) = _
  rw [dotT_at, Cert.Lib.KeepdimsColumn.column_broadcast_at, rowBcast_at]
  rfl

/-- The body's result block from the blocks it reads, at entry (p, q), as one formula of their entries. -/
theorem out_at (b0 : Vec Ideal S256x4096 .bf16) (b1 : Vec Ideal S4096x1 .f32) (b2 : Vec Ideal S256x128 .f32)
    (b3 : Vec Ideal S256x1 .f32) (b4 b5 b6 b7 : Vec Ideal S128x128 .f32) (p : Fin 256) (q : Fin 128) :
    out2_8 (F := Ideal) b0 b1 b2 b3 b4 b5 b6 b7 (ix2 p q)
      = (∑ h : Fin 128,
            max ((∑ d : Fin 128, b2 (ix2 p d) * b4 (ix2 h d)) + b3 (ix2 p 0) * ∑ d : Fin 128, b5 (ix2 h d)) 0
              * b6 (ix2 q h))
        + ((∑ j : Fin 4096, b0 (ix2 p j) * b1 (ix2 j 0)) + ∑ j : Fin 4096, b0 (ix2 p j) * (b1 (ix2 j 0) - b1 (ix2 j 0)))
          * ∑ d : Fin 128, b7 (ix2 q d) := by
  unfold out2_8
  rw [View.canon_unit_zero zeroOffsets]
  simp only [View.ld_unit_zero (S := S4096x1) zeroOffsets, View.ld_unit_zero (S := S256x4096) zeroOffsets,
    View.ld_unit_zero (S := S128x128) zeroOffsets, View.ld_unit_zero (S := S256x128) zeroOffsets,
    View.ld_unit_zero (S := S256x1) zeroOffsets]
  rw [store_at, sp_at, rowSums_at]
  exact congrArg₂ (· + ·) (Finset.sum_congr rfl fun h _ => by rw [hid_at]) rfl

/-- The block against the whole arrays: when the blocks the body reads hold, at the entries the formula reads, rows r
    of the row-blocked arrays and the whole of the others, entry (p, q) of the result block is entry (r, q) of the
    side's output. -/
theorem out_eq_O (b0 : Vec Ideal S256x4096 .bf16) (b1 : Vec Ideal S4096x1 .f32) (b2 : Vec Ideal S256x128 .f32)
    (b3 : Vec Ideal S256x1 .f32) (b4 b5 b6 b7 : Vec Ideal S128x128 .f32)
    (M : Mat) (g : Col) (X : Feat) (s : Col) (Ws0 Wn0 Ws1 Wn1 : Wt) (p : Fin 256) (q : Fin 128) (r : Fin 4096)
    (h0 : ∀ j, b0 (ix2 p j) = M (ix2 r j)) (h1 : ∀ j, b1 (ix2 j 0) = g (ix2 j 0))
    (h2 : ∀ d, b2 (ix2 p d) = X (ix2 r d)) (h3 : b3 (ix2 p 0) = s (ix2 r 0))
    (h4 : ∀ h d, b4 (ix2 h d) = Ws0 (ix2 h d)) (h5 : ∀ h d, b5 (ix2 h d) = Wn0 (ix2 h d))
    (h6 : ∀ h d, b6 (ix2 h d) = Ws1 (ix2 h d)) (h7 : ∀ h d, b7 (ix2 h d) = Wn1 (ix2 h d)) :
    out2_8 (F := Ideal) b0 b1 b2 b3 b4 b5 b6 b7 (ix2 p q) = O X Ws0 Wn0 Ws1 Wn1 s (SP M g) (ix2 r q) := by
  rw [out_at]
  simp only [h0, h1, h2, h3, h4, h5, h6, h7]
  rfl

/-! ## The blocks the body reads, as rows of the arrays -/

variable (V : (c : Dev nD) → (b : Ref sig .tc) → Buf (Elt Ideal) ((c : Thread nD τ).loc b))

/-- The printed index maps over the sixteen points: the three row-blocked inputs and the output are at block (t, 0), the
    five whole inputs at block (0, 0). -/
theorem idx_facts : ∀ t : Fin cfg2.N,
    win2_0.index t (0 : Fin 2) = t.val ∧ win2_0.index t (1 : Fin 2) = 0
    ∧ win2_1.index t (0 : Fin 2) = 0 ∧ win2_1.index t (1 : Fin 2) = 0
    ∧ win2_2.index t (0 : Fin 2) = t.val ∧ win2_2.index t (1 : Fin 2) = 0
    ∧ win2_3.index t (0 : Fin 2) = t.val ∧ win2_3.index t (1 : Fin 2) = 0
    ∧ win2_4.index t (0 : Fin 2) = 0 ∧ win2_4.index t (1 : Fin 2) = 0
    ∧ win2_5.index t (0 : Fin 2) = 0 ∧ win2_5.index t (1 : Fin 2) = 0
    ∧ win2_6.index t (0 : Fin 2) = 0 ∧ win2_6.index t (1 : Fin 2) = 0
    ∧ win2_7.index t (0 : Fin 2) = 0 ∧ win2_7.index t (1 : Fin 2) = 0
    ∧ win2_8.index t (0 : Fin 2) = t.val ∧ win2_8.index t (1 : Fin 2) = 0 :=
  (by decide +kernel : ∀ t : Fin grid2.N, _)

/-- Row p of block t of an array of 4096 rows in blocks of 256. -/
def rowOf (t : Fin cfg2.N) (p : Fin 256) : Fin 4096 :=
  ⟨t.val * 256 + p.val, by have h : cfg2.N = 16 := N_2; have := t.isLt; have := p.isLt; omega⟩

/-- Block t of the table's numbers: rows 256·t … of the array. -/
theorem blk0_at (c : Dev nD) (t : Fin cfg2.N) (p : Fin 256) (j : Fin 4096) :
    (iblk2 V c 0 t : Vec Ideal S256x4096 .bf16) (ix2 p j) = (V c main_v6_2 : S4096x4096.Idx → EReal) (ix2 (rowOf t p) j) := by
  obtain ⟨e0, e1, -⟩ := idx_facts t
  unfold iblk2
  rw [View.read_apply]
  show (V c main_v6_2 : S4096x4096.Idx → EReal) _ = _
  refine congrArg _ (funext fun a => Fin.ext ?_)
  match a with
  | ⟨0, _⟩ => show win2_0.index t (0 : Fin 2) * 256 + 1 * p.val = t.val * 256 + p.val; rw [e0]; omega
  | ⟨1, _⟩ => show win2_0.index t (1 : Fin 2) * 4096 + 1 * j.val = j.val; rw [e1]; omega

/-- The hidden column of side 1, whole at every point. -/
theorem blk1_at (c : Dev nD) (t : Fin cfg2.N) (j : Fin 4096) :
    (iblk2 V c 1 t : Vec Ideal S4096x1 .f32) (ix2 j 0) = (V c main_v8_1 : S4096x1.Idx → EReal) (ix2 j 0) := by
  obtain ⟨-, -, e0, e1, -⟩ := idx_facts t
  unfold iblk2
  rw [View.read_apply]
  show (V c main_v8_1 : S4096x1.Idx → EReal) _ = _
  refine congrArg _ (funext fun a => Fin.ext ?_)
  match a with
  | ⟨0, _⟩ => show win2_1.index t (0 : Fin 2) * 4096 + 1 * j.val = j.val; rw [e0]; omega
  | ⟨1, _⟩ => show win2_1.index t (1 : Fin 2) * 1 + 1 * 0 = 0; rw [e1]

/-- Block t of the features x2: rows 256·t … of the array. -/
theorem blk2_at (c : Dev nD) (t : Fin cfg2.N) (p : Fin 256) (d : Fin 128) :
    (iblk2 V c 2 t : Vec Ideal S256x128 .f32) (ix2 p d) = (V c main_arg1 : S4096x128.Idx → EReal) (ix2 (rowOf t p) d) := by
  obtain ⟨-, -, -, -, e0, e1, -⟩ := idx_facts t
  unfold iblk2
  rw [View.read_apply]
  show (V c main_arg1 : S4096x128.Idx → EReal) _ = _
  refine congrArg _ (funext fun a => Fin.ext ?_)
  match a with
  | ⟨0, _⟩ => show win2_2.index t (0 : Fin 2) * 256 + 1 * p.val = t.val * 256 + p.val; rw [e0]; omega
  | ⟨1, _⟩ => show win2_2.index t (1 : Fin 2) * 128 + 1 * d.val = d.val; rw [e1]; omega

/-- Block t of the neighbour sums: rows 256·t … of the column. -/
theorem blk3_at (c : Dev nD) (t : Fin cfg2.N) (p : Fin 256) :
    (iblk2 V c 3 t : Vec Ideal S256x1 .f32) (ix2 p 0) = (V c main_v6_0 : S4096x1.Idx → EReal) (ix2 (rowOf t p) 0) := by
  obtain ⟨-, -, -, -, -, -, e0, e1, -⟩ := idx_facts t
  unfold iblk2
  rw [View.read_apply]
  show (V c main_v6_0 : S4096x1.Idx → EReal) _ = _
  refine congrArg _ (funext fun a => Fin.ext ?_)
  match a with
  | ⟨0, _⟩ => show win2_3.index t (0 : Fin 2) * 256 + 1 * p.val = t.val * 256 + p.val; rw [e0]; omega
  | ⟨1, _⟩ => show win2_3.index t (1 : Fin 2) * 1 + 1 * 0 = 0; rw [e1]

/-- The four weight matrices, whole at every point. -/
theorem blk4_at (c : Dev nD) (t : Fin cfg2.N) (h d : Fin 128) :
    (iblk2 V c 4 t : Vec Ideal S128x128 .f32) (ix2 h d) = (V c main_arg6 : S128x128.Idx → EReal) (ix2 h d) := by
  obtain ⟨-, -, -, -, -, -, -, -, e0, e1, -⟩ := idx_facts t
  unfold iblk2
  rw [View.read_apply]
  show (V c main_arg6 : S128x128.Idx → EReal) _ = _
  refine congrArg _ (funext fun a => Fin.ext ?_)
  match a with
  | ⟨0, _⟩ => show win2_4.index t (0 : Fin 2) * 128 + 1 * h.val = h.val; rw [e0]; omega
  | ⟨1, _⟩ => show win2_4.index t (1 : Fin 2) * 128 + 1 * d.val = d.val; rw [e1]; omega

theorem blk5_at (c : Dev nD) (t : Fin cfg2.N) (h d : Fin 128) :
    (iblk2 V c 5 t : Vec Ideal S128x128 .f32) (ix2 h d) = (V c main_arg7 : S128x128.Idx → EReal) (ix2 h d) := by
  obtain ⟨-, -, -, -, -, -, -, -, -, -, e0, e1, -⟩ := idx_facts t
  unfold iblk2
  rw [View.read_apply]
  show (V c main_arg7 : S128x128.Idx → EReal) _ = _
  refine congrArg _ (funext fun a => Fin.ext ?_)
  match a with
  | ⟨0, _⟩ => show win2_5.index t (0 : Fin 2) * 128 + 1 * h.val = h.val; rw [e0]; omega
  | ⟨1, _⟩ => show win2_5.index t (1 : Fin 2) * 128 + 1 * d.val = d.val; rw [e1]; omega

theorem blk6_at (c : Dev nD) (t : Fin cfg2.N) (h d : Fin 128) :
    (iblk2 V c 6 t : Vec Ideal S128x128 .f32) (ix2 h d) = (V c main_arg10 : S128x128.Idx → EReal) (ix2 h d) := by
  obtain ⟨-, -, -, -, -, -, -, -, -, -, -, -, e0, e1, -⟩ := idx_facts t
  unfold iblk2
  rw [View.read_apply]
  show (V c main_arg10 : S128x128.Idx → EReal) _ = _
  refine congrArg _ (funext fun a => Fin.ext ?_)
  match a with
  | ⟨0, _⟩ => show win2_6.index t (0 : Fin 2) * 128 + 1 * h.val = h.val; rw [e0]; omega
  | ⟨1, _⟩ => show win2_6.index t (1 : Fin 2) * 128 + 1 * d.val = d.val; rw [e1]; omega

theorem blk7_at (c : Dev nD) (t : Fin cfg2.N) (h d : Fin 128) :
    (iblk2 V c 7 t : Vec Ideal S128x128 .f32) (ix2 h d) = (V c main_arg11 : S128x128.Idx → EReal) (ix2 h d) := by
  obtain ⟨-, -, -, -, -, -, -, -, -, -, -, -, -, -, e0, e1, -⟩ := idx_facts t
  unfold iblk2
  rw [View.read_apply]
  show (V c main_arg11 : S128x128.Idx → EReal) _ = _
  refine congrArg _ (funext fun a => Fin.ext ?_)
  match a with
  | ⟨0, _⟩ => show win2_7.index t (0 : Fin 2) * 128 + 1 * h.val = h.val; rw [e0]; omega
  | ⟨1, _⟩ => show win2_7.index t (1 : Fin 2) * 128 + 1 * d.val = d.val; rw [e1]; omega

/-! ## The block the body writes back, and the whole array -/

/-- Entry (p, q) of the output's block t is entry (256·t + p, q) of the array. -/
theorem emb8 (t : Fin cfg2.N) (p : Fin 256) (q : Fin 128) :
    ((cfg2.win 8).blk t).view.emb (ix2 p q) = (ix2 (rowOf t p) q : S4096x128.Idx) := by
  obtain ⟨-, -, -, -, -, -, -, -, -, -, -, -, -, -, -, -, e0, e1⟩ := idx_facts t
  refine funext fun a => Fin.ext ?_
  match a with
  | ⟨0, _⟩ => show win2_8.index t (0 : Fin 2) * 256 + 1 * p.val = t.val * 256 + p.val; rw [e0]; omega
  | ⟨1, _⟩ => show win2_8.index t (1 : Fin 2) * 128 + 1 * q.val = q.val; rw [e1]; omega

/-- What point t writes back is block t of the side's output as a function of the whole arrays. -/
theorem flushed_8 (c : Dev nD) (t : Fin cfg2.N) :
    (dat2 V c).flushed 8 t = ((cfg2.win 8).blk t).view.read (Elt Ideal)
      (O (V c main_arg1) (V c main_arg6) (V c main_arg7) (V c main_arg10) (V c main_arg11) (V c main_v6_0)
        (SP (V c main_v6_2) (V c main_v8_1))) := by
  show (cfg2.win 8).cut (grid2.coords t) ((dat2 V c).after 8 t) = _
  rw [after2_8]
  funext y
  obtain ⟨p, q, rfl⟩ : ∃ (p : Fin 256) (q : Fin 128), y = ix2 p q := ⟨y 0, y 1, eq_ix2 y⟩
  rw [View.read_apply, emb8]
  exact out_eq_O _ _ _ _ _ _ _ _ _ _ _ _ _ _ _ _ p q (rowOf t p)
    (fun j => blk0_at V c t p j) (fun j => blk1_at V c t j) (fun d => blk2_at V c t p d) (blk3_at V c t p)
    (fun h d => blk4_at V c t h d) (fun h d => blk5_at V c t h d) (fun h d => blk6_at V c t h d)
    (fun h d => blk7_at V c t h d)

/-- An index of the array is in point t's block iff each coordinate is in the block's range on its axis. -/
theorem mem_blk8 (t : Fin cfg2.N) (i : S4096x128.Idx) :
    i ∈ ((cfg2.win 8).blk t).view.set ↔ ∀ a : Fin 2, win2_8.index t a * S256x128.size a ≤ (i a).val
      ∧ (i a).val < win2_8.index t a * S256x128.size a + S256x128.size a := by
  show i ∈ ((View.whole main_v9).slice (win2_8.rect t)).set ↔ _
  rw [View.set_slice_whole, Rect.mem_set_unit]
  exact Iff.rfl

/-- Every row of the array lies in the block of the point row / 256. -/
theorem cover8 (i : S4096x128.Idx) :
    ∃ t : Fin cfg2.N, (cfg2.win 8).flush t = true ∧ i ∈ ((cfg2.win 8).blk t).view.set := by
  have hi0 : (i 0).val < 4096 := (i 0).isLt
  have hi1 : (i 1).val < 128 := (i 1).isLt
  have hN : cfg2.N = 16 := N_2
  let t : Fin cfg2.N := ⟨(i 0).val / 256, by omega⟩
  have ht : t.val = (i 0).val / 256 := rfl
  obtain ⟨-, -, -, -, -, -, -, -, -, -, -, -, -, -, -, -, e0, e1⟩ := idx_facts t
  refine ⟨t, flush2_8 t, ?_⟩
  rw [mem_blk8]
  intro a
  match a with
  | ⟨0, _⟩ =>
    show win2_8.index t (0 : Fin 2) * 256 ≤ (i 0).val ∧ (i 0).val < win2_8.index t (0 : Fin 2) * 256 + 256
    rw [e0, ht]; omega
  | ⟨1, _⟩ =>
    show win2_8.index t (1 : Fin 2) * 128 ≤ (i 1).val ∧ (i 1).val < win2_8.index t (1 : Fin 2) * 128 + 128
    rw [e1]; omega

end Cert.Dual.K.PhaseC

namespace Cert.Dual.K

open Idealize.ShloMosaic Idealize.ShloMosaic.TcCoe Idealize.SL.Sem Idealize.ShloMosaic.ValueIdx
open Idealize.ShloMosaic.Pipeline (Dat)
open Cert.KernelIdeal Cert.KernelIdeal.Gen

variable (V : (c : Dev nD) → (b : Ref sig .tc) → Buf (Elt Ideal) ((c : Thread nD τ).loc b))

/-- PHASE C, THE WHOLE ARRAY: after the sixteen points the result array holds the side's output of the arrays the
    phase was handed, the neighbour summary being the table's numbers against the hidden column taken twice. -/
theorem phaseC_o2 (c : Dev nD) :
    (dat2 V c).arrAt 8 cfg2.N
      = O (V c main_arg1) (V c main_arg6) (V c main_arg7) (V c main_arg10) (V c main_arg11) (V c main_v6_0)
          (SP (V c main_v6_2) (V c main_v8_1)) :=
  (dat2 V c).arrAt_eq_of_cover 8 _ (fun t _ => PhaseC.flushed_8 V c t) PhaseC.cover8

end Cert.Dual.K

end
-- ==== Proof.KernelChain.lean ====
/-
  The kernel program's buffer contents between its three regions.

  The kernel program is three pipelined regions with a few host layout operations before the first two. Before region 0
  column 0 of each feature array is sliced out and reshaped into a row of 4096 numbers; before region 1 the column that
  region 0 wrote (4096 by 1) is reshaped into a row. Nothing else is written outside the regions' own outputs. So every
  array a region is handed is either an argument as launched, or the row of column 0 of an argument, or an output of an
  earlier region (reshaped or as it is). The lemmas below say which, for each array of each region.
-/
import proofs.«173209_g89215060672586_cont_9to1c4b_471_9_alg».proof.Proof.Gen.KernelIdeal.Frame
import Idealize.ShloMosaic.Lib.StableHlo.Run
import Idealize.ShloMosaic.Lib.Pipeline.Value
import Idealize.ShloMosaic.Lib.ValueIdx

set_option maxRecDepth 16384

noncomputable section

namespace Cert.Dual.K

open Cert.KernelIdeal Cert.KernelIdeal.Gen
open Idealize.ShloMosaic Idealize.ShloMosaic.TcCoe Idealize.ShloMosaic.ValueIdx
open Idealize.SL Idealize.SL.Sem

/-! ## The layout chains read at an index -/

/-- Column 0 of a 4096 by 128 array, sliced out, flattened and made a row, read at (0, j) is the array at (j, 0). -/
theorem row_of_col0 {α : Type} (x : S4096x128.Idx → α) (i : S1x4096.Idx) :
    shapeCast S1x4096 (shapeCast S4096 (extractStridedSlice S4096x1 ![0, 0] x slices_S4096x128_S4096x1_0_0)
      shapeCasts_S4096x1_S4096) shapeCasts_S4096_S1x4096 i = x (ix2 (n0 := 4096) (n1 := 128) (i 1) 0) := by
  have h0 : (i 0).val < 1 := (i 0).isLt
  refine (shapeCast_apply _ shapeCasts_S4096_S1x4096 i (ix1 (n := 4096) (i 1)) ?_).trans ?_
  · rw [Shape.rowMajor_val_one, Shape.rowMajor_val_two]
    show (i 1).val = (i 0).val * 4096 + (i 1).val
    omega
  refine (shapeCast_apply _ shapeCasts_S4096x1_S4096 (ix1 (n := 4096) (i 1)) (ix2 (n0 := 4096) (n1 := 1) (i 1) 0) ?_).trans ?_
  · rw [Shape.rowMajor_val_two, Shape.rowMajor_val_one]
    show (i 1).val * 1 + 0 = (i 1).val
    omega
  exact extractStridedSlice_apply ![0, 0] x slices_S4096x128_S4096x1_0_0 (ix2 (n0 := 4096) (n1 := 1) (i 1) 0)
    (ix2 (n0 := 4096) (n1 := 128) (i 1) 0) (fun a => match a with
      | ⟨0, _⟩ => by show (i 1).val = 0 + (i 1).val; omega
      | ⟨1, _⟩ => by show 0 = 0 + 0; rfl)

/-- A 4096 by 1 column made a row, read at (0, j), is the column at (j, 0). -/
theorem row_of_col {α : Type} (x : S4096x1.Idx → α) (i : S1x4096.Idx) :
    shapeCast S1x4096 x shapeCasts_S4096x1_S1x4096 i = x (ix2 (n0 := 4096) (n1 := 1) (i 1) 0) := by
  have h0 : (i 0).val < 1 := (i 0).isLt
  refine shapeCast_apply _ shapeCasts_S4096x1_S1x4096 i (ix2 (n0 := 4096) (n1 := 1) (i 1) 0) ?_
  rw [Shape.rowMajor_val_two, Shape.rowMajor_val_two]
  show (i 1).val * 1 + 0 = (i 0).val * 4096 + (i 1).val
  omega

/-! ## The host operations before region 0 and before region 1 -/

/-- The six host operations before region 0 write only their six results. -/
theorem after0_keeps (Vv : Valuation τ sig (Elt Ideal)) (r : Ref sig .tc)
    (h0 : r ≠ main_v0) (h1 : r ≠ main_v1) (h2 : r ≠ main_v2) (h3 : r ≠ main_v3) (h4 : r ≠ main_v4) (h5 : r ≠ main_v5) :
    StableHlo.after hostOps0 Vv (Proc.devRef .tc r) = Vv (Proc.devRef .tc r) :=
  StableHlo.after_of_forall_not_mem (b := Proc.devRef .tc r) _ _ (List.forall_iff_forall_mem.mp (by
    simp only [hostOps0, List.Forall, StableHlo.unary_writes, StableHlo.reshape_writes, Finset.mem_singleton]
    exact ⟨StableHlo.devRef_ne_of_ne h0, StableHlo.devRef_ne_of_ne h1, StableHlo.devRef_ne_of_ne h2,
      StableHlo.devRef_ne_of_ne h3, StableHlo.devRef_ne_of_ne h4, StableHlo.devRef_ne_of_ne h5⟩))

/-- The one host operation before region 1 writes only its result. -/
theorem after1_keeps (Vv : Valuation τ sig (Elt Ideal)) (r : Ref sig .tc) (h : r ≠ main_v7) :
    StableHlo.after hostOps1 Vv (Proc.devRef .tc r) = Vv (Proc.devRef .tc r) :=
  StableHlo.after_of_forall_not_mem (b := Proc.devRef .tc r) _ _ (List.forall_iff_forall_mem.mp (by
    simp only [hostOps1, List.Forall, StableHlo.reshape_writes, Finset.mem_singleton]
    exact StableHlo.devRef_ne_of_ne h))

/-- After the host operations before region 0 the first row buffer holds the row of column 0 of argument 0. -/
theorem after0_v2 (Vv : Valuation τ sig (Elt Ideal)) :
    (StableHlo.after hostOps0 Vv (Proc.devRef .tc main_v2) : S1x4096.Idx → EReal)
      = shapeCast S1x4096 (shapeCast S4096 (extractStridedSlice S4096x1 ![0, 0]
          (Vv (Proc.devRef .tc main_arg0) : S4096x128.Idx → EReal) slices_S4096x128_S4096x1_0_0)
          shapeCasts_S4096x1_S4096) shapeCasts_S4096_S1x4096 := by
  after_results
  rfl

/-- … and the second row buffer the row of column 0 of argument 1. -/
theorem after0_v5 (Vv : Valuation τ sig (Elt Ideal)) :
    (StableHlo.after hostOps0 Vv (Proc.devRef .tc main_v5) : S1x4096.Idx → EReal)
      = shapeCast S1x4096 (shapeCast S4096 (extractStridedSlice S4096x1 ![0, 0]
          (Vv (Proc.devRef .tc main_arg1) : S4096x128.Idx → EReal) slices_S4096x128_S4096x1_0_0)
          shapeCasts_S4096x1_S4096) shapeCasts_S4096_S1x4096 := by
  after_results
  rfl

/-- After the host operation before region 1 its row buffer holds the row of the column region 0 wrote. -/
theorem after1_v7 (Vv : Valuation τ sig (Elt Ideal)) :
    (StableHlo.after hostOps1 Vv (Proc.devRef .tc main_v7) : S1x4096.Idx → EReal)
      = shapeCast S1x4096 (Vv (Proc.devRef .tc main_v6_1) : S4096x1.Idx → EReal) shapeCasts_S4096x1_S1x4096 := by
  after_results
  rfl

variable (m : (ℓ : Loc nD τ sig) → Buf (Elt Ideal) ℓ) (ρ : Dev nD → PrngReg) (c : Dev nD)

/-- An argument keeps its launch contents through the host operations before region 0. -/
theorem W1_arg (r : Ref sig .tc)
    (h0 : r ≠ main_v0) (h1 : r ≠ main_v1) (h2 : r ≠ main_v2) (h3 : r ≠ main_v3) (h4 : r ≠ main_v4) (h5 : r ≠ main_v5) :
    W1 m ρ c (Proc.devRef .tc r) = m ((c : Thread nD τ).loc r) :=
  (after0_keeps (W0 m ρ c) r h0 h1 h2 h3 h4 h5).trans rfl

/-! ## What region 0 is handed -/

theorem V1_arg2 : V1 m ρ c main_arg2 = m ((c : Thread nD τ).loc main_arg2) :=
  W1_arg m ρ c main_arg2 (by decide) (by decide) (by decide) (by decide) (by decide) (by decide)
theorem V1_arg1 : V1 m ρ c main_arg1 = m ((c : Thread nD τ).loc main_arg1) :=
  W1_arg m ρ c main_arg1 (by decide) (by decide) (by decide) (by decide) (by decide) (by decide)
theorem V1_arg6 : V1 m ρ c main_arg6 = m ((c : Thread nD τ).loc main_arg6) :=
  W1_arg m ρ c main_arg6 (by decide) (by decide) (by decide) (by decide) (by decide) (by decide)
theorem V1_arg7 : V1 m ρ c main_arg7 = m ((c : Thread nD τ).loc main_arg7) :=
  W1_arg m ρ c main_arg7 (by decide) (by decide) (by decide) (by decide) (by decide) (by decide)

/-- The row region 0 is handed is column 0 of argument 0. -/
theorem V1_v2 : (V1 m ρ c main_v2 : S1x4096.Idx → EReal)
    = fun i => (m ((c : Thread nD τ).loc main_arg0) : S4096x128.Idx → EReal) (ix2 (n0 := 4096) (n1 := 128) (i 1) 0) := by
  funext i
  exact (congrFun (after0_v2 (W0 m ρ c)) i).trans (row_of_col0 _ i)

/-! ## What region 1 is handed -/

/-- A buffer that is no array of region 0 and no result of a host operation holds its launch contents at region 1's
    entry. -/
theorem W3_arg (r : Ref sig .tc) (hr : ∀ w, Pipeline.arrRef spec0 w ≠ r) (h7 : r ≠ main_v7)
    (h0 : r ≠ main_v0) (h1 : r ≠ main_v1) (h2 : r ≠ main_v2) (h3 : r ≠ main_v3) (h4 : r ≠ main_v4) (h5 : r ≠ main_v5) :
    W3 m ρ c (Proc.devRef .tc r) = m ((c : Thread nD τ).loc r) :=
  (after1_keeps (W2 m ρ c) r h7).trans ((W2_of_ne m ρ c r hr).trans (W1_arg m ρ c r h0 h1 h2 h3 h4 h5))

theorem V3_arg3 : V3 m ρ c main_arg3 = m ((c : Thread nD τ).loc main_arg3) :=
  W3_arg m ρ c main_arg3 (by decide) (by decide) (by decide) (by decide) (by decide) (by decide) (by decide) (by decide)
theorem V3_arg0 : V3 m ρ c main_arg0 = m ((c : Thread nD τ).loc main_arg0) :=
  W3_arg m ρ c main_arg0 (by decide) (by decide) (by decide) (by decide) (by decide) (by decide) (by decide) (by decide)
theorem V3_arg4 : V3 m ρ c main_arg4 = m ((c : Thread nD τ).loc main_arg4) :=
  W3_arg m ρ c main_arg4 (by decide) (by decide) (by decide) (by decide) (by decide) (by decide) (by decide) (by decide)
theorem V3_arg5 : V3 m ρ c main_arg5 = m ((c : Thread nD τ).loc main_arg5) :=
  W3_arg m ρ c main_arg5 (by decide) (by decide) (by decide) (by decide) (by decide) (by decide) (by decide) (by decide)
theorem V3_arg8 : V3 m ρ c main_arg8 = m ((c : Thread nD τ).loc main_arg8) :=
  W3_arg m ρ c main_arg8 (by decide) (by decide) (by decide) (by decide) (by decide) (by decide) (by decide) (by decide)
theorem V3_arg9 : V3 m ρ c main_arg9 = m ((c : Thread nD τ).loc main_arg9) :=
  W3_arg m ρ c main_arg9 (by decide) (by decide) (by decide) (by decide) (by decide) (by decide) (by decide) (by decide)

/-- The first row region 1 is handed is column 0 of argument 1. -/
theorem V3_v5 : (V3 m ρ c main_v5 : S1x4096.Idx → EReal)
    = fun i => (m ((c : Thread nD τ).loc main_arg1) : S4096x128.Idx → EReal) (ix2 (n0 := 4096) (n1 := 128) (i 1) 0) := by
  funext i
  have e : (W3 m ρ c (Proc.devRef .tc main_v5) : S1x4096.Idx → EReal) = W1 m ρ c (Proc.devRef .tc main_v5) :=
    (after1_keeps (W2 m ρ c) main_v5 (by decide)).trans (W2_of_ne m ρ c main_v5 (by decide))
  exact (congrFun e i).trans ((congrFun (after0_v5 (W0 m ρ c)) i).trans (row_of_col0 _ i))

/-- The second row region 1 is handed is the column region 0 left in its second output. -/
theorem V3_v7 : (V3 m ρ c main_v7 : S1x4096.Idx → EReal)
    = fun i => ((dat0 (V1 m ρ) c).arrAt 6 cfg0.N : S4096x1.Idx → EReal) (ix2 (n0 := 4096) (n1 := 1) (i 1) 0) := by
  funext i
  refine (congrFun (after1_v7 (W2 m ρ c)) i).trans ((row_of_col _ i).trans ?_)
  exact congrFun (W2_arr m ρ c 6) _

/-! ## What region 2 is handed -/

/-- Region 0's third output reaches region 2 as region 0 left it. -/
theorem V4_v6_2 : V4 m ρ c main_v6_2 = (dat0 (V1 m ρ) c).arrAt 7 cfg0.N :=
  (W4_of_ne m ρ c main_v6_2 (by decide)).trans
    ((after1_keeps (W2 m ρ c) main_v6_2 (by decide)).trans (W2_arr m ρ c 7))

/-- Region 0's first output reaches region 2 as region 0 left it. -/
theorem V4_v6_0 : V4 m ρ c main_v6_0 = (dat0 (V1 m ρ) c).arrAt 5 cfg0.N :=
  (W4_of_ne m ρ c main_v6_0 (by decide)).trans
    ((after1_keeps (W2 m ρ c) main_v6_0 (by decide)).trans (W2_arr m ρ c 5))

/-- Region 1's second output reaches region 2 as region 1 left it. -/
theorem V4_v8_1 : V4 m ρ c main_v8_1 = (dat1 (V3 m ρ) c).arrAt 9 cfg1.N :=
  W4_arr m ρ c 9

/-- An input array of region 0 that region 1 does not touch. -/
theorem V4_arg1 : V4 m ρ c main_arg1 = m ((c : Thread nD τ).loc main_arg1) :=
  (W4_of_ne m ρ c main_arg1 (by decide)).trans ((after1_keeps (W2 m ρ c) main_arg1 (by decide)).trans
    (((W2_arr m ρ c 2).trans (((dat0 (V1 m ρ) c).arrAt_in 2 rfl _).trans (A_eq0 (V1 m ρ) c 2))).trans (V1_arg1 m ρ c)))
/-- An input array of region 0 that region 1 does not touch. -/
theorem V4_arg6 : V4 m ρ c main_arg6 = m ((c : Thread nD τ).loc main_arg6) :=
  (W4_of_ne m ρ c main_arg6 (by decide)).trans ((after1_keeps (W2 m ρ c) main_arg6 (by decide)).trans
    (((W2_arr m ρ c 3).trans (((dat0 (V1 m ρ) c).arrAt_in 3 rfl _).trans (A_eq0 (V1 m ρ) c 3))).trans (V1_arg6 m ρ c)))
/-- An input array of region 0 that region 1 does not touch. -/
theorem V4_arg7 : V4 m ρ c main_arg7 = m ((c : Thread nD τ).loc main_arg7) :=
  (W4_of_ne m ρ c main_arg7 (by decide)).trans ((after1_keeps (W2 m ρ c) main_arg7 (by decide)).trans
    (((W2_arr m ρ c 4).trans (((dat0 (V1 m ρ) c).arrAt_in 4 rfl _).trans (A_eq0 (V1 m ρ) c 4))).trans (V1_arg7 m ρ c)))
theorem V4_arg10 : V4 m ρ c main_arg10 = m ((c : Thread nD τ).loc main_arg10) :=
  (W4_of_ne m ρ c main_arg10 (by decide)).trans (W3_arg m ρ c main_arg10 (by decide) (by decide) (by decide) (by decide) (by decide) (by decide) (by decide) (by decide))
theorem V4_arg11 : V4 m ρ c main_arg11 = m ((c : Thread nD τ).loc main_arg11) :=
  (W4_of_ne m ρ c main_arg11 (by decide)).trans (W3_arg m ρ c main_arg11 (by decide) (by decide) (by decide) (by decide) (by decide) (by decide) (by decide) (by decide))

end Cert.Dual.K

end
-- ==== Proof.KernelRun.lean ====
/-
  The run of the three-phase program, with its two result arrays named.

  The program is five segments: a stretch of host operations, the first region, a second stretch, the second region and
  the third region. Every weakly fair execution from any memory with zero counters terminates, and in every final state
  each unscoped array of a core holds the contents of the last segment boundary. Read at the two result arrays this
  names the results; read at the twelve argument arrays, which no segment writes, it gives the launch contents back.

  The contents at the last boundary are those at the third region's entry with that region's arrays replaced by what
  its pipeline leaves. The second result is the third region's output array, so it holds what that pipeline leaves in
  it. The first result is no array of the third region and is the second region's last output array, so it holds what
  the second region's pipeline leaves in it.
-/
import proofs.«173209_g89215060672586_cont_9to1c4b_471_9_alg».proof.Proof.Gen.KernelIdeal.Frame

set_option maxRecDepth 16384

noncomputable section

namespace Cert.Dual.K

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The two results at the last boundary -/

/-- The second result is the third region's output array: it holds what that region's pipeline leaves in it. -/
theorem W5_out2 (c : Dev nD) :
    W5 m ρ c (Proc.devRef .tc main_v9) = (dat2 (V4 m ρ) c).arrAt 8 cfg2.N :=
  W5_arr m ρ c 8

/-- The first result is no array of the third region, and is the second region's last output array: it holds what
    the second region's pipeline leaves in it. -/
theorem W5_out1 (c : Dev nD) :
    W5 m ρ c (Proc.devRef .tc main_v8_2) = (dat1 (V3 m ρ) c).arrAt 10 cfg1.N :=
  (W5_of_ne m ρ c main_v8_2 (by decide)).trans (W4_arr m ρ c 10)

/-! ## The run -/

set_option backward.isDefEq.respectTransparency.types false in
/-- The run of the five segments: every weakly fair execution terminates, nothing faulting, and in every final state
    the two result arrays hold the last boundary's contents and the twelve argument arrays their launch contents. -/
theorem kernel_run : θ_run defs (onTc (τ := τ) (main (F := F))) ⟨m, fun _ => 0, ρ⟩ (fun r => ∀ c : Dev nD,
      r.2.mem ((c.tc : Thread nD τ).loc main_v8_2) = W5 m ρ c (Proc.devRef .tc main_v8_2)
      ∧ r.2.mem ((c.tc : Thread nD τ).loc main_v9) = W5 m ρ c (Proc.devRef .tc main_v9)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W5 m ρ c b)
    (hfin := fun c s' => by
      iintro ⟨⟨Hh, -⟩, HSI⟩
      unfold StableHlo.held
      imodintro
      iapply (pointsTo_read_all (Pipeline.ucRefs τ sig) (fun b => (((c : Thread nD τ)).1, b)) (W5 m ρ c) s')
      isplitl [Hh] <;> iassumption)
    (hQ := fun s h c =>
      ⟨h c _ (mem_uc main_v8_2 (by decide)),
       h c _ (mem_uc main_v9 (by decide)),
       (h c _ (mem_uc main_arg0 (by decide))).trans (W5_main_arg0 m ρ c),
       (h c _ (mem_uc main_arg1 (by decide))).trans (W5_main_arg1 m ρ c),
       (h c _ (mem_uc main_arg2 (by decide))).trans (W5_main_arg2 m ρ c),
       (h c _ (mem_uc main_arg3 (by decide))).trans (W5_main_arg3 m ρ c),
       (h c _ (mem_uc main_arg4 (by decide))).trans (W5_main_arg4 m ρ c),
       (h c _ (mem_uc main_arg5 (by decide))).trans (W5_main_arg5 m ρ c),
       (h c _ (mem_uc main_arg6 (by decide))).trans (W5_main_arg6 m ρ c),
       (h c _ (mem_uc main_arg7 (by decide))).trans (W5_main_arg7 m ρ c),
       (h c _ (mem_uc main_arg8 (by decide))).trans (W5_main_arg8 m ρ c),
       (h c _ (mem_uc main_arg9 (by decide))).trans (W5_main_arg9 m ρ c),
       (h c _ (mem_uc main_arg10 (by decide))).trans (W5_main_arg10 m ρ c),
       (h c _ (mem_uc main_arg11 (by decide))).trans (W5_main_arg11 m ρ c)⟩)

end Cert.Dual.K

end
-- ==== Proof.Spec.lean ====
/-
  The two programs of this certificate as plain formulas over coordinates.

  A bipartite graph has 4096 nodes on each side, 128 features per node; `a12` and `a21` are its two 4096 by 4096
  adjacency tables of 32-bit words, read as masks by "the word is greater than 0". One layer replaces every node's
  feature row by  act (x · Wself^T + (s broadcast over the features) · Wneigh^T), where the neighbour summary `s` of a
  node is ONE number: on side 1 the maximum over the node's neighbours of feature 0 of side 2 (0 for a node with no
  neighbour), on side 2 the sum over the node's neighbours of feature 0 of side 1. Two layers are applied, the first with
  max(·, 0), the second with the identity.

  The family ending in `K` spells what the three-phase kernel computes: (s broadcast) · Wneigh^T is taken as
  s times the row sums of Wneigh; feature 0 of the hidden layer is computed on its own from row 0 of the weights; the
  second layer's maximum fills unselected places with 0 (the hidden features are not negative); the second layer's sum is a
  product of the table's words, made numbers, with the hidden column, taken twice (the column, and the column minus itself).
  The family ending in `R` spells the reference: the summaries guarded by "the node has a neighbour", the products with
  Wneigh^T as sums over the features.
-/
import Idealize.ShloMosaic.PureOps.Ideal
import Idealize.ShloMosaic.Lib.ValueIdx

noncomputable section

open scoped BigOperators

namespace Cert.Dual

open Idealize.ShloMosaic Idealize.ShloMosaic.ValueIdx

/-- The twelve argument arrays at the extended reals (the two tables are words). -/
structure In where
  x1 : (⟨2, ![4096, 128]⟩ : Shape).Idx → EReal
  x2 : (⟨2, ![4096, 128]⟩ : Shape).Idx → EReal
  a12 : (⟨2, ![4096, 4096]⟩ : Shape).Idx → BitVec 32
  a21 : (⟨2, ![4096, 4096]⟩ : Shape).Idx → BitVec 32
  w1s0 : (⟨2, ![128, 128]⟩ : Shape).Idx → EReal
  w1n0 : (⟨2, ![128, 128]⟩ : Shape).Idx → EReal
  w2s0 : (⟨2, ![128, 128]⟩ : Shape).Idx → EReal
  w2n0 : (⟨2, ![128, 128]⟩ : Shape).Idx → EReal
  w1s1 : (⟨2, ![128, 128]⟩ : Shape).Idx → EReal
  w1n1 : (⟨2, ![128, 128]⟩ : Shape).Idx → EReal
  w2s1 : (⟨2, ![128, 128]⟩ : Shape).Idx → EReal
  w2n1 : (⟨2, ![128, 128]⟩ : Shape).Idx → EReal

/-- The mask bit of a table word: 1 when the word, read signed, is greater than 0. -/
def gt (v : BitVec 32) : BitVec 1 := IntOp.cmpi .sgt v 0#32

/-- Row `i` of `x` against row `h` of `w`: entry (i, h) of x · w^T. -/
def lin (x : (⟨2, ![4096, 128]⟩ : Shape).Idx → EReal) (w : (⟨2, ![128, 128]⟩ : Shape).Idx → EReal) (i : Fin 4096) (h : Fin 128) : EReal :=
  ∑ d : Fin 128, x (ix2 i d) * w (ix2 h d)

/-- The sum of row `h` of a weight matrix. -/
def rsum (w : (⟨2, ![128, 128]⟩ : Shape).Idx → EReal) (h : Fin 128) : EReal := ∑ d : Fin 128, w (ix2 h d)

variable (I : In)

/-! ## What the kernel computes -/

/-- Layer 0, side 2: the sum over node `i`'s neighbours of feature 0 of side 1. -/
def s2K (i : Fin 4096) : EReal := ∑ j : Fin 4096, Scalar.select (gt (I.a12 (ix2 i j))) (I.x1 (ix2 j 0)) 0
/-- Feature 0 of side 2's hidden layer. -/
def g2K (i : Fin 4096) : EReal := max (lin I.x2 I.w2s0 i 0 + s2K I i * rsum I.w2n0 0) 0
/-- The table's word made a number. -/
def mbfK (i j : Fin 4096) : EReal := FloatOps.sitofp (F := Ideal) .bf16 (I.a12 (ix2 i j))
/-- Layer 0, side 1: the maximum over node `i`'s neighbours of feature 0 of side 2, ⊥ for no neighbour. -/
def mx0K (i : Fin 4096) : EReal := ⨆ j : Fin 4096, Scalar.select (gt (I.a21 (ix2 i j))) (I.x2 (ix2 j 0)) ⊥
def s1K (i : Fin 4096) : EReal := if mx0K I i = ⊥ then 0 else mx0K I i
/-- Layer 1, side 1: the maximum of the hidden feature 0 of side 2 over the neighbours, unselected places filled with 0. -/
def s1pK (i : Fin 4096) : EReal := ⨆ j : Fin 4096, Scalar.select (gt (I.a21 (ix2 i j))) (g2K I j) 0
def g1K (i : Fin 4096) : EReal := max (lin I.x1 I.w1s0 i 0 + s1K I i * rsum I.w1n0 0) 0
def h1K (i : Fin 4096) (h : Fin 128) : EReal := max (lin I.x1 I.w1s0 i h + s1K I i * rsum I.w1n0 h) 0
def o1K (i : Fin 4096) (o : Fin 128) : EReal := (∑ h : Fin 128, h1K I i h * I.w1s1 (ix2 o h)) + s1pK I i * rsum I.w1n1 o
/-- Layer 1, side 2: the table's numbers against the hidden column, and against the column minus itself. -/
def s2pK (i : Fin 4096) : EReal := (∑ j : Fin 4096, mbfK I i j * g1K I j) + ∑ j : Fin 4096, mbfK I i j * (g1K I j - g1K I j)
def h2K (i : Fin 4096) (h : Fin 128) : EReal := max (lin I.x2 I.w2s0 i h + s2K I i * rsum I.w2n0 h) 0
def o2K (i : Fin 4096) (o : Fin 128) : EReal := (∑ h : Fin 128, h2K I i h * I.w2s1 (ix2 o h)) + s2pK I i * rsum I.w2n1 o

/-! ## What the reference computes -/

/-- Node `i` of side 1 has a neighbour. -/
def has1 (i : Fin 4096) : Prop := ∃ j : Fin 4096, gt (I.a21 (ix2 i j)) = 1#1
/-- Node `i` of side 2 has a neighbour. -/
def has2 (i : Fin 4096) : Prop := ∃ j : Fin 4096, gt (I.a12 (ix2 i j)) = 1#1

open Classical in
def s1R (i : Fin 4096) : EReal := if has1 I i then mx0K I i else 0
open Classical in
def s2R (i : Fin 4096) : EReal := if has2 I i then s2K I i else 0
def h1R (i : Fin 4096) (h : Fin 128) : EReal := max (lin I.x1 I.w1s0 i h + ∑ d : Fin 128, s1R I i * I.w1n0 (ix2 h d)) 0
def h2R (i : Fin 4096) (h : Fin 128) : EReal := max (lin I.x2 I.w2s0 i h + ∑ d : Fin 128, s2R I i * I.w2n0 (ix2 h d)) 0
open Classical in
def s1R' (i : Fin 4096) : EReal :=
  if has1 I i then ⨆ j : Fin 4096, Scalar.select (gt (I.a21 (ix2 i j))) (h2R I j 0) ⊥ else 0
open Classical in
def s2R' (i : Fin 4096) : EReal :=
  if has2 I i then ∑ j : Fin 4096, Scalar.select (gt (I.a12 (ix2 i j))) (h1R I j 0) 0 else 0
def o1R (i : Fin 4096) (o : Fin 128) : EReal :=
  (∑ h : Fin 128, h1R I i h * I.w1s1 (ix2 o h)) + ∑ h : Fin 128, s1R' I i * I.w1n1 (ix2 o h)
def o2R (i : Fin 4096) (o : Fin 128) : EReal :=
  (∑ h : Fin 128, h2R I i h * I.w2s1 (ix2 o h)) + ∑ h : Fin 128, s2R' I i * I.w2n1 (ix2 o h)

/-! ## The hypotheses under which the two agree -/

/-- Every entry of an array of extended reals is a real number. -/
def Real {s : Shape} (x : s.Idx → EReal) : Prop := ∀ i, ∃ r : ℝ, x i = (r : EReal)

/-- What the precondition gives: the two feature arrays and the six weight matrices that meet a neighbour summary or
    feed feature 0 hold real numbers, and every word of the table `a12` is 0 or 1. -/
structure Ok : Prop where
  x1 : Real I.x1
  x2 : Real I.x2
  w1s0 : Real I.w1s0
  w1n0 : Real I.w1n0
  w2s0 : Real I.w2s0
  w2n0 : Real I.w2n0
  w1n1 : Real I.w1n1
  w2n1 : Real I.w2n1
  a12 : ∀ i, I.a12 i = 0#32 ∨ I.a12 i = 1#32

end Cert.Dual

end
-- ==== Proof.KernelValue.lean ====
/-
  The kernel program's two results as formulas of the twelve arguments.

  Each of the three regions leaves, in each of its output arrays, a function of the arrays it is handed (the three
  phases' whole-array statements, taken here as hypotheses). The arrays a region is handed are arguments as launched,
  rows of column 0 of an argument, or outputs of earlier regions. Substituting one into the other, the second region's
  last output is the side-1 formula o1K of the twelve arguments and the third region's output is the side-2 formula o2K:
  the two sides are the same expression once the phases' names and the formulas' names are unfolded.
-/
import proofs.«173209_g89215060672586_cont_9to1c4b_471_9_alg».proof.Proof.KernelChain
import proofs.«173209_g89215060672586_cont_9to1c4b_471_9_alg».proof.Proof.KernelRun
import proofs.«173209_g89215060672586_cont_9to1c4b_471_9_alg».proof.Proof.Spec
import proofs.«173209_g89215060672586_cont_9to1c4b_471_9_alg».proof.Proof.PhaseSpec

set_option maxRecDepth 16384

noncomputable section

open scoped BigOperators

namespace Cert.Dual.K

open Cert.KernelIdeal Cert.KernelIdeal.Gen
open Idealize.ShloMosaic Idealize.ShloMosaic.TcCoe Idealize.ShloMosaic.ValueIdx
open Idealize.SL Idealize.SL.Sem

/-- The twelve arguments of a core at launch, as the formulas' input record. -/
def inK (m : (ℓ : Loc nD τ sig) → Buf (Elt Ideal) ℓ) (c : Dev nD) : Cert.Dual.In :=
  ⟨m ((c : Thread nD τ).loc main_arg0),
   m ((c : Thread nD τ).loc main_arg1),
   m ((c : Thread nD τ).loc main_arg2),
   m ((c : Thread nD τ).loc main_arg3),
   m ((c : Thread nD τ).loc main_arg4),
   m ((c : Thread nD τ).loc main_arg5),
   m ((c : Thread nD τ).loc main_arg6),
   m ((c : Thread nD τ).loc main_arg7),
   m ((c : Thread nD τ).loc main_arg8),
   m ((c : Thread nD τ).loc main_arg9),
   m ((c : Thread nD τ).loc main_arg10),
   m ((c : Thread nD τ).loc main_arg11)⟩

variable (m : (ℓ : Loc nD τ sig) → Buf (Elt Ideal) ℓ) (ρ : Dev nD → PrngReg) (c : Dev nD)

/-- The first result is the side-1 formula of the arguments. -/
theorem out1_eq
    (hA6 : ∀ (V : (c : Dev nD) → (b : Ref sig .tc) → Buf (Elt Ideal) ((c : Thread nD τ).loc b)) (c : Dev nD), (dat0 V c).arrAt 6 cfg0.N
      = G (V c main_arg1) (V c main_arg6) (V c main_arg7) (S2 (V c main_arg2) (V c main_v2)))
    (hB10 : ∀ (V : (c : Dev nD) → (b : Ref sig .tc) → Buf (Elt Ideal) ((c : Thread nD τ).loc b)) (c : Dev nD), (dat1 V c).arrAt 10 cfg1.N
      = O (V c main_arg0) (V c main_arg4) (V c main_arg5) (V c main_arg8) (V c main_arg9)
          (S1 (V c main_arg3) (V c main_v5)) (S1P (V c main_arg3) (V c main_v7))) :
    W5 m ρ c (Proc.devRef .tc main_v8_2) = fun i => Cert.Dual.o1K (inK m c) (i 0) (i 1) := by
  rw [W5_out1 m ρ c, hB10 (V3 m ρ) c, V3_arg0 m ρ c, V3_arg4 m ρ c, V3_arg5 m ρ c, V3_arg8 m ρ c, V3_arg9 m ρ c,
    V3_arg3 m ρ c, V3_v5 m ρ c, V3_v7 m ρ c, hA6 (V1 m ρ) c, V1_arg1 m ρ c, V1_arg6 m ρ c, V1_arg7 m ρ c,
    V1_arg2 m ρ c, V1_v2 m ρ c]
  rfl

/-- The second result is the side-2 formula of the arguments. -/
theorem out2_eq
    (hA5 : ∀ (V : (c : Dev nD) → (b : Ref sig .tc) → Buf (Elt Ideal) ((c : Thread nD τ).loc b)) (c : Dev nD), (dat0 V c).arrAt 5 cfg0.N = S2 (V c main_arg2) (V c main_v2))
    (hA7 : ∀ (V : (c : Dev nD) → (b : Ref sig .tc) → Buf (Elt Ideal) ((c : Thread nD τ).loc b)) (c : Dev nD), (dat0 V c).arrAt 7 cfg0.N = MB (V c main_arg2))
    (hB9 : ∀ (V : (c : Dev nD) → (b : Ref sig .tc) → Buf (Elt Ideal) ((c : Thread nD τ).loc b)) (c : Dev nD), (dat1 V c).arrAt 9 cfg1.N
      = G (V c main_arg0) (V c main_arg4) (V c main_arg5) (S1 (V c main_arg3) (V c main_v5)))
    (hC8 : ∀ (V : (c : Dev nD) → (b : Ref sig .tc) → Buf (Elt Ideal) ((c : Thread nD τ).loc b)) (c : Dev nD), (dat2 V c).arrAt 8 cfg2.N
      = O (V c main_arg1) (V c main_arg6) (V c main_arg7) (V c main_arg10) (V c main_arg11) (V c main_v6_0)
          (SP (V c main_v6_2) (V c main_v8_1))) :
    W5 m ρ c (Proc.devRef .tc main_v9) = fun i => Cert.Dual.o2K (inK m c) (i 0) (i 1) := by
  rw [W5_out2 m ρ c, hC8 (V4 m ρ) c, V4_arg1 m ρ c, V4_arg6 m ρ c, V4_arg7 m ρ c, V4_arg10 m ρ c, V4_arg11 m ρ c,
    V4_v6_0 m ρ c, V4_v6_2 m ρ c, V4_v8_1 m ρ c, hA5 (V1 m ρ) c, hA7 (V1 m ρ) c, hB9 (V3 m ρ) c,
    V3_arg0 m ρ c, V3_arg4 m ρ c, V3_arg5 m ρ c, V3_arg3 m ρ c, V3_v5 m ρ c, V1_arg2 m ρ c, V1_v2 m ρ c]
  rfl

/-- The run: every weakly fair execution terminates, with the two result arrays at the two formulas of the launch
    arguments and the twelve arguments unchanged. -/
theorem kernel_value_run
    (hA5 : ∀ (V : (c : Dev nD) → (b : Ref sig .tc) → Buf (Elt Ideal) ((c : Thread nD τ).loc b)) (c : Dev nD), (dat0 V c).arrAt 5 cfg0.N = S2 (V c main_arg2) (V c main_v2))
    (hA6 : ∀ (V : (c : Dev nD) → (b : Ref sig .tc) → Buf (Elt Ideal) ((c : Thread nD τ).loc b)) (c : Dev nD), (dat0 V c).arrAt 6 cfg0.N
      = G (V c main_arg1) (V c main_arg6) (V c main_arg7) (S2 (V c main_arg2) (V c main_v2)))
    (hA7 : ∀ (V : (c : Dev nD) → (b : Ref sig .tc) → Buf (Elt Ideal) ((c : Thread nD τ).loc b)) (c : Dev nD), (dat0 V c).arrAt 7 cfg0.N = MB (V c main_arg2))
    (hB9 : ∀ (V : (c : Dev nD) → (b : Ref sig .tc) → Buf (Elt Ideal) ((c : Thread nD τ).loc b)) (c : Dev nD), (dat1 V c).arrAt 9 cfg1.N
      = G (V c main_arg0) (V c main_arg4) (V c main_arg5) (S1 (V c main_arg3) (V c main_v5)))
    (hB10 : ∀ (V : (c : Dev nD) → (b : Ref sig .tc) → Buf (Elt Ideal) ((c : Thread nD τ).loc b)) (c : Dev nD), (dat1 V c).arrAt 10 cfg1.N
      = O (V c main_arg0) (V c main_arg4) (V c main_arg5) (V c main_arg8) (V c main_arg9)
          (S1 (V c main_arg3) (V c main_v5)) (S1P (V c main_arg3) (V c main_v7)))
    (hC8 : ∀ (V : (c : Dev nD) → (b : Ref sig .tc) → Buf (Elt Ideal) ((c : Thread nD τ).loc b)) (c : Dev nD), (dat2 V c).arrAt 8 cfg2.N
      = O (V c main_arg1) (V c main_arg6) (V c main_arg7) (V c main_arg10) (V c main_arg11) (V c main_v6_0)
          (SP (V c main_v6_2) (V c main_v8_1)))
    (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v8_2) = (fun i => Cert.Dual.o1K (inK m c) (i 0) (i 1))
      ∧ r.2.mem ((c.tc : Thread nD τ).loc main_v9) = (fun i => Cert.Dual.o2K (inK m c) (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  (θ_run defs _ _).mono (fun _ h c =>
    ⟨(h c).1.trans (out1_eq m ρ c hA6 hB10), (h c).2.1.trans (out2_eq m ρ c hA5 hA7 hB9 hC8), (h c).2.2⟩)
    (kernel_run m ρ)

end Cert.Dual.K

end
-- ==== Proof.RefRun.lean ====
/-
  The reference program's run.

  Its @main is a straight line of 102 host operations; 26 of them belong to the small functions it calls (a masked fill by a
  broadcast constant, a guarded choice between a vector and a broadcast constant, a maximum with a broadcast zero). Spelt
  as plain operations on the calls' own buffers, the list below is the generated one, operation for operation
  (`ops_eq`); over it every execution terminates with each result buffer at the operations' composed term of the
  arguments' launch contents, and with the argument arrays unchanged (`run`).
-/
import proofs.«173209_g89215060672586_cont_9to1c4b_471_9_alg».proof.Proof.RefRunP
import Idealize.ShloMosaic.Lib.StableHlo.Run

noncomputable section

namespace Cert.ReferenceIdeal.RunH

open Cert.ReferenceIdeal Cert.ReferenceIdeal.Gen Cert.ReferenceIdeal.ValueP Idealize.ShloMosaic Idealize.ShloMosaic.TcCoe Idealize.SL.Sem Idealize.ShloMosaic.StableHlo

variable {F : FTy → Type} [FloatOps F]

/-- @main's 102 operations, in order, a called function's operations standing in its call's place as plain operations. -/
abbrev opsPlain : List (HloOp τ sig (Elt F)) :=
  [ nullary main_c (constantI S_ 32 0#32),
    unary main_c main_v0 (broadcastInDim S4096x4096 ![] bcast_S_S4096x4096 : (⟨S_, .i32⟩ : BufTy).Contents (Elt F) → (⟨S4096x4096, .i32⟩ : BufTy).Contents (Elt F)),
    binary main_arg3 main_v0 main_v1 (cmpi .sgt : (⟨S4096x4096, .i32⟩ : BufTy).Contents (Elt F) → (⟨S4096x4096, .i32⟩ : BufTy).Contents (Elt F) → (⟨S4096x4096, .i1⟩ : BufTy).Contents (Elt F)),
    unary main_arg1 main_v2 ((extractStridedSlice S4096x1 ![0, 0] · slices_S4096x128_S4096x1_0_0) : (⟨S4096x128, .f32⟩ : BufTy).Contents (Elt F) → (⟨S4096x1, .f32⟩ : BufTy).Contents (Elt F)),
    reshape main_v2 main_v3 rfl shapeCasts_S4096x1_S4096,
    unary main_v3 main_v4 (broadcastInDim S1x4096 ![1] bcast_S4096_S1x4096_1 : (⟨S4096, .f32⟩ : BufTy).Contents (Elt F) → (⟨S1x4096, .f32⟩ : BufTy).Contents (Elt F)),
    nullary main_cst (constant S_ .f32 0xFF800000#32),
    unary main_v4 main_call0_v0 (broadcastInDim S4096x4096 ![0, 1] bcast_S1x4096_S4096x4096_0_1 : (⟨S1x4096, .f32⟩ : BufTy).Contents (Elt F) → (⟨S4096x4096, .f32⟩ : BufTy).Contents (Elt F)),
    unary main_cst main_call0_v1 (broadcastInDim S4096x4096 ![] bcast_S_S4096x4096 : (⟨S_, .f32⟩ : BufTy).Contents (Elt F) → (⟨S4096x4096, .f32⟩ : BufTy).Contents (Elt F)),
    ternary main_v1 main_call0_v0 main_call0_v1 main_v5 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_0 (constant S_ .f32 0xFF800000#32),
    binary main_v5 main_cst_0 main_v6 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_1 (constantI S_ 1 0#1),
    binary main_v1 main_c_1 main_v7 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_cst_2 (constant S_ .f32 0x00000000#32),
    unary main_cst_2 main_call1_v0 (broadcastInDim S4096 ![] bcast_S_S4096 : (⟨S_, .f32⟩ : BufTy).Contents (Elt F) → (⟨S4096, .f32⟩ : BufTy).Contents (Elt F)),
    ternary main_v7 main_v6 main_call1_v0 main_v8 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v8 main_v9 (broadcastInDim S4096x1 ![0] bcast_S4096_S4096x1_0 : (⟨S4096, .f32⟩ : BufTy).Contents (Elt F) → (⟨S4096x1, .f32⟩ : BufTy).Contents (Elt F)),
    unary main_v9 main_v10 (broadcastInDim S4096x128 ![0, 1] bcast_S4096x1_S4096x128_0_1 : (⟨S4096x1, .f32⟩ : BufTy).Contents (Elt F) → (⟨S4096x128, .f32⟩ : BufTy).Contents (Elt F)),
    nullary main_c_3 (constantI S_ 32 0#32),
    unary main_c_3 main_v11 (broadcastInDim S4096x4096 ![] bcast_S_S4096x4096 : (⟨S_, .i32⟩ : BufTy).Contents (Elt F) → (⟨S4096x4096, .i32⟩ : BufTy).Contents (Elt F)),
    binary main_arg2 main_v11 main_v12 (cmpi .sgt : (⟨S4096x4096, .i32⟩ : BufTy).Contents (Elt F) → (⟨S4096x4096, .i32⟩ : BufTy).Contents (Elt F) → (⟨S4096x4096, .i1⟩ : BufTy).Contents (Elt F)),
    unary main_arg0 main_v13 ((extractStridedSlice S4096x1 ![0, 0] · slices_S4096x128_S4096x1_0_0) : (⟨S4096x128, .f32⟩ : BufTy).Contents (Elt F) → (⟨S4096x1, .f32⟩ : BufTy).Contents (Elt F)),
    reshape main_v13 main_v14 rfl shapeCasts_S4096x1_S4096,
    unary main_v14 main_v15 (broadcastInDim S1x4096 ![1] bcast_S4096_S1x4096_1 : (⟨S4096, .f32⟩ : BufTy).Contents (Elt F) → (⟨S1x4096, .f32⟩ : BufTy).Contents (Elt F)),
    nullary main_cst_4 (constant S_ .f32 0x00000000#32),
    unary main_v15 main_call2_v0 (broadcastInDim S4096x4096 ![0, 1] bcast_S1x4096_S4096x4096_0_1 : (⟨S1x4096, .f32⟩ : BufTy).Contents (Elt F) → (⟨S4096x4096, .f32⟩ : BufTy).Contents (Elt F)),
    unary main_cst_4 main_call2_v1 (broadcastInDim S4096x4096 ![] bcast_S_S4096x4096 : (⟨S_, .f32⟩ : BufTy).Contents (Elt F) → (⟨S4096x4096, .f32⟩ : BufTy).Contents (Elt F)),
    ternary main_v12 main_call2_v0 main_call2_v1 main_v16 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_5 (constant S_ .f32 0x00000000#32),
    binary main_v16 main_cst_5 main_v17 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_6 (constantI S_ 1 0#1),
    binary main_v12 main_c_6 main_v18 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_cst_7 (constant S_ .f32 0x00000000#32),
    unary main_cst_7 main_call3_v0 (broadcastInDim S4096 ![] bcast_S_S4096 : (⟨S_, .f32⟩ : BufTy).Contents (Elt F) → (⟨S4096, .f32⟩ : BufTy).Contents (Elt F)),
    ternary main_v18 main_v17 main_call3_v0 main_v19 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v19 main_v20 (broadcastInDim S4096x1 ![0] bcast_S4096_S4096x1_0 : (⟨S4096, .f32⟩ : BufTy).Contents (Elt F) → (⟨S4096x1, .f32⟩ : BufTy).Contents (Elt F)),
    unary main_v20 main_v21 (broadcastInDim S4096x128 ![0, 1] bcast_S4096x1_S4096x128_0_1 : (⟨S4096x1, .f32⟩ : BufTy).Contents (Elt F) → (⟨S4096x128, .f32⟩ : BufTy).Contents (Elt F)),
    unary main_arg4 main_v22 ((transpose S128x128 [1, 0] · transposes_S128x128_S128x128_1_0) : (⟨S128x128, .f32⟩ : BufTy).Contents (Elt F) → (⟨S128x128, .f32⟩ : BufTy).Contents (Elt F)),
    binary main_arg0 main_v22 main_v23 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg5 main_v24 ((transpose S128x128 [1, 0] · transposes_S128x128_S128x128_1_0) : (⟨S128x128, .f32⟩ : BufTy).Contents (Elt F) → (⟨S128x128, .f32⟩ : BufTy).Contents (Elt F)),
    binary main_v10 main_v24 main_v25 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v23 main_v25 main_v26 (addf : (⟨S4096x128, .f32⟩ : BufTy).Contents (Elt F) → (⟨S4096x128, .f32⟩ : BufTy).Contents (Elt F) → (⟨S4096x128, .f32⟩ : BufTy).Contents (Elt F)),
    nullary main_call4_cst (constant S_ .f32 0x00000000#32),
    unary main_call4_cst main_call4_v0 (broadcastInDim S4096x128 ![] bcast_S_S4096x128 : (⟨S_, .f32⟩ : BufTy).Contents (Elt F) → (⟨S4096x128, .f32⟩ : BufTy).Contents (Elt F)),
    binary main_v26 main_call4_v0 main_v27 (maximumf : (⟨S4096x128, .f32⟩ : BufTy).Contents (Elt F) → (⟨S4096x128, .f32⟩ : BufTy).Contents (Elt F) → (⟨S4096x128, .f32⟩ : BufTy).Contents (Elt F)),
    unary main_arg6 main_v28 ((transpose S128x128 [1, 0] · transposes_S128x128_S128x128_1_0) : (⟨S128x128, .f32⟩ : BufTy).Contents (Elt F) → (⟨S128x128, .f32⟩ : BufTy).Contents (Elt F)),
    binary main_arg1 main_v28 main_v29 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg7 main_v30 ((transpose S128x128 [1, 0] · transposes_S128x128_S128x128_1_0) : (⟨S128x128, .f32⟩ : BufTy).Contents (Elt F) → (⟨S128x128, .f32⟩ : BufTy).Contents (Elt F)),
    binary main_v21 main_v30 main_v31 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v29 main_v31 main_v32 (addf : (⟨S4096x128, .f32⟩ : BufTy).Contents (Elt F) → (⟨S4096x128, .f32⟩ : BufTy).Contents (Elt F) → (⟨S4096x128, .f32⟩ : BufTy).Contents (Elt F)),
    nullary main_call5_cst (constant S_ .f32 0x00000000#32),
    unary main_call5_cst main_call5_v0 (broadcastInDim S4096x128 ![] bcast_S_S4096x128 : (⟨S_, .f32⟩ : BufTy).Contents (Elt F) → (⟨S4096x128, .f32⟩ : BufTy).Contents (Elt F)),
    binary main_v32 main_call5_v0 main_v33 (maximumf : (⟨S4096x128, .f32⟩ : BufTy).Contents (Elt F) → (⟨S4096x128, .f32⟩ : BufTy).Contents (Elt F) → (⟨S4096x128, .f32⟩ : BufTy).Contents (Elt F)),
    nullary main_c_8 (constantI S_ 32 0#32),
    unary main_c_8 main_v34 (broadcastInDim S4096x4096 ![] bcast_S_S4096x4096 : (⟨S_, .i32⟩ : BufTy).Contents (Elt F) → (⟨S4096x4096, .i32⟩ : BufTy).Contents (Elt F)),
    binary main_arg3 main_v34 main_v35 (cmpi .sgt : (⟨S4096x4096, .i32⟩ : BufTy).Contents (Elt F) → (⟨S4096x4096, .i32⟩ : BufTy).Contents (Elt F) → (⟨S4096x4096, .i1⟩ : BufTy).Contents (Elt F)),
    unary main_v33 main_v36 ((extractStridedSlice S4096x1 ![0, 0] · slices_S4096x128_S4096x1_0_0) : (⟨S4096x128, .f32⟩ : BufTy).Contents (Elt F) → (⟨S4096x1, .f32⟩ : BufTy).Contents (Elt F)),
    reshape main_v36 main_v37 rfl shapeCasts_S4096x1_S4096,
    unary main_v37 main_v38 (broadcastInDim S1x4096 ![1] bcast_S4096_S1x4096_1 : (⟨S4096, .f32⟩ : BufTy).Contents (Elt F) → (⟨S1x4096, .f32⟩ : BufTy).Contents (Elt F)),
    nullary main_cst_9 (constant S_ .f32 0xFF800000#32),
    unary main_v38 main_call6_v0 (broadcastInDim S4096x4096 ![0, 1] bcast_S1x4096_S4096x4096_0_1 : (⟨S1x4096, .f32⟩ : BufTy).Contents (Elt F) → (⟨S4096x4096, .f32⟩ : BufTy).Contents (Elt F)),
    unary main_cst_9 main_call6_v1 (broadcastInDim S4096x4096 ![] bcast_S_S4096x4096 : (⟨S_, .f32⟩ : BufTy).Contents (Elt F) → (⟨S4096x4096, .f32⟩ : BufTy).Contents (Elt F)),
    ternary main_v35 main_call6_v0 main_call6_v1 main_v39 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_10 (constant S_ .f32 0xFF800000#32),
    binary main_v39 main_cst_10 main_v40 ((fun x v => Host.reduce FloatOps.maximumf x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_11 (constantI S_ 1 0#1),
    binary main_v35 main_c_11 main_v41 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_cst_12 (constant S_ .f32 0x00000000#32),
    unary main_cst_12 main_call7_v0 (broadcastInDim S4096 ![] bcast_S_S4096 : (⟨S_, .f32⟩ : BufTy).Contents (Elt F) → (⟨S4096, .f32⟩ : BufTy).Contents (Elt F)),
    ternary main_v41 main_v40 main_call7_v0 main_v42 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v42 main_v43 (broadcastInDim S4096x1 ![0] bcast_S4096_S4096x1_0 : (⟨S4096, .f32⟩ : BufTy).Contents (Elt F) → (⟨S4096x1, .f32⟩ : BufTy).Contents (Elt F)),
    unary main_v43 main_v44 (broadcastInDim S4096x128 ![0, 1] bcast_S4096x1_S4096x128_0_1 : (⟨S4096x1, .f32⟩ : BufTy).Contents (Elt F) → (⟨S4096x128, .f32⟩ : BufTy).Contents (Elt F)),
    nullary main_c_13 (constantI S_ 32 0#32),
    unary main_c_13 main_v45 (broadcastInDim S4096x4096 ![] bcast_S_S4096x4096 : (⟨S_, .i32⟩ : BufTy).Contents (Elt F) → (⟨S4096x4096, .i32⟩ : BufTy).Contents (Elt F)),
    binary main_arg2 main_v45 main_v46 (cmpi .sgt : (⟨S4096x4096, .i32⟩ : BufTy).Contents (Elt F) → (⟨S4096x4096, .i32⟩ : BufTy).Contents (Elt F) → (⟨S4096x4096, .i1⟩ : BufTy).Contents (Elt F)),
    unary main_v27 main_v47 ((extractStridedSlice S4096x1 ![0, 0] · slices_S4096x128_S4096x1_0_0) : (⟨S4096x128, .f32⟩ : BufTy).Contents (Elt F) → (⟨S4096x1, .f32⟩ : BufTy).Contents (Elt F)),
    reshape main_v47 main_v48 rfl shapeCasts_S4096x1_S4096,
    unary main_v48 main_v49 (broadcastInDim S1x4096 ![1] bcast_S4096_S1x4096_1 : (⟨S4096, .f32⟩ : BufTy).Contents (Elt F) → (⟨S1x4096, .f32⟩ : BufTy).Contents (Elt F)),
    nullary main_cst_14 (constant S_ .f32 0x00000000#32),
    unary main_v49 main_call8_v0 (broadcastInDim S4096x4096 ![0, 1] bcast_S1x4096_S4096x4096_0_1 : (⟨S1x4096, .f32⟩ : BufTy).Contents (Elt F) → (⟨S4096x4096, .f32⟩ : BufTy).Contents (Elt F)),
    unary main_cst_14 main_call8_v1 (broadcastInDim S4096x4096 ![] bcast_S_S4096x4096 : (⟨S_, .f32⟩ : BufTy).Contents (Elt F) → (⟨S4096x4096, .f32⟩ : BufTy).Contents (Elt F)),
    ternary main_v46 main_call8_v0 main_call8_v1 main_v50 (select : (⟨S4096x4096, .i1⟩ : BufTy).Contents (Elt F) → (⟨S4096x4096, .f32⟩ : BufTy).Contents (Elt F) → (⟨S4096x4096, .f32⟩ : BufTy).Contents (Elt F) → (⟨S4096x4096, .f32⟩ : BufTy).Contents (Elt F)),
    nullary main_cst_15 (constant S_ .f32 0x00000000#32),
    binary main_v50 main_cst_15 main_v51 ((fun x v => Host.reduceAdd x v reducesTo_S4096x4096_S4096_d1 h_S_) : (⟨S4096x4096, .f32⟩ : BufTy).Contents (Elt F) → (⟨S_, .f32⟩ : BufTy).Contents (Elt F) → (⟨S4096, .f32⟩ : BufTy).Contents (Elt F)),
    nullary main_c_16 (constantI S_ 1 0#1),
    binary main_v46 main_c_16 main_v52 ((fun x v => Host.reduce IntOp.ori x v reducesTo_S4096x4096_S4096_d1 h_S_) : (⟨S4096x4096, .i1⟩ : BufTy).Contents (Elt F) → (⟨S_, .i1⟩ : BufTy).Contents (Elt F) → (⟨S4096, .i1⟩ : BufTy).Contents (Elt F)),
    nullary main_cst_17 (constant S_ .f32 0x00000000#32),
    unary main_cst_17 main_call9_v0 (broadcastInDim S4096 ![] bcast_S_S4096 : (⟨S_, .f32⟩ : BufTy).Contents (Elt F) → (⟨S4096, .f32⟩ : BufTy).Contents (Elt F)),
    ternary main_v52 main_v51 main_call9_v0 main_v53 (select : (⟨S4096, .i1⟩ : BufTy).Contents (Elt F) → (⟨S4096, .f32⟩ : BufTy).Contents (Elt F) → (⟨S4096, .f32⟩ : BufTy).Contents (Elt F) → (⟨S4096, .f32⟩ : BufTy).Contents (Elt F)),
    unary main_v53 main_v54 (broadcastInDim S4096x1 ![0] bcast_S4096_S4096x1_0 : (⟨S4096, .f32⟩ : BufTy).Contents (Elt F) → (⟨S4096x1, .f32⟩ : BufTy).Contents (Elt F)),
    unary main_v54 main_v55 (broadcastInDim S4096x128 ![0, 1] bcast_S4096x1_S4096x128_0_1 : (⟨S4096x1, .f32⟩ : BufTy).Contents (Elt F) → (⟨S4096x128, .f32⟩ : BufTy).Contents (Elt F)),
    unary main_arg8 main_v56 ((transpose S128x128 [1, 0] · transposes_S128x128_S128x128_1_0) : (⟨S128x128, .f32⟩ : BufTy).Contents (Elt F) → (⟨S128x128, .f32⟩ : BufTy).Contents (Elt F)),
    binary main_v27 main_v56 main_v57 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg9 main_v58 ((transpose S128x128 [1, 0] · transposes_S128x128_S128x128_1_0) : (⟨S128x128, .f32⟩ : BufTy).Contents (Elt F) → (⟨S128x128, .f32⟩ : BufTy).Contents (Elt F)),
    binary main_v44 main_v58 main_v59 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v57 main_v59 main_v60 (addf : (⟨S4096x128, .f32⟩ : BufTy).Contents (Elt F) → (⟨S4096x128, .f32⟩ : BufTy).Contents (Elt F) → (⟨S4096x128, .f32⟩ : BufTy).Contents (Elt F)),
    unary main_arg10 main_v61 ((transpose S128x128 [1, 0] · transposes_S128x128_S128x128_1_0) : (⟨S128x128, .f32⟩ : BufTy).Contents (Elt F) → (⟨S128x128, .f32⟩ : BufTy).Contents (Elt F)),
    binary main_v33 main_v61 main_v62 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    unary main_arg11 main_v63 ((transpose S128x128 [1, 0] · transposes_S128x128_S128x128_1_0) : (⟨S128x128, .f32⟩ : BufTy).Contents (Elt F) → (⟨S128x128, .f32⟩ : BufTy).Contents (Elt F)),
    binary main_v55 main_v63 main_v64 ((fun l r => Host.dotGeneral dot_S4096x128_S128x128_S4096x128_1_0_0_1_n_n none l r) : (⟨S4096x128, .f32⟩ : BufTy).Contents (Elt F) → (⟨S128x128, .f32⟩ : BufTy).Contents (Elt F) → (⟨S4096x128, .f32⟩ : BufTy).Contents (Elt F)),
    binary main_v62 main_v64 main_v65 (addf : (⟨S4096x128, .f32⟩ : BufTy).Contents (Elt F) → (⟨S4096x128, .f32⟩ : BufTy).Contents (Elt F) → (⟨S4096x128, .f32⟩ : BufTy).Contents (Elt F)) ]

set_option maxRecDepth 8192 in
set_option maxHeartbeats 4000000 in
/-- Operation for operation the two lists are one: a called function's operation moves its operands and its result
    between a buffer's own type and the tensor type the function states, and for these buffers the two are one type. -/
theorem ops_eq : (ValueP.ops : List (HloOp τ sig (Elt F))) = opsPlain := rfl

theorem main_eq (c : Dev nD) : main (F := F) c = seq opsPlain := (ValueP.main_eq c).trans (congrArg seq ops_eq)

theorem ops_sub : (opsPlain : List (HloOp τ sig (Elt F))).Forall fun op => op.bufs ⊆ tcRefs τ sig :=
  ops_eq (F := F) ▸ ValueP.ops_sub

set_option maxRecDepth 8192 in
set_option maxHeartbeats 40800000 in
/-- On every device, for any float values, from any memory with zero counters: every weakly fair execution of @main
    terminates with each result at the operations' composed term of the arguments, and the arguments unchanged. -/
theorem run (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v60) = res_main_v60 m c
      ∧ r.2.mem ((c.tc : Thread nD τ).loc main_v65) = res_main_v65 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11) :=
  (θ_run defs _ _).mono (fun _ h c => ⟨(h c main_v60).trans (by after_results_simp <;> rfl <;> (unfold res_main_v60; rfl)),
      (h c main_v65).trans (by after_results_simp <;> rfl <;> (unfold res_main_v65; rfl)),
      (h c main_arg0).trans (by after_results_simp <;> rfl),
      (h c main_arg1).trans (by after_results_simp <;> rfl),
      (h c main_arg2).trans (by after_results_simp <;> rfl),
      (h c main_arg3).trans (by after_results_simp <;> rfl),
      (h c main_arg4).trans (by after_results_simp <;> rfl),
      (h c main_arg5).trans (by after_results_simp <;> rfl),
      (h c main_arg6).trans (by after_results_simp <;> rfl),
      (h c main_arg7).trans (by after_results_simp <;> rfl),
      (h c main_arg8).trans (by after_results_simp <;> rfl),
      (h c main_arg9).trans (by after_results_simp <;> rfl),
      (h c main_arg10).trans (by after_results_simp <;> rfl),
      (h c main_arg11).trans (by after_results_simp <;> rfl)⟩)
    (run_seq scopedRefs_eq scopedSems_eq defs main (fun _ => opsPlain) main_eq (fun _ => ops_sub) m ρ)

end Cert.ReferenceIdeal.RunH

end
-- ==== Proof.LibBitReduce.lean ====
/-
  Folds of one-bit words, for any shapes.

  A bitwise-or reduction of one-bit words over ONE axis started from 0, read at a reduced index, is 1 exactly when
  some word along that axis is 1. A sum, started from 0, of one-bit words widened to 32 bits is the number of ones
  among them, as a 32-bit word. Both are folds of a commutative associative operation over a finite range, and both
  follow by inserting one index at a time.
-/
import Idealize.ShloMosaic.PureOps.Reduce
import Idealize.ShloMosaic.Lib.ValueIdx

noncomputable section

open scoped BigOperators

namespace Cert.Lib.BitReduce

open Idealize.ShloMosaic

/-- A one-bit word is 0 or 1. -/
theorem bit_cases (b : BitVec 1) : b = 0#1 ∨ b = 1#1 := by
  by_cases h : b = 1#1
  · exact Or.inr h
  · exact Or.inl (ValueIdx.eq_zero_of_ne_one h)

/-- The or of two one-bit words is 1 exactly when one of them is. -/
theorem ori_eq_one_iff (x y : BitVec 1) : IntOp.ori x y = 1#1 ↔ x = 1#1 ∨ y = 1#1 := by
  rcases bit_cases x with hx | hx <;> rcases bit_cases y with hy | hy <;> subst hx <;> subst hy <;> decide

/-- The and of two one-bit words is 1 exactly when both are. -/
theorem andi_eq_one_iff (x y : BitVec 1) : IntOp.andi x y = 1#1 ↔ x = 1#1 ∧ y = 1#1 := by
  rcases bit_cases x with hx | hx <;> rcases bit_cases y with hy | hy <;> subst hx <;> subst hy <;> decide

/-- The complement of a one-bit word is 1 exactly when the word is not. -/
theorem noti_eq_one_iff (b : BitVec 1) : ~~~b = 1#1 ↔ ¬ b = 1#1 := by
  rcases bit_cases b with h | h <;> subst h <;> decide

/-- The equality comparison of two words is 1 exactly when they are equal. -/
theorem cmpi_eq_one_iff {w : Nat} (x y : BitVec w) : IntOp.cmpi .eq x y = 1#1 ↔ x = y := by
  unfold IntOp.cmpi
  by_cases h : x = y
  · subst h; simp
  · have hb : (x == y) = false := beq_eq_false_iff_ne.2 h
    show BitVec.ofBool (x == y) = 1#1 ↔ x = y
    rw [hb]
    exact ⟨fun e => absurd e (by decide), fun e => absurd e h⟩

/-- Two numbers below 2^32 with the same 32-bit word are equal. -/
theorem ofNat32_inj {a b : Nat} (ha : a < 2 ^ 32) (hb : b < 2 ^ 32) (h : BitVec.ofNat 32 a = BitVec.ofNat 32 b) : a = b := by
  have e := congrArg BitVec.toNat h
  rwa [BitVec.toNat_ofNat, BitVec.toNat_ofNat, Nat.mod_eq_of_lt ha, Nat.mod_eq_of_lt hb] at e

/-- A fold of or from 0 over a finite set of one-bit words is 1 exactly when some word of the set is 1. -/
theorem fold_ori_eq_one_iff {ι : Type} [DecidableEq ι] (s : Finset ι) (f : ι → BitVec 1) :
    s.fold IntOp.ori 0#1 f = 1#1 ↔ ∃ k ∈ s, f k = 1#1 := by
  induction s using Finset.induction_on with
  | empty => simp
  | insert a s ha ih =>
    rw [Finset.fold_insert ha, ori_eq_one_iff, ih]
    constructor
    · rintro (h | ⟨k, hk, hf⟩)
      · exact ⟨a, Finset.mem_insert_self a s, h⟩
      · exact ⟨k, Finset.mem_insert_of_mem hk, hf⟩
    · rintro ⟨k, hk, hf⟩
      rcases Finset.mem_insert.1 hk with rfl | hk
      · exact Or.inl hf
      · exact Or.inr ⟨k, hk, hf⟩

/-- The host's one-operand reduce with an or body over one axis of one-bit words, its initial value the constant 0,
    at reduced index j, is 1 exactly when the operand is 1 at j with some coordinate k put back. -/
theorem hostOrReduce_single {s t u : Shape} {a : Fin s.rank} (x : IVec s 1) (h' : s.ReducesTo [a] t)
    (h : s.Reduces [a] t) (hu : 0 < u.numel) (j : t.Idx) :
    Host.reduce IntOp.ori x (constantI u 1 0#1) h' hu j = 1#1 ↔ ∃ k : Fin (s.size a), x (h.lift j k) = 1#1 := by
  rw [Host.reduce_eq_fold_single IntOp.ori x _ h' h hu]
  show (Finset.univ : Finset (Fin (s.size a))).fold IntOp.ori 0#1 (fun k => x (h.lift j k)) = 1#1 ↔ _
  rw [fold_ori_eq_one_iff]
  simp only [Finset.mem_univ, true_and]

/-- A one-bit word widened to 32 bits is 1 or 0 with it. -/
theorem setWidth_one : (1#1 : BitVec 1).setWidth 32 = 1#32 := by decide
theorem setWidth_zero : (0#1 : BitVec 1).setWidth 32 = 0#32 := by decide

/-- A sum from 0 of widened one-bit words over a finite set is the number of ones in the set, as a word. -/
theorem fold_addi_setWidth_eq_card {ι : Type} [DecidableEq ι] (s : Finset ι) (b : ι → BitVec 1) :
    s.fold IntOp.addi 0#32 (fun k => (b k).setWidth 32) = BitVec.ofNat 32 (s.filter fun k => b k = 1#1).card := by
  induction s using Finset.induction_on with
  | empty => simp
  | insert a s ha ih =>
    rw [Finset.fold_insert ha, ih, Finset.filter_insert]
    rcases bit_cases (b a) with h0 | h1
    · rw [if_neg (by rw [h0]; decide), h0, setWidth_zero]
      show 0#32 + _ = _
      rw [BitVec.zero_add]
    · rw [if_pos h1, h1, setWidth_one,
        Finset.card_insert_of_notMem (fun hm => ha (Finset.mem_filter.1 hm).1)]
      show 1#32 + _ = _
      rw [Nat.add_comm, BitVec.ofNat_add]

/-- The host's one-operand reduce with an addition body over one axis of widened one-bit words, its initial value the
    constant 0, at reduced index j, is the number of coordinates k at which the bit at j with k put back is 1. -/
theorem hostCountReduce_single {s t u : Shape} {a : Fin s.rank} (b : IVec s 1) (h' : s.ReducesTo [a] t)
    (h : s.Reduces [a] t) (hu : 0 < u.numel) (j : t.Idx) :
    Host.reduce IntOp.addi (fun i => (b i).setWidth 32) (constantI u 32 0#32) h' hu j
      = BitVec.ofNat 32 (Finset.univ.filter fun k : Fin (s.size a) => b (h.lift j k) = 1#1).card := by
  rw [Host.reduce_eq_fold_single IntOp.addi _ _ h' h hu]
  exact fold_addi_setWidth_eq_card Finset.univ (fun k => b (h.lift j k))

end Cert.Lib.BitReduce

end
-- ==== Proof.RefLayer0.lean ====
/-
  The first layer of the reference program, read as the formulas of the specification.

  The reference applies one layer of the bipartite network twice. This file follows the operations of the first
  application, one named quantity at a time, and ends with its two results:

  * side 1: the mask bit of a word of the table a21 is "the word is greater than 0"; the masked table of feature 0 of
    side 2 (unselected places filled with -inf); its maximum along a row, which is mx0K; the or of the mask bits along
    a row, which is 1 exactly when the node has a neighbour; the guarded summary s1R; the summary broadcast over the
    features and multiplied with the transposed neighbour weights, which is the sum over d of s1R * w(h, d); the
    product of x1 with the transposed self weights, which is lin; their sum, and the maximum with 0: h1R.
  * side 2: the same with the table a12, feature 0 of side 1, unselected places filled with 0 and the sum along a row
    (s2K) in place of the maximum; the guarded summary s2R; the result h2R.

  Every step reads one operation at an index through the generated reading lemmas; a step that meets a composed index
  function proves, coordinate by coordinate, which index of the operand it is.
-/
import proofs.«173209_g89215060672586_cont_9to1c4b_471_9_alg».proof.Proof.Spec
import proofs.«173209_g89215060672586_cont_9to1c4b_471_9_alg».proof.Proof.RefReadP
import proofs.«173209_g89215060672586_cont_9to1c4b_471_9_alg».proof.Proof.LibMaxReduce
import proofs.«173209_g89215060672586_cont_9to1c4b_471_9_alg».proof.Proof.LibBitReduce

noncomputable section

open scoped BigOperators

namespace Cert.Dual.Ref

open Idealize.ShloMosaic Idealize.ShloMosaic.ValueIdx Cert.ReferenceIdeal Cert.ReferenceIdeal.Gen
  Cert.ReferenceIdeal.ReadP Cert.Dual

variable (I : In)

/-! ## Reductions along a row of a 4096 by 4096 table -/

/-- Dropping axis 1 of a 4096 by 4096 table leaves the 4096 rows. -/
theorem reduces_rows : S4096x4096.Reduces [1] S4096 := by decide

/-- Row r with the column k put back is the place (r, k). -/
theorem lift_row (r k : Fin 4096) : reduces_rows.lift (ix1 r) k = ix2 r k :=
  funext fun a => Fin.ext (by match a with | ⟨0, _⟩ => rfl | ⟨1, _⟩ => rfl)

/-! ## Side 1: the maximum over the neighbours of feature 0 of side 2 -/

/-- The mask bit of the table a21 at a place is "the word there is greater than 0". -/
theorem mask21_apply (i : S4096x4096.Idx) : val_main_v1 (F := Ideal) I.a21 i = gt (I.a21 i) := by
  simp only [val_main_v1_apply, val_main_v0_apply, val_main_c_apply, gt]

/-- Feature 0 of side 2 spread along the rows: place (r, c) reads node c's feature 0. -/
theorem col0_of_x2_idx (r c : Fin 4096) :
    idx_main_v2 (idx_main_v3 (idx_main_v4 (idx_main_call0_v0 (ix2 r c)))) = ix2 c (0 : Fin 128) :=
  funext fun a => Fin.ext (by
    match a with
    | ⟨0, _⟩ => exact Nat.div_one _
    | ⟨1, _⟩ => rfl)

/-- The masked table: feature 0 of node c of side 2 where the bit is set, -inf elsewhere. -/
theorem masked21_apply (r c : Fin 4096) :
    val_main_v5 (F := Ideal) I.x2 I.a21 (ix2 r c)
      = Scalar.select (gt (I.a21 (ix2 r c))) (I.x2 (ix2 c 0)) ⊥ := by
  rw [val_main_v5_apply, mask21_apply, val_main_call0_v0_apply, val_main_v4_apply, val_main_v3_apply,
    val_main_v2_apply, val_main_call0_v1_apply, val_main_cst_apply, col0_of_x2_idx]
  exact congrArg (Scalar.select _ _) Cert.Lib.MaxReduce.ofBits_neg_inf_f32

/-- The maximum along row r of the masked table is mx0K. -/
theorem rowmax21_apply (r : Fin 4096) : val_main_v6 (F := Ideal) I.x2 I.a21 (ix1 r) = mx0K I r := by
  unfold val_main_v6 val_main_cst_0
  rw [Cert.Lib.MaxReduce.hostMaxReduce_single _ _ reduces_rows]
  unfold mx0K
  exact iSup_congr fun (k : Fin 4096) => by rw [lift_row, masked21_apply]

/-- The or of the mask bits along row r is 1 exactly when node r of side 1 has a neighbour. -/
theorem rowany21_iff (r : Fin 4096) : val_main_v7 (F := Ideal) I.a21 (ix1 r) = 1#1 ↔ has1 I r := by
  unfold val_main_v7 val_main_c_1
  rw [Cert.Lib.BitReduce.hostOrReduce_single _ _ reduces_rows]
  unfold has1
  exact exists_congr fun (k : Fin 4096) => by rw [lift_row, mask21_apply]

/-- The guarded summary of side 1. -/
theorem summary1_apply (r : Fin 4096) : val_main_v8 (F := Ideal) I.x2 I.a21 (ix1 r) = s1R I r := by
  rw [val_main_v8_apply, rowmax21_apply, val_main_call1_v0_apply, val_main_cst_2_apply]
  unfold s1R
  by_cases h : has1 I r
  · rw [if_pos h, (rowany21_iff I r).2 h, select_one]
  · rw [if_neg h, eq_zero_of_ne_one (fun e => h ((rowany21_iff I r).1 e)), select_zero]
    exact Ideal.ofBits_zero_f32

/-- The summary broadcast over the features: place (r, d) reads row r. -/
theorem row_of_summary1_idx (r : Fin 4096) (d : Fin 128) : idx_main_v9 (idx_main_v10 (ix2 r d)) = ix1 r :=
  funext fun a => Fin.ext (by match a with | ⟨0, _⟩ => rfl)

theorem bsummary1_apply (r : Fin 4096) (d : Fin 128) :
    val_main_v10 (F := Ideal) I.x2 I.a21 (ix2 r d) = s1R I r := by
  rw [val_main_v10_apply, val_main_v9_apply, row_of_summary1_idx, summary1_apply]

/-- The broadcast summary against the transposed neighbour weights: the sum over d of s1R * w(h, d). -/
theorem neigh1_apply (r : Fin 4096) (h : Fin 128) :
    val_main_v25 (F := Ideal) I.x2 I.a21 I.w1n0 (ix2 r h) = ∑ d : Fin 128, s1R I r * I.w1n0 (ix2 h d) := by
  rw [val_main_v25_apply]
  refine Finset.sum_congr rfl fun d _ => ?_
  have el : lidx_main_v25 (ix2 r h) d = ix2 r d :=
    funext fun a => Fin.ext (by match a with | ⟨0, _⟩ => rfl | ⟨1, _⟩ => rfl)
  have er : idx_main_v24 (ridx_main_v25 (ix2 r h) d) = ix2 h d :=
    funext fun a => Fin.ext (by match a with | ⟨0, _⟩ => rfl | ⟨1, _⟩ => rfl)
  rw [val_main_v24_apply, el, er, bsummary1_apply]

/-- x1 against the transposed self weights is lin. -/
theorem self1_apply (r : Fin 4096) (h : Fin 128) :
    val_main_v23 (F := Ideal) I.x1 I.w1s0 (ix2 r h) = lin I.x1 I.w1s0 r h := by
  rw [val_main_v23_apply]
  unfold lin
  refine Finset.sum_congr rfl fun d _ => ?_
  have el : lidx_main_v23 (ix2 r h) d = ix2 r d :=
    funext fun a => Fin.ext (by match a with | ⟨0, _⟩ => rfl | ⟨1, _⟩ => rfl)
  have er : idx_main_v22 (ridx_main_v23 (ix2 r h) d) = ix2 h d :=
    funext fun a => Fin.ext (by match a with | ⟨0, _⟩ => rfl | ⟨1, _⟩ => rfl)
  rw [val_main_v22_apply, el, er]

/-- The first layer's result on side 1 is h1R. -/
theorem layer0_side1 :
    val_main_v27 (F := Ideal) I.x1 I.x2 I.a21 I.w1s0 I.w1n0 = fun i => h1R I (i 0) (i 1) := by
  funext i
  obtain ⟨r, h, rfl⟩ : ∃ (r : Fin 4096) (h : Fin 128), i = ix2 r h := ⟨i 0, i 1, eq_ix2 i⟩
  show _ = h1R I r h
  rw [val_main_v27_apply, val_main_v26_apply, self1_apply, neigh1_apply, val_main_call4_v0_apply,
    val_main_call4_cst_apply]
  unfold h1R
  exact congrArg (max _) Ideal.ofBits_zero_f32

/-! ## Side 2: the sum over the neighbours of feature 0 of side 1 -/

/-- The mask bit of the table a12 at a place is "the word there is greater than 0". -/
theorem mask12_apply (i : S4096x4096.Idx) : val_main_v12 (F := Ideal) I.a12 i = gt (I.a12 i) := by
  simp only [val_main_v12_apply, val_main_v11_apply, val_main_c_3_apply, gt]

/-- Feature 0 of side 1 spread along the rows: place (r, c) reads node c's feature 0. -/
theorem col0_of_x1_idx (r c : Fin 4096) :
    idx_main_v13 (idx_main_v14 (idx_main_v15 (idx_main_call2_v0 (ix2 r c)))) = ix2 c (0 : Fin 128) :=
  funext fun a => Fin.ext (by
    match a with
    | ⟨0, _⟩ => exact Nat.div_one _
    | ⟨1, _⟩ => rfl)

/-- The masked table: feature 0 of node c of side 1 where the bit is set, 0 elsewhere. -/
theorem masked12_apply (r c : Fin 4096) :
    val_main_v16 (F := Ideal) I.x1 I.a12 (ix2 r c)
      = Scalar.select (gt (I.a12 (ix2 r c))) (I.x1 (ix2 c 0)) 0 := by
  rw [val_main_v16_apply, mask12_apply, val_main_call2_v0_apply, val_main_v15_apply, val_main_v14_apply,
    val_main_v13_apply, val_main_call2_v1_apply, val_main_cst_4_apply, col0_of_x1_idx]
  exact congrArg (Scalar.select _ _) Ideal.ofBits_zero_f32

/-- The sum along row r of the masked table is s2K. -/
theorem rowsum12_apply (r : Fin 4096) : val_main_v17 (F := Ideal) I.x1 I.a12 (ix1 r) = s2K I r := by
  rw [val_main_v17_apply, val_main_cst_5_apply]
  unfold s2K
  refine (congrArg (· + _) Ideal.ofBits_zero_f32).trans ((zero_add _).trans ?_)
  refine Finset.sum_congr rfl fun k _ => ?_
  have e : idx_main_v17 (ix1 r) k = ix2 r k :=
    funext fun a => Fin.ext (by match a with | ⟨0, _⟩ => rfl | ⟨1, _⟩ => rfl)
  rw [e, masked12_apply]

/-- The or of the mask bits along row r is 1 exactly when node r of side 2 has a neighbour. -/
theorem rowany12_iff (r : Fin 4096) : val_main_v18 (F := Ideal) I.a12 (ix1 r) = 1#1 ↔ has2 I r := by
  unfold val_main_v18 val_main_c_6
  rw [Cert.Lib.BitReduce.hostOrReduce_single _ _ reduces_rows]
  unfold has2
  exact exists_congr fun (k : Fin 4096) => by rw [lift_row, mask12_apply]

/-- The guarded summary of side 2. -/
theorem summary2_apply (r : Fin 4096) : val_main_v19 (F := Ideal) I.x1 I.a12 (ix1 r) = s2R I r := by
  rw [val_main_v19_apply, rowsum12_apply, val_main_call3_v0_apply, val_main_cst_7_apply]
  unfold s2R
  by_cases h : has2 I r
  · rw [if_pos h, (rowany12_iff I r).2 h, select_one]
  · rw [if_neg h, eq_zero_of_ne_one (fun e => h ((rowany12_iff I r).1 e)), select_zero]
    exact Ideal.ofBits_zero_f32

/-- The summary broadcast over the features: place (r, d) reads row r. -/
theorem row_of_summary2_idx (r : Fin 4096) (d : Fin 128) : idx_main_v20 (idx_main_v21 (ix2 r d)) = ix1 r :=
  funext fun a => Fin.ext (by match a with | ⟨0, _⟩ => rfl)

theorem bsummary2_apply (r : Fin 4096) (d : Fin 128) :
    val_main_v21 (F := Ideal) I.x1 I.a12 (ix2 r d) = s2R I r := by
  rw [val_main_v21_apply, val_main_v20_apply, row_of_summary2_idx, summary2_apply]

/-- The broadcast summary against the transposed neighbour weights: the sum over d of s2R * w(h, d). -/
theorem neigh2_apply (r : Fin 4096) (h : Fin 128) :
    val_main_v31 (F := Ideal) I.x1 I.a12 I.w2n0 (ix2 r h) = ∑ d : Fin 128, s2R I r * I.w2n0 (ix2 h d) := by
  rw [val_main_v31_apply]
  refine Finset.sum_congr rfl fun d _ => ?_
  have el : lidx_main_v31 (ix2 r h) d = ix2 r d :=
    funext fun a => Fin.ext (by match a with | ⟨0, _⟩ => rfl | ⟨1, _⟩ => rfl)
  have er : idx_main_v30 (ridx_main_v31 (ix2 r h) d) = ix2 h d :=
    funext fun a => Fin.ext (by match a with | ⟨0, _⟩ => rfl | ⟨1, _⟩ => rfl)
  rw [val_main_v30_apply, el, er, bsummary2_apply]

/-- x2 against the transposed self weights is lin. -/
theorem self2_apply (r : Fin 4096) (h : Fin 128) :
    val_main_v29 (F := Ideal) I.x2 I.w2s0 (ix2 r h) = lin I.x2 I.w2s0 r h := by
  rw [val_main_v29_apply]
  unfold lin
  refine Finset.sum_congr rfl fun d _ => ?_
  have el : lidx_main_v29 (ix2 r h) d = ix2 r d :=
    funext fun a => Fin.ext (by match a with | ⟨0, _⟩ => rfl | ⟨1, _⟩ => rfl)
  have er : idx_main_v28 (ridx_main_v29 (ix2 r h) d) = ix2 h d :=
    funext fun a => Fin.ext (by match a with | ⟨0, _⟩ => rfl | ⟨1, _⟩ => rfl)
  rw [val_main_v28_apply, el, er]

/-- The first layer's result on side 2 is h2R. -/
theorem layer0_side2 :
    val_main_v33 (F := Ideal) I.x1 I.x2 I.a12 I.w2s0 I.w2n0 = fun i => h2R I (i 0) (i 1) := by
  funext i
  obtain ⟨r, h, rfl⟩ : ∃ (r : Fin 4096) (h : Fin 128), i = ix2 r h := ⟨i 0, i 1, eq_ix2 i⟩
  show _ = h2R I r h
  rw [val_main_v33_apply, val_main_v32_apply, self2_apply, neigh2_apply, val_main_call5_v0_apply,
    val_main_call5_cst_apply]
  unfold h2R
  exact congrArg (max _) Ideal.ofBits_zero_f32

end Cert.Dual.Ref

end
-- ==== Proof.RefLayer1.lean ====
/-
  The second layer of the reference, given its first layer.

  The reference applies one layer twice. Given that the first layer's two outputs are the hidden arrays h1R (side 1)
  and h2R (side 2), the second layer is read one stage at a time: the mask bit of a table word; the column "hidden
  feature 0 of the other side where the bit is set, a filler elsewhere"; its maximum (side 1, filler -inf) or its sum
  (side 2, filler 0) over a row of the table; the guard "the node has a neighbour", which turns the maximum or sum into
  the summary s1R' or s2R'; the summary repeated over the 128 features; the product of the hidden row with the transposed
  self weights and of the repeated summary with the transposed neighbour weights; and their sum, which is o1R on side 1
  and o2R on side 2.
-/
import proofs.«173209_g89215060672586_cont_9to1c4b_471_9_alg».proof.Proof.Spec
import proofs.«173209_g89215060672586_cont_9to1c4b_471_9_alg».proof.Proof.RefReadP
import proofs.«173209_g89215060672586_cont_9to1c4b_471_9_alg».proof.Proof.LibMaxReduce
import proofs.«173209_g89215060672586_cont_9to1c4b_471_9_alg».proof.Proof.LibBitReduce

noncomputable section

open scoped BigOperators

namespace Cert.Dual.Ref

open Cert.ReferenceIdeal Cert.ReferenceIdeal.Gen Cert.ReferenceIdeal.ReadP Idealize.ShloMosaic Idealize.ShloMosaic.ValueIdx
open Cert.Dual

namespace Layer1

/-! ## Two words, and the reduction over the second axis -/

/-- The f32 word 0 denotes the number 0. -/
theorem zeroWord : (FloatOps.ofBits .f32 0x00000000#32 : Ideal .f32) = (0 : EReal) := Ideal.ofBits_zero_f32

/-- The f32 word 0xFF800000 denotes -inf. -/
theorem negInfWord : (FloatOps.ofBits .f32 0xFF800000#32 : Ideal .f32) = (⊥ : EReal) :=
  Cert.Lib.MaxReduce.ofBits_neg_inf_f32

/-- A 4096 by 4096 array with its second axis dropped has 4096 entries (the form that names the index with a
    coordinate put back). -/
theorem reduces_d1 : S4096x4096.Reduces [1] S4096 := by decide

/-- Row r with column k put back is the place (r, k). -/
theorem lift_d1 (r k : Fin 4096) :
    reduces_d1.lift (ix1 r) k = ix2 (n0 := 4096) (n1 := 4096) r k :=
  funext fun a => Fin.ext (by match a with | ⟨0, _⟩ => rfl | ⟨1, _⟩ => rfl)

variable (I : In)

/-! ## Side 1: the maximum over the neighbours of hidden feature 0 of side 2 -/

/-- The mask bit of a word of the table a21. -/
theorem mask21 (i : S4096x4096.Idx) : val_main_v35 (F := Ideal) I.a21 i = gt (I.a21 i) := by
  rw [val_main_v35_apply, val_main_v34_apply, val_main_c_8_apply]
  rfl

/-- Column 0 of the hidden array, made a row and repeated down the table, is read at (k, 0) from the place (r, k). -/
theorem col21_idx (r k : Fin 4096) :
    idx_main_v36 (idx_main_v37 (idx_main_v38 (idx_main_call6_v0 (ix2 (n0 := 4096) (n1 := 4096) r k))))
      = ix2 (n0 := 4096) (n1 := 128) k 0 :=
  funext fun a => Fin.ext (by match a with | ⟨0, _⟩ => exact Nat.div_one _ | ⟨1, _⟩ => rfl)

/-- The selected column: hidden feature 0 of node k of side 2 where the bit at (r, k) is set, -inf elsewhere. -/
theorem sel21 (e2 : val_main_v33 (F := Ideal) I.x1 I.x2 I.a12 I.w2s0 I.w2n0 = fun i => h2R I (i 0) (i 1)) (r k : Fin 4096) :
    val_main_v39 (F := Ideal) I.x1 I.x2 I.a12 I.a21 I.w2s0 I.w2n0 (ix2 r k) = Scalar.select (gt (I.a21 (ix2 r k))) (h2R I k 0) ⊥ := by
  rw [val_main_v39_apply, mask21, val_main_call6_v0_apply, val_main_v38_apply, val_main_v37_apply, val_main_v36_apply,
    e2, col21_idx, val_main_call6_v1_apply, val_main_cst_9_apply, negInfWord]

/-- Its maximum over row r. -/
theorem max21 (e2 : val_main_v33 (F := Ideal) I.x1 I.x2 I.a12 I.w2s0 I.w2n0 = fun i => h2R I (i 0) (i 1)) (r : Fin 4096) :
    val_main_v40 (F := Ideal) I.x1 I.x2 I.a12 I.a21 I.w2s0 I.w2n0 (ix1 r)
      = ⨆ k : Fin 4096, Scalar.select (gt (I.a21 (ix2 r k))) (h2R I k 0) ⊥ := by
  unfold val_main_v40 val_main_cst_10
  refine (Cert.Lib.MaxReduce.hostMaxReduce_single _ reducesTo_S4096x4096_S4096_d1 reduces_d1 h_S_ (ix1 r)).trans ?_
  exact iSup_congr fun (k : Fin 4096) => by rw [lift_d1, sel21 I e2]

/-- The or of row r's mask bits is set exactly when node r of side 1 has a neighbour. -/
theorem any21 (r : Fin 4096) : val_main_v41 (F := Ideal) I.a21 (ix1 r) = 1#1 ↔ has1 I r := by
  unfold val_main_v41 val_main_c_11
  refine (Cert.Lib.BitReduce.hostOrReduce_single _ reducesTo_S4096x4096_S4096_d1 reduces_d1 h_S_ (ix1 r)).trans ?_
  exact exists_congr fun (k : Fin 4096) => by rw [lift_d1, mask21]

/-- The guarded maximum is the summary s1R'. -/
theorem summary21 (e2 : val_main_v33 (F := Ideal) I.x1 I.x2 I.a12 I.w2s0 I.w2n0 = fun i => h2R I (i 0) (i 1)) (r : Fin 4096) :
    val_main_v42 (F := Ideal) I.x1 I.x2 I.a12 I.a21 I.w2s0 I.w2n0 (ix1 r) = s1R' I r := by
  rw [val_main_v42_apply, max21 I e2, val_main_call7_v0_apply, val_main_cst_12_apply, zeroWord]
  unfold s1R'
  by_cases hh : has1 I r
  · rw [(any21 I r).2 hh, select_one, if_pos hh]
  · rw [eq_zero_of_ne_one (fun h1 => hh ((any21 I r).1 h1)), select_zero, if_neg hh]

/-- The summary repeated over the features is read at r from the place (r, c). -/
theorem rep21_idx (r : Fin 4096) (c : Fin 128) :
    idx_main_v43 (idx_main_v44 (ix2 (n0 := 4096) (n1 := 128) r c)) = ix1 r :=
  funext fun a => Fin.ext (by match a with | ⟨0, _⟩ => rfl)

/-- The summary repeated over the features. -/
theorem rep21 (e2 : val_main_v33 (F := Ideal) I.x1 I.x2 I.a12 I.w2s0 I.w2n0 = fun i => h2R I (i 0) (i 1)) (r : Fin 4096) (c : Fin 128) :
    val_main_v44 (F := Ideal) I.x1 I.x2 I.a12 I.a21 I.w2s0 I.w2n0 (ix2 r c) = s1R' I r := by
  rw [val_main_v44_apply, val_main_v43_apply, rep21_idx, summary21 I e2]

/-- The left place of term k of entry (r, o) of the self product is (r, k). -/
theorem self1_lidx (r : Fin 4096) (o k : Fin 128) :
    lidx_main_v57 (ix2 (n0 := 4096) (n1 := 128) r o) k = ix2 (n0 := 4096) (n1 := 128) r k :=
  funext fun a => Fin.ext (by match a with | ⟨0, _⟩ => rfl | ⟨1, _⟩ => rfl)

/-- The right place, through the transposition, is (o, k). -/
theorem self1_ridx (r : Fin 4096) (o k : Fin 128) :
    idx_main_v56 (ridx_main_v57 (ix2 (n0 := 4096) (n1 := 128) r o) k) = ix2 (n0 := 128) (n1 := 128) o k :=
  funext fun a => Fin.ext (by match a with | ⟨0, _⟩ => rfl | ⟨1, _⟩ => rfl)

/-- The hidden row of side 1 against row o of the self weights. -/
theorem self1 (e1 : val_main_v27 (F := Ideal) I.x1 I.x2 I.a21 I.w1s0 I.w1n0 = fun i => h1R I (i 0) (i 1)) (r : Fin 4096) (o : Fin 128) :
    val_main_v57 (F := Ideal) I.x1 I.x2 I.a21 I.w1s0 I.w1n0 I.w1s1 (ix2 r o)
      = ∑ h : Fin 128, h1R I r h * I.w1s1 (ix2 o h) := by
  rw [val_main_v57_apply, e1]
  refine Finset.sum_congr rfl fun k _ => ?_
  rw [val_main_v56_apply, self1_lidx, self1_ridx]

theorem neigh1_lidx (r : Fin 4096) (o k : Fin 128) :
    lidx_main_v59 (ix2 (n0 := 4096) (n1 := 128) r o) k = ix2 (n0 := 4096) (n1 := 128) r k :=
  funext fun a => Fin.ext (by match a with | ⟨0, _⟩ => rfl | ⟨1, _⟩ => rfl)

theorem neigh1_ridx (r : Fin 4096) (o k : Fin 128) :
    idx_main_v58 (ridx_main_v59 (ix2 (n0 := 4096) (n1 := 128) r o) k) = ix2 (n0 := 128) (n1 := 128) o k :=
  funext fun a => Fin.ext (by match a with | ⟨0, _⟩ => rfl | ⟨1, _⟩ => rfl)

/-- The repeated summary of side 1 against row o of the neighbour weights. -/
theorem neigh1 (e2 : val_main_v33 (F := Ideal) I.x1 I.x2 I.a12 I.w2s0 I.w2n0 = fun i => h2R I (i 0) (i 1)) (r : Fin 4096) (o : Fin 128) :
    val_main_v59 (F := Ideal) I.x1 I.x2 I.a12 I.a21 I.w2s0 I.w2n0 I.w1n1 (ix2 r o)
      = ∑ h : Fin 128, s1R' I r * I.w1n1 (ix2 o h) := by
  rw [val_main_v59_apply]
  refine Finset.sum_congr rfl fun k _ => ?_
  rw [val_main_v58_apply, neigh1_lidx, neigh1_ridx, rep21 I e2]

end Layer1

open Layer1 in
/-- The second layer's output on side 1 is o1R. -/
theorem layer1_side1 (I : In) (e1 : val_main_v27 (F := Ideal) I.x1 I.x2 I.a21 I.w1s0 I.w1n0 = fun i => h1R I (i 0) (i 1)) (e2 : val_main_v33 (F := Ideal) I.x1 I.x2 I.a12 I.w2s0 I.w2n0 = fun i => h2R I (i 0) (i 1)) :
    val_main_v60 (F := Ideal) I.x1 I.x2 I.a12 I.a21 I.w1s0 I.w1n0 I.w2s0 I.w2n0 I.w1s1 I.w1n1
      = fun i => o1R I (i 0) (i 1) := by
  funext i
  obtain ⟨r, o, rfl⟩ : ∃ (r : Fin 4096) (o : Fin 128), i = ix2 r o := ⟨i 0, i 1, eq_ix2 i⟩
  rw [val_main_v60_apply, self1 I e1, neigh1 I e2]
  rfl

namespace Layer1

variable (I : In)

/-! ## Side 2: the sum over the neighbours of hidden feature 0 of side 1 -/

/-- The mask bit of a word of the table a12. -/
theorem mask12 (i : S4096x4096.Idx) : val_main_v46 (F := Ideal) I.a12 i = gt (I.a12 i) := by
  rw [val_main_v46_apply, val_main_v45_apply, val_main_c_13_apply]
  rfl

/-- Column 0 of the hidden array, made a row and repeated down the table, is read at (k, 0) from the place (r, k). -/
theorem col12_idx (r k : Fin 4096) :
    idx_main_v47 (idx_main_v48 (idx_main_v49 (idx_main_call8_v0 (ix2 (n0 := 4096) (n1 := 4096) r k))))
      = ix2 (n0 := 4096) (n1 := 128) k 0 :=
  funext fun a => Fin.ext (by match a with | ⟨0, _⟩ => exact Nat.div_one _ | ⟨1, _⟩ => rfl)

/-- The selected column: hidden feature 0 of node k of side 1 where the bit at (r, k) is set, 0 elsewhere. -/
theorem sel12 (e1 : val_main_v27 (F := Ideal) I.x1 I.x2 I.a21 I.w1s0 I.w1n0 = fun i => h1R I (i 0) (i 1)) (r k : Fin 4096) :
    val_main_v50 (F := Ideal) I.x1 I.x2 I.a12 I.a21 I.w1s0 I.w1n0 (ix2 r k) = Scalar.select (gt (I.a12 (ix2 r k))) (h1R I k 0) 0 := by
  rw [val_main_v50_apply, mask12, val_main_call8_v0_apply, val_main_v49_apply, val_main_v48_apply, val_main_v47_apply,
    e1, col12_idx, val_main_call8_v1_apply, val_main_cst_14_apply, zeroWord]

/-- Term k of the sum over row r is read at the place (r, k). -/
theorem sum12_idx (r k : Fin 4096) : idx_main_v51 (ix1 r) k = ix2 (n0 := 4096) (n1 := 4096) r k :=
  funext fun a => Fin.ext (by match a with | ⟨0, _⟩ => rfl | ⟨1, _⟩ => rfl)

/-- Its sum over row r. -/
theorem sum12 (e1 : val_main_v27 (F := Ideal) I.x1 I.x2 I.a21 I.w1s0 I.w1n0 = fun i => h1R I (i 0) (i 1)) (r : Fin 4096) :
    val_main_v51 (F := Ideal) I.x1 I.x2 I.a12 I.a21 I.w1s0 I.w1n0 (ix1 r)
      = ∑ k : Fin 4096, Scalar.select (gt (I.a12 (ix2 r k))) (h1R I k 0) 0 := by
  rw [val_main_v51_apply, val_main_cst_15_apply, zeroWord, zero_add]
  refine Finset.sum_congr rfl fun k _ => ?_
  rw [sum12_idx, sel12 I e1]

/-- The or of row r's mask bits is set exactly when node r of side 2 has a neighbour. -/
theorem any12 (r : Fin 4096) : val_main_v52 (F := Ideal) I.a12 (ix1 r) = 1#1 ↔ has2 I r := by
  unfold val_main_v52 val_main_c_16
  refine (Cert.Lib.BitReduce.hostOrReduce_single _ reducesTo_S4096x4096_S4096_d1 reduces_d1 h_S_ (ix1 r)).trans ?_
  exact exists_congr fun (k : Fin 4096) => by rw [lift_d1, mask12]

/-- The guarded sum is the summary s2R'. -/
theorem summary12 (e1 : val_main_v27 (F := Ideal) I.x1 I.x2 I.a21 I.w1s0 I.w1n0 = fun i => h1R I (i 0) (i 1)) (r : Fin 4096) :
    val_main_v53 (F := Ideal) I.x1 I.x2 I.a12 I.a21 I.w1s0 I.w1n0 (ix1 r) = s2R' I r := by
  rw [val_main_v53_apply, sum12 I e1, val_main_call9_v0_apply, val_main_cst_17_apply, zeroWord]
  unfold s2R'
  by_cases hh : has2 I r
  · rw [(any12 I r).2 hh, select_one, if_pos hh]
  · rw [eq_zero_of_ne_one (fun h1 => hh ((any12 I r).1 h1)), select_zero, if_neg hh]

/-- The summary repeated over the features is read at r from the place (r, c). -/
theorem rep12_idx (r : Fin 4096) (c : Fin 128) :
    idx_main_v54 (idx_main_v55 (ix2 (n0 := 4096) (n1 := 128) r c)) = ix1 r :=
  funext fun a => Fin.ext (by match a with | ⟨0, _⟩ => rfl)

/-- The summary repeated over the features. -/
theorem rep12 (e1 : val_main_v27 (F := Ideal) I.x1 I.x2 I.a21 I.w1s0 I.w1n0 = fun i => h1R I (i 0) (i 1)) (r : Fin 4096) (c : Fin 128) :
    val_main_v55 (F := Ideal) I.x1 I.x2 I.a12 I.a21 I.w1s0 I.w1n0 (ix2 r c) = s2R' I r := by
  rw [val_main_v55_apply, val_main_v54_apply, rep12_idx, summary12 I e1]

theorem self2_lidx (r : Fin 4096) (o k : Fin 128) :
    lidx_main_v62 (ix2 (n0 := 4096) (n1 := 128) r o) k = ix2 (n0 := 4096) (n1 := 128) r k :=
  funext fun a => Fin.ext (by match a with | ⟨0, _⟩ => rfl | ⟨1, _⟩ => rfl)

theorem self2_ridx (r : Fin 4096) (o k : Fin 128) :
    idx_main_v61 (ridx_main_v62 (ix2 (n0 := 4096) (n1 := 128) r o) k) = ix2 (n0 := 128) (n1 := 128) o k :=
  funext fun a => Fin.ext (by match a with | ⟨0, _⟩ => rfl | ⟨1, _⟩ => rfl)

/-- The hidden row of side 2 against row o of the self weights. -/
theorem self2 (e2 : val_main_v33 (F := Ideal) I.x1 I.x2 I.a12 I.w2s0 I.w2n0 = fun i => h2R I (i 0) (i 1)) (r : Fin 4096) (o : Fin 128) :
    val_main_v62 (F := Ideal) I.x1 I.x2 I.a12 I.w2s0 I.w2n0 I.w2s1 (ix2 r o)
      = ∑ h : Fin 128, h2R I r h * I.w2s1 (ix2 o h) := by
  rw [val_main_v62_apply, e2]
  refine Finset.sum_congr rfl fun k _ => ?_
  rw [val_main_v61_apply, self2_lidx, self2_ridx]

theorem neigh2_lidx (r : Fin 4096) (o k : Fin 128) :
    lidx_main_v64 (ix2 (n0 := 4096) (n1 := 128) r o) k = ix2 (n0 := 4096) (n1 := 128) r k :=
  funext fun a => Fin.ext (by match a with | ⟨0, _⟩ => rfl | ⟨1, _⟩ => rfl)

theorem neigh2_ridx (r : Fin 4096) (o k : Fin 128) :
    idx_main_v63 (ridx_main_v64 (ix2 (n0 := 4096) (n1 := 128) r o) k) = ix2 (n0 := 128) (n1 := 128) o k :=
  funext fun a => Fin.ext (by match a with | ⟨0, _⟩ => rfl | ⟨1, _⟩ => rfl)

/-- The repeated summary of side 2 against row o of the neighbour weights. -/
theorem neigh2 (e1 : val_main_v27 (F := Ideal) I.x1 I.x2 I.a21 I.w1s0 I.w1n0 = fun i => h1R I (i 0) (i 1)) (r : Fin 4096) (o : Fin 128) :
    val_main_v64 (F := Ideal) I.x1 I.x2 I.a12 I.a21 I.w1s0 I.w1n0 I.w2n1 (ix2 r o)
      = ∑ h : Fin 128, s2R' I r * I.w2n1 (ix2 o h) := by
  rw [val_main_v64_apply]
  refine Finset.sum_congr rfl fun k _ => ?_
  rw [val_main_v63_apply, neigh2_lidx, neigh2_ridx, rep12 I e1]

end Layer1

open Layer1 in
/-- The second layer's output on side 2 is o2R. -/
theorem layer1_side2 (I : In) (e1 : val_main_v27 (F := Ideal) I.x1 I.x2 I.a21 I.w1s0 I.w1n0 = fun i => h1R I (i 0) (i 1)) (e2 : val_main_v33 (F := Ideal) I.x1 I.x2 I.a12 I.w2s0 I.w2n0 = fun i => h2R I (i 0) (i 1)) :
    val_main_v65 (F := Ideal) I.x1 I.x2 I.a12 I.a21 I.w1s0 I.w1n0 I.w2s0 I.w2n0 I.w2s1 I.w2n1
      = fun i => o2R I (i 0) (i 1) := by
  funext i
  obtain ⟨r, o, rfl⟩ : ∃ (r : Fin 4096) (o : Fin 128), i = ix2 r o := ⟨i 0, i 1, eq_ix2 i⟩
  rw [val_main_v65_apply, self2 I e2, neigh2 I e1]
  rfl

end Cert.Dual.Ref

end
-- ==== Proof.Agree.lean ====
/-
  The two families of formulas of `Spec` agree at every coordinate: what the three-phase program computes (the family
  ending in K) equals what the reference computes (the family ending in R), under the hypotheses `Ok`.

  Three facts about the extended reals carry the proof.
  (1) The real numbers inside them are closed under 0, +, *, max and finite sums, a real number minus itself is 0, and a
      real number times a finite sum of real numbers is the sum of the products.
  (2) A supremum over the 4096 nodes is one of its members; hence a supremum of values each real or ⊥ is real or ⊥, and it
      is ⊥ exactly when every member is. Filling the unselected places with 0 instead of ⊥ does not change a supremum of
      values that are not negative once some place is selected.
  (3) A table word that is 0 or 1 has mask bit 0 or 1 and, made a number, is 0 or 1; so the word's number times x is
      "x if the bit is set, else 0".
-/
import proofs.«173209_g89215060672586_cont_9to1c4b_471_9_alg».proof.Proof.Spec

noncomputable section

open scoped BigOperators

namespace Cert.Dual

open Idealize.ShloMosaic Idealize.ShloMosaic.ValueIdx

/-! ## Real numbers inside the extended reals -/

/-- An extended real that is a real number. -/
def IsReal (x : EReal) : Prop := ∃ r : ℝ, x = (r : EReal)

theorem isReal_zero : IsReal 0 := ⟨0, EReal.coe_zero.symm⟩

theorem IsReal.add {x y : EReal} (hx : IsReal x) (hy : IsReal y) : IsReal (x + y) := by
  obtain ⟨a, rfl⟩ := hx
  obtain ⟨b, rfl⟩ := hy
  exact ⟨a + b, (EReal.coe_add a b).symm⟩

theorem IsReal.mul {x y : EReal} (hx : IsReal x) (hy : IsReal y) : IsReal (x * y) := by
  obtain ⟨a, rfl⟩ := hx
  obtain ⟨b, rfl⟩ := hy
  exact ⟨a * b, (EReal.coe_mul a b).symm⟩

theorem IsReal.max {x y : EReal} (hx : IsReal x) (hy : IsReal y) : IsReal (max x y) := by
  rcases max_choice x y with h | h <;> rw [h] <;> assumption

/-- A finite sum of real numbers is a real number. -/
theorem IsReal.sum {ι : Type} (t : Finset ι) (f : ι → EReal) :
    (∀ d ∈ t, IsReal (f d)) → IsReal (∑ d ∈ t, f d) := by
  classical
  refine Finset.induction_on t ?_ ?_
  · intro _
    rw [Finset.sum_empty]
    exact isReal_zero
  · intro a t ha ih h
    rw [Finset.sum_insert ha]
    exact IsReal.add (h a (Finset.mem_insert_self a t)) (ih fun d hd => h d (Finset.mem_insert_of_mem hd))

/-- A real number minus itself is 0 (false at ⊤ and ⊥). -/
theorem sub_self_real {x : EReal} (hx : IsReal x) : x - x = 0 := by
  obtain ⟨a, rfl⟩ := hx
  rw [← EReal.coe_sub, sub_self, EReal.coe_zero]

theorem real_mul_add {s x y : EReal} (hs : IsReal s) (hx : IsReal x) (hy : IsReal y) :
    s * (x + y) = s * x + s * y := by
  obtain ⟨a, rfl⟩ := hs
  obtain ⟨b, rfl⟩ := hx
  obtain ⟨c, rfl⟩ := hy
  rw [← EReal.coe_add, ← EReal.coe_mul, ← EReal.coe_mul, ← EReal.coe_mul, ← EReal.coe_add, mul_add]

/-- A real number times a finite sum of real numbers is the sum of the products. -/
theorem real_mul_sum {ι : Type} {s : EReal} (hs : IsReal s) (t : Finset ι) (f : ι → EReal) :
    (∀ d ∈ t, IsReal (f d)) → s * ∑ d ∈ t, f d = ∑ d ∈ t, s * f d := by
  classical
  refine Finset.induction_on t ?_ ?_
  · intro _
    rw [Finset.sum_empty, Finset.sum_empty, mul_zero]
  · intro a t ha ih h
    have ht : ∀ d ∈ t, IsReal (f d) := fun d hd => h d (Finset.mem_insert_of_mem hd)
    rw [Finset.sum_insert ha, Finset.sum_insert ha,
      real_mul_add hs (h a (Finset.mem_insert_self a t)) (IsReal.sum t f ht), ih ht]

/-! ## The choice on a one-bit condition -/

theorem select_of_eq_one {α : Type} {c : BitVec 1} (h : c = 1#1) (a b : α) : Scalar.select c a b = a := by
  rw [h]
  exact select_one a b

theorem select_of_ne_one {α : Type} {c : BitVec 1} (h : ¬c = 1#1) (a b : α) : Scalar.select c a b = b := by
  rw [eq_zero_of_ne_one h]
  exact select_zero a b

theorem select_real {c : BitVec 1} {a b : EReal} (ha : IsReal a) (hb : IsReal b) : IsReal (Scalar.select c a b) := by
  by_cases h : c = 1#1
  · rw [select_of_eq_one h]
    exact ha
  · rw [select_of_ne_one h]
    exact hb

/-! ## Suprema over the nodes -/

/-- A supremum over the 4096 nodes is one of its members. -/
theorem iSup_attained (f : Fin 4096 → EReal) : ∃ j, f j = ⨆ j, f j := exists_eq_ciSup_of_finite

/-- Where some place is selected and no value is negative, filling the unselected places with 0 or with ⊥ gives the same
    supremum. -/
theorem iSup_select_zero_eq_bot (c : Fin 4096 → BitVec 1) (g : Fin 4096 → EReal) (hg : ∀ j, 0 ≤ g j)
    (hc : ∃ j, c j = 1#1) :
    (⨆ j, Scalar.select (c j) (g j) 0) = ⨆ j, Scalar.select (c j) (g j) ⊥ := by
  obtain ⟨j0, hj0⟩ := hc
  have h0 : (0 : EReal) ≤ ⨆ j, Scalar.select (c j) (g j) ⊥ := by
    have this : Scalar.select (c j0) (g j0) ⊥ ≤ ⨆ j, Scalar.select (c j) (g j) ⊥ :=
      le_iSup (fun j => Scalar.select (c j) (g j) ⊥) j0
    rw [select_of_eq_one hj0] at this
    exact le_trans (hg j0) this
  apply le_antisymm
  · refine iSup_le fun j => ?_
    by_cases cj : c j = 1#1
    · have this : Scalar.select (c j) (g j) ⊥ ≤ ⨆ j, Scalar.select (c j) (g j) ⊥ :=
        le_iSup (fun j => Scalar.select (c j) (g j) ⊥) j
      rw [select_of_eq_one cj] at this
      rw [select_of_eq_one cj]
      exact this
    · rw [select_of_ne_one cj]
      exact h0
  · refine iSup_le fun j => ?_
    by_cases cj : c j = 1#1
    · have this : Scalar.select (c j) (g j) 0 ≤ ⨆ j, Scalar.select (c j) (g j) 0 :=
        le_iSup (fun j => Scalar.select (c j) (g j) 0) j
      rw [select_of_eq_one cj] at this
      rw [select_of_eq_one cj]
      exact this
    · rw [select_of_ne_one cj]
      exact bot_le

/-! ## The table's words 0 and 1 -/

theorem gt_zero : gt 0#32 = 0#1 := by decide

theorem gt_one : gt 1#32 = 1#1 := by decide

theorem num_zero : FloatOps.sitofp (F := Ideal) .bf16 (0#32 : BitVec 32) = (0 : EReal) := by
  have e : (0#32 : BitVec 32).toInt = 0 := by decide
  show ((((0#32 : BitVec 32).toInt : ℤ) : ℝ) : EReal) = 0
  rw [e]
  simp

theorem num_one : FloatOps.sitofp (F := Ideal) .bf16 (1#32 : BitVec 32) = (1 : EReal) := by
  have e : (1#32 : BitVec 32).toInt = 1 := by decide
  show ((((1#32 : BitVec 32).toInt : ℤ) : ℝ) : EReal) = 1
  rw [e]
  simp

/-! ## Rows of real numbers -/

theorem lin_real {x : (⟨2, ![4096, 128]⟩ : Shape).Idx → EReal} {w : (⟨2, ![128, 128]⟩ : Shape).Idx → EReal}
    (hx : Real x) (hw : Real w) (i : Fin 4096) (h : Fin 128) : IsReal (lin x w i h) :=
  IsReal.sum Finset.univ (fun d => x (ix2 i d) * w (ix2 h d)) fun d _ => IsReal.mul (hx (ix2 i d)) (hw (ix2 h d))

theorem rsum_real {w : (⟨2, ![128, 128]⟩ : Shape).Idx → EReal} (hw : Real w) (h : Fin 128) : IsReal (rsum w h) :=
  IsReal.sum Finset.univ (fun d => w (ix2 h d)) fun d _ => hw (ix2 h d)

/-- A real number times a row sum of real weights is the sum of the products. -/
theorem real_mul_rsum {s : EReal} (hs : IsReal s) {w : (⟨2, ![128, 128]⟩ : Shape).Idx → EReal} (hw : Real w)
    (h : Fin 128) : s * rsum w h = ∑ d : Fin 128, s * w (ix2 h d) :=
  real_mul_sum hs Finset.univ (fun d => w (ix2 h d)) fun d _ => hw (ix2 h d)

variable {I : In}

/-! ## Layer 0, side 2: the sum over the neighbours -/

theorem s2K_real (h : Ok I) (i : Fin 4096) : IsReal (s2K I i) :=
  IsReal.sum Finset.univ (fun j => Scalar.select (gt (I.a12 (ix2 i j))) (I.x1 (ix2 j 0)) 0) fun j _ =>
    select_real (h.x1 (ix2 j 0)) isReal_zero

/-- With no neighbour every summand is 0, so the guard of the reference changes nothing. -/
theorem s2R_eq (i : Fin 4096) : s2R I i = s2K I i := by
  unfold s2R
  by_cases hh : has2 I i
  · rw [if_pos hh]
  · rw [if_neg hh]
    unfold s2K
    symm
    apply Finset.sum_eq_zero
    intro j _
    exact select_of_ne_one (fun c => hh ⟨j, c⟩) _ _

theorem h2K_eq (h : Ok I) (i : Fin 4096) (hh : Fin 128) : h2K I i hh = h2R I i hh := by
  unfold h2K h2R
  rw [s2R_eq i, real_mul_rsum (s2K_real h i) h.w2n0]

theorem h2K_real (h : Ok I) (i : Fin 4096) (hh : Fin 128) : IsReal (h2K I i hh) :=
  IsReal.max (IsReal.add (lin_real h.x2 h.w2s0 i hh) (IsReal.mul (s2K_real h i) (rsum_real h.w2n0 hh))) isReal_zero

theorem g2K_eq (i : Fin 4096) : g2K I i = h2K I i 0 := rfl

theorem h2R_nonneg (i : Fin 4096) (hh : Fin 128) : 0 ≤ h2R I i hh := le_max_right _ _

/-! ## Layer 0, side 1: the maximum over the neighbours -/

/-- The maximum is one of its members: a real feature or ⊥. -/
theorem mx0K_real_or_bot (h : Ok I) (i : Fin 4096) : IsReal (mx0K I i) ∨ mx0K I i = ⊥ := by
  obtain ⟨j, hj⟩ := iSup_attained fun j => Scalar.select (gt (I.a21 (ix2 i j))) (I.x2 (ix2 j 0)) ⊥
  have e : mx0K I i = Scalar.select (gt (I.a21 (ix2 i j))) (I.x2 (ix2 j 0)) ⊥ := hj.symm
  rw [e]
  by_cases c : gt (I.a21 (ix2 i j)) = 1#1
  · left
    rw [select_of_eq_one c]
    exact h.x2 (ix2 j 0)
  · right
    exact select_of_ne_one c _ _

/-- The maximum is ⊥ exactly when the node has no neighbour. -/
theorem mx0K_eq_bot_iff (h : Ok I) (i : Fin 4096) : mx0K I i = ⊥ ↔ ¬has1 I i := by
  constructor
  · rintro hb ⟨j, hj⟩
    have hle : Scalar.select (gt (I.a21 (ix2 i j))) (I.x2 (ix2 j 0)) ⊥ ≤ mx0K I i :=
      le_iSup (fun j => Scalar.select (gt (I.a21 (ix2 i j))) (I.x2 (ix2 j 0)) ⊥) j
    rw [select_of_eq_one hj, hb] at hle
    obtain ⟨r, hr⟩ := h.x2 (ix2 j 0)
    rw [hr] at hle
    exact absurd (le_bot_iff.1 hle) (EReal.coe_ne_bot r)
  · intro hn
    have hall : ∀ j, Scalar.select (gt (I.a21 (ix2 i j))) (I.x2 (ix2 j 0)) ⊥ = ⊥ := fun j =>
      select_of_ne_one (fun c => hn ⟨j, c⟩) _ _
    exact (iSup_congr hall).trans iSup_bot

theorem s1K_real (h : Ok I) (i : Fin 4096) : IsReal (s1K I i) := by
  unfold s1K
  split_ifs with hb
  · exact isReal_zero
  · rcases mx0K_real_or_bot h i with hr | hb'
    · exact hr
    · exact absurd hb' hb

theorem s1R_eq (h : Ok I) (i : Fin 4096) : s1R I i = s1K I i := by
  unfold s1R s1K
  by_cases hh : has1 I i
  · rw [if_pos hh, if_neg (fun hb => (mx0K_eq_bot_iff h i).1 hb hh)]
  · rw [if_neg hh, if_pos ((mx0K_eq_bot_iff h i).2 hh)]

theorem h1K_eq (h : Ok I) (i : Fin 4096) (hh : Fin 128) : h1K I i hh = h1R I i hh := by
  unfold h1K h1R
  rw [s1R_eq h i, real_mul_rsum (s1K_real h i) h.w1n0]

theorem h1K_real (h : Ok I) (i : Fin 4096) (hh : Fin 128) : IsReal (h1K I i hh) :=
  IsReal.max (IsReal.add (lin_real h.x1 h.w1s0 i hh) (IsReal.mul (s1K_real h i) (rsum_real h.w1n0 hh))) isReal_zero

theorem g1K_eq (i : Fin 4096) : g1K I i = h1K I i 0 := rfl

theorem g1K_real (h : Ok I) (i : Fin 4096) : IsReal (g1K I i) := h1K_real h i 0

theorem g2K_real (h : Ok I) (i : Fin 4096) : IsReal (g2K I i) := h2K_real h i 0

/-! ## Layer 1, side 1: the maximum of the hidden feature -/

theorem s1pK_eq (h : Ok I) (i : Fin 4096) : s1pK I i = s1R' I i := by
  have hg : ∀ j, g2K I j = h2R I j 0 := fun j => (g2K_eq j).trans (h2K_eq h j 0)
  unfold s1R' s1pK
  by_cases hh : has1 I i
  · rw [if_pos hh]
    have e : (⨆ j, Scalar.select (gt (I.a21 (ix2 i j))) (g2K I j) 0)
        = ⨆ j, Scalar.select (gt (I.a21 (ix2 i j))) (h2R I j 0) 0 := iSup_congr fun j => by rw [hg j]
    rw [e]
    exact iSup_select_zero_eq_bot (fun j => gt (I.a21 (ix2 i j))) (fun j => h2R I j 0) (fun j => h2R_nonneg j 0) hh
  · rw [if_neg hh]
    have hall : ∀ j, Scalar.select (gt (I.a21 (ix2 i j))) (g2K I j) 0 = 0 := fun j =>
      select_of_ne_one (fun c => hh ⟨j, c⟩) _ _
    exact (iSup_congr hall).trans iSup_const

/-- The maximum is one of its members: a real hidden feature or 0. -/
theorem s1pK_real (h : Ok I) (i : Fin 4096) : IsReal (s1pK I i) := by
  obtain ⟨j, hj⟩ := iSup_attained fun j => Scalar.select (gt (I.a21 (ix2 i j))) (g2K I j) 0
  have e : s1pK I i = Scalar.select (gt (I.a21 (ix2 i j))) (g2K I j) 0 := hj.symm
  rw [e]
  exact select_real (g2K_real h j) isReal_zero

theorem s1R'_real (h : Ok I) (i : Fin 4096) : IsReal (s1R' I i) := by
  rw [← s1pK_eq h i]
  exact s1pK_real h i

/-! ## Layer 1, side 2: the table's numbers against the hidden column -/

/-- The number of a word that is 0 or 1, times x, is x where the mask bit is set and 0 elsewhere. -/
theorem mbfK_mul (h : Ok I) (i j : Fin 4096) (x : EReal) :
    mbfK I i j * x = Scalar.select (gt (I.a12 (ix2 i j))) x 0 := by
  unfold mbfK
  rcases h.a12 (ix2 i j) with e | e
  · rw [e, num_zero, gt_zero, select_zero, zero_mul]
  · rw [e, num_one, gt_one, select_one, one_mul]

theorem h1R_real (h : Ok I) (i : Fin 4096) (hh : Fin 128) : IsReal (h1R I i hh) := by
  rw [← h1K_eq h i hh]
  exact h1K_real h i hh

theorem s2pK_eq (h : Ok I) (i : Fin 4096) : s2pK I i = s2R' I i := by
  have hg : ∀ j, h1R I j 0 = g1K I j := fun j => ((g1K_eq j).trans (h1K_eq h j 0)).symm
  have h2 : (∑ j : Fin 4096, mbfK I i j * (g1K I j - g1K I j)) = 0 := by
    apply Finset.sum_eq_zero
    intro j _
    rw [sub_self_real (g1K_real h j), mul_zero]
  have h1 : (∑ j : Fin 4096, mbfK I i j * g1K I j)
      = ∑ j : Fin 4096, Scalar.select (gt (I.a12 (ix2 i j))) (g1K I j) 0 :=
    Finset.sum_congr rfl fun j _ => mbfK_mul h i j _
  unfold s2pK s2R'
  rw [h1, h2, add_zero]
  by_cases hh : has2 I i
  · rw [if_pos hh]
    exact Finset.sum_congr rfl fun j _ => by rw [hg j]
  · rw [if_neg hh]
    apply Finset.sum_eq_zero
    intro j _
    exact select_of_ne_one (fun c => hh ⟨j, c⟩) _ _

theorem s2R'_real (h : Ok I) (i : Fin 4096) : IsReal (s2R' I i) := by
  unfold s2R'
  split_ifs
  · exact IsReal.sum Finset.univ _ fun j _ => select_real (h1R_real h j 0) isReal_zero
  · exact isReal_zero

/-! ## The two outputs -/

theorem o1K_eq_o1R (I : In) (h : Ok I) (i : Fin 4096) (o : Fin 128) : o1K I i o = o1R I i o := by
  unfold o1K o1R
  rw [s1pK_eq h i, real_mul_rsum (s1R'_real h i) h.w1n1 o]
  congr 1
  exact Finset.sum_congr rfl fun hh _ => by rw [h1K_eq h i hh]

theorem o2K_eq_o2R (I : In) (h : Ok I) (i : Fin 4096) (o : Fin 128) : o2K I i o = o2R I i o := by
  unfold o2K o2R
  rw [s2pK_eq h i, real_mul_rsum (s2R'_real h i) h.w2n1 o]
  congr 1
  exact Finset.sum_congr rfl fun hh _ => by rw [h2K_eq h i hh]

end Cert.Dual

end
-- ==== Proof.PreOk.lean ====
/-
  The precondition read back.

  The printed precondition is one bit: for each of ten arrays of floats the conjunction over all entries of
  "|x| < +inf", these ten and-ed together, and-ed with the conjunction over all entries of the table a12 of
  "the word equals 0 or the word equals 1". When that bit is 1:

  * every conjunct is 1 (a bit-and is 1 exactly when both operands are);
  * a conjunction over all entries that is 1 has a 1 at every entry;
  * on the extended reals |x| = max x (-x), the pattern 0x7F800000 is the top element, and max x (-x) < top
    fails at both infinities, so an entry with the bit 1 is a real number;
  * an or of two bits is 1 exactly when one of them is, and the equality bit of two words is 1 exactly when the
    words are equal.

  Eight of the ten float conjuncts and the table conjunct are what the hypothesis bundle asks for.
-/
import proofs.«173209_g89215060672586_cont_9to1c4b_471_9_alg».proof.Proof.Spec
import proofs.«173209_g89215060672586_cont_9to1c4b_471_9_alg».proof.Pre_finite_inputs
import proofs.«173209_g89215060672586_cont_9to1c4b_471_9_alg».proof.Proof.Gen.Pre_finite_inputs
import Idealize.ShloMosaic.Lib.ReduceAll

noncomputable section

namespace Cert.Dual

open Idealize.ShloMosaic Idealize.ShloMosaic.ValueIdx

/-- The shape of a scalar has one index. -/
instance scalarIdxSubsingleton : Subsingleton (⟨0, ![]⟩ : Shape).Idx := ⟨fun a b => funext fun d => d.elim0⟩

/-- The pattern of +inf is the top element of the extended reals. -/
theorem ofBits_inf : Ideal.ofBits .f32 0x7F800000#32 = (⊤ : EReal) := by simp [Ideal.ofBits, Ideal.ieee]

/-- An extended real whose absolute value max x (-x) is below +inf is a real number. -/
theorem real_of_abs_lt_inf (x : EReal)
    (h : Ideal.cmp .olt (max x (-x)) (Ideal.ofBits .f32 0x7F800000#32) = 1#1) : ∃ r : ℝ, x = (r : EReal) := by
  rw [ofBits_inf] at h
  induction x using EReal.rec with
  | bot => simp [Ideal.cmp] at h
  | coe r => exact ⟨r, rfl⟩
  | top => simp [Ideal.cmp] at h

/-- One float conjunct, for an array of any shape: when the conjunction over all entries of "|x| < +inf" is 1,
    every entry is a real number. -/
theorem real_of_all_abs_lt_inf {s : Shape} {axes : List (Fin s.rank)} (x : s.Idx → EReal)
    (hb : (⟨0, ![]⟩ : Shape).BroadcastsInDim s (![] : Fin 0 → Fin s.rank))
    (hr : s.ReducesTo axes (⟨0, ![]⟩ : Shape)) (hu : 0 < (⟨0, ![]⟩ : Shape).numel)
    (init : (⟨0, ![]⟩ : Shape).Idx → BitVec 1) (j : (⟨0, ![]⟩ : Shape).Idx)
    (e : Host.reduce IntOp.andi
          (cmpf .olt (Host.absf (F := Ideal) (φ := .f32) x)
            (broadcastInDim s ![] hb (constant (F := Ideal) (⟨0, ![]⟩ : Shape) .f32 0x7F800000#32)))
          init hr hu j = 1#1) : Real x := by
  intro i
  have hi := Host.reduce_andi_all _ init hr hu j e i
  exact real_of_abs_lt_inf (x i) hi

/-- One entry of the table conjunct: the or of "the word equals 0" and "the word equals 1" is 1 exactly when the
    word is 0 or 1. -/
theorem zero_or_one_of_bit (v : BitVec 32)
    (h : IntOp.ori (IntOp.cmpi .eq v 0#32) (IntOp.cmpi .eq v 1#32) = 1#1) : v = 0#32 ∨ v = 1#32 := by
  rcases IntOp.ori_eq_one.1 h with h | h
  · exact Or.inl (IntOp.cmpi_eq.1 h)
  · exact Or.inr (IntOp.cmpi_eq.1 h)

/-- The table conjunct, for a table of any shape: when the conjunction over all entries of
    "the word equals 0 or the word equals 1" is 1, every word is 0 or 1. -/
theorem zero_or_one_of_all {s : Shape} {axes : List (Fin s.rank)} (a : s.Idx → BitVec 32)
    (hb : (⟨0, ![]⟩ : Shape).BroadcastsInDim s (![] : Fin 0 → Fin s.rank))
    (hr : s.ReducesTo axes (⟨0, ![]⟩ : Shape)) (hu : 0 < (⟨0, ![]⟩ : Shape).numel)
    (init : (⟨0, ![]⟩ : Shape).Idx → BitVec 1) (j : (⟨0, ![]⟩ : Shape).Idx)
    (e : Host.reduce IntOp.andi
          (ori (cmpi .eq a (broadcastInDim s ![] hb (constantI (⟨0, ![]⟩ : Shape) 32 0#32)))
               (cmpi .eq a (broadcastInDim s ![] hb (constantI (⟨0, ![]⟩ : Shape) 32 1#32))))
          init hr hu j = 1#1) : ∀ i, a i = 0#32 ∨ a i = 1#32 := by
  intro i
  have hi := Host.reduce_andi_all _ init hr hu j e i
  exact zero_or_one_of_bit (a i) hi

/-- The precondition gives the hypothesis bundle. -/
theorem ok_of_pre (I : In)
    (h : Cert.Pre_finite_inputs.fn (F := Ideal) I.x1 I.x2 I.a12 I.a21 I.w1s0 I.w1n0 I.w2s0 I.w2n0 I.w1s1 I.w1n1
          I.w2s1 I.w2n1 = (fun _ => 1#1)) : Ok I := by
  have e := congrFun h ix0
  dsimp only [Cert.Pre_finite_inputs.fn, Cert.Pre_finite_inputs.fn_part1, Cert.Pre_finite_inputs.fn_part2,
    Cert.Pre_finite_inputs.fn_part3, andi] at e
  simp only [IntOp.andi_eq_one] at e
  obtain ⟨⟨⟨⟨⟨⟨⟨⟨⟨⟨h0, h1⟩, h4⟩, h5⟩, h6⟩, h7⟩, -⟩, h9⟩, -⟩, h11⟩, h2⟩ := e
  exact
    { x1 := real_of_all_abs_lt_inf _ _ _ _ _ _ h0
      x2 := real_of_all_abs_lt_inf _ _ _ _ _ _ h1
      w1s0 := real_of_all_abs_lt_inf _ _ _ _ _ _ h4
      w1n0 := real_of_all_abs_lt_inf _ _ _ _ _ _ h5
      w2s0 := real_of_all_abs_lt_inf _ _ _ _ _ _ h6
      w2n0 := real_of_all_abs_lt_inf _ _ _ _ _ _ h7
      w1n1 := real_of_all_abs_lt_inf _ _ _ _ _ _ h9
      w2n1 := real_of_all_abs_lt_inf _ _ _ _ _ _ h11
      a12 := zero_or_one_of_all _ _ _ _ _ _ h2 }

end Cert.Dual

end
-- ==== Proof.Assemble.lean ====
/-
  The five claims of the certificate, put together.

  The two frame claims of the kernel are its generated frame runs. The reference's frame claim is its run with the
  results forgotten. The idealization's seventeen rewrites are each the rule's own statement: widening a narrowed value
  gives the value back on the extended reals. The algebraic claim: the kernel's run leaves its two result arrays at the two
  kernel-side formulas of the twelve launch arguments; the reference's run leaves its two at the reference-side formulas of
  ITS arguments, which are the kernel's (the memories agree); and under the precondition (every entry read is a real
  number, every word of the first table is 0 or 1) the kernel-side and reference-side formulas agree entry by entry.
-/
import proofs.«173209_g89215060672586_cont_9to1c4b_471_9_alg».proof.Defs
import proofs.«173209_g89215060672586_cont_9to1c4b_471_9_alg».proof.Proof.Gen.Kernel.Frame
import proofs.«173209_g89215060672586_cont_9to1c4b_471_9_alg».proof.Proof.Gen.KernelIdeal.Frame
import proofs.«173209_g89215060672586_cont_9to1c4b_471_9_alg».proof.Proof.Gen.ReferenceIdeal
import proofs.«173209_g89215060672586_cont_9to1c4b_471_9_alg».proof.Proof.Gen.Pre_finite_inputs
import proofs.«173209_g89215060672586_cont_9to1c4b_471_9_alg».proof.Proof.Spec
import proofs.«173209_g89215060672586_cont_9to1c4b_471_9_alg».proof.Proof.RefRunP
import proofs.«173209_g89215060672586_cont_9to1c4b_471_9_alg».proof.Proof.RefReadP
import proofs.«173209_g89215060672586_cont_9to1c4b_471_9_alg».proof.Proof.RefLayer0
import proofs.«173209_g89215060672586_cont_9to1c4b_471_9_alg».proof.Proof.RefLayer1
import proofs.«173209_g89215060672586_cont_9to1c4b_471_9_alg».proof.Proof.Agree
import proofs.«173209_g89215060672586_cont_9to1c4b_471_9_alg».proof.Proof.PreOk
import proofs.«173209_g89215060672586_cont_9to1c4b_471_9_alg».proof.Proof.KernelValue

noncomputable section

namespace Cert.Proof.Parts

open Idealize.ShloMosaic Idealize.ShloMosaic.TcCoe Idealize.SL.Sem

/-! ## What is taken from the two runs -/

/-- The kernel's run, read: the two result arrays at the two kernel-side formulas of the launch arguments, the
    arguments unchanged. -/
def KernelRuns : Prop :=
  ∀ (m : (ℓ : Loc Cert.KernelIdeal.nD Cert.KernelIdeal.τ Cert.KernelIdeal.sig) → Buf (Elt Ideal) ℓ) (ρ : Dev Cert.KernelIdeal.nD → PrngReg),
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
        r.2.mem ((c.tc : Thread Cert.KernelIdeal.nD Cert.KernelIdeal.τ).loc Cert.KernelIdeal.main_v8_2) = (fun i => Cert.Dual.o1K (Cert.Dual.K.inK m c) (i 0) (i 1))
        ∧ r.2.mem ((c.tc : Thread Cert.KernelIdeal.nD Cert.KernelIdeal.τ).loc Cert.KernelIdeal.main_v9) = (fun i => Cert.Dual.o2K (Cert.Dual.K.inK m c) (i 0) (i 1))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
        ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
        ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
        ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
        ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
        ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
        ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

/-- The reference's run, read: the two result arrays at the run's two terms of the launch arguments, the arguments
    unchanged. -/
def ReferenceRuns : Prop :=
  ∀ (m : (ℓ : Loc Cert.ReferenceIdeal.nD Cert.ReferenceIdeal.τ Cert.ReferenceIdeal.sig) → Buf (Elt Ideal) ℓ) (ρ : Dev Cert.ReferenceIdeal.nD → PrngReg),
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
        r.2.mem ((c.tc : Thread Cert.ReferenceIdeal.nD Cert.ReferenceIdeal.τ).loc Cert.ReferenceIdeal.main_v60) = Cert.ReferenceIdeal.ValueP.res_main_v60 m c
        ∧ r.2.mem ((c.tc : Thread Cert.ReferenceIdeal.nD Cert.ReferenceIdeal.τ).loc Cert.ReferenceIdeal.main_v65) = Cert.ReferenceIdeal.ValueP.res_main_v65 m c
        ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
        ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
        ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
        ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
        ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
        ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
        ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
        ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
        ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
        ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
        ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

/-! ## The frame claims and the idealization's ledger -/

theorem frame_k : Cert.frame_Kernel := fun m ρ _ => Cert.Kernel.Gen.frame m ρ

theorem frame_ki : Cert.frame_KernelIdeal := fun m ρ _ => Cert.KernelIdeal.Gen.frame m ρ

theorem frame_ri (refRun : ReferenceRuns) : Cert.frame_ReferenceIdeal := fun m ρ _ =>
  (θ_run Cert.ReferenceIdeal.defs _ _).mono (fun _ h c => (h c).2.2) (refRun m ρ)

/-- Each of the seventeen rewrites is the rule's statement at its site's shape: on the extended reals narrowing and
    widening are both the identity. -/
theorem preserves : Cert.preserves_Kernel_KernelIdeal :=
  ⟨IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16,
   IdealRules.truncf_extf.statement _ .f32 .bf16⟩

/-! ## The reference's two results as the reference-side formulas -/

/-- The reference's first result, from a memory that agrees with the kernel's on the arguments, is the kernel-side
    formula of the kernel's arguments. -/
theorem ref_out1 (I : Cert.Dual.In) (h : Cert.Dual.Ok I) :
    Cert.ReferenceIdeal.ReadP.val_main_v60 (F := Ideal) I.x1 I.x2 I.a12 I.a21 I.w1s0 I.w1n0 I.w2s0 I.w2n0 I.w1s1 I.w1n1
      = fun i => Cert.Dual.o1K I (i 0) (i 1) :=
  (Cert.Dual.Ref.layer1_side1 I (Cert.Dual.Ref.layer0_side1 I) (Cert.Dual.Ref.layer0_side2 I)).trans
    (funext fun i => (Cert.Dual.o1K_eq_o1R I h (i 0) (i 1)).symm)

theorem ref_out2 (I : Cert.Dual.In) (h : Cert.Dual.Ok I) :
    Cert.ReferenceIdeal.ReadP.val_main_v65 (F := Ideal) I.x1 I.x2 I.a12 I.a21 I.w1s0 I.w1n0 I.w2s0 I.w2n0 I.w2s1 I.w2n1
      = fun i => Cert.Dual.o2K I (i 0) (i 1) :=
  (Cert.Dual.Ref.layer1_side2 I (Cert.Dual.Ref.layer0_side1 I) (Cert.Dual.Ref.layer0_side2 I)).trans
    (funext fun i => (Cert.Dual.o2K_eq_o2R I h (i 0) (i 1)).symm)

/-! ## The algebraic claim -/

theorem algebraic (kRun : KernelRuns) (refRun : ReferenceRuns) : Cert.algebraic_KernelIdeal_ReferenceIdeal := by
  intro m ρ m' ρ' hpre hagree
  refine ⟨fun c => fun i => Cert.Dual.o1K (Cert.Dual.K.inK m c) (i 0) (i 1), fun c => fun i => Cert.Dual.o2K (Cert.Dual.K.inK m c) (i 0) (i 1),
    kRun m ρ, ?_⟩
  refine (θ_run Cert.ReferenceIdeal.defs _ _).mono (fun _ h c => ⟨(h c).1.trans ?_, (h c).2.1.trans ?_, (h c).2.2⟩) (refRun m' ρ')
  · have hok : Cert.Dual.Ok (Cert.Dual.K.inK m c) := Cert.Dual.ok_of_pre (Cert.Dual.K.inK m c) (hpre c)
    obtain ⟨a0, a1, a2, a3, a4, a5, a6, a7, a8, a9, a10, a11⟩ := hagree c
    rw [Cert.ReferenceIdeal.ReadP.val_main_v60_eq (F := Ideal) m' c, a0, a1, a2, a3, a4, a5, a6, a7, a8, a9]
    exact ref_out1 (Cert.Dual.K.inK m c) hok
  · have hok : Cert.Dual.Ok (Cert.Dual.K.inK m c) := Cert.Dual.ok_of_pre (Cert.Dual.K.inK m c) (hpre c)
    obtain ⟨a0, a1, a2, a3, a4, a5, a6, a7, a8, a9, a10, a11⟩ := hagree c
    rw [Cert.ReferenceIdeal.ReadP.val_main_v65_eq (F := Ideal) m' c, a0, a1, a2, a3, a4, a5, a6, a7, a10, a11]
    exact ref_out2 (Cert.Dual.K.inK m c) hok

/-- The five claims from the two runs. -/
theorem all (kRun : KernelRuns) (refRun : ReferenceRuns) :
    Cert.frame_Kernel ∧ Cert.frame_KernelIdeal ∧ Cert.frame_ReferenceIdeal ∧ Cert.preserves_Kernel_KernelIdeal
      ∧ Cert.algebraic_KernelIdeal_ReferenceIdeal :=
  ⟨frame_k, frame_ki, frame_ri refRun, preserves, algebraic kRun refRun⟩

end Cert.Proof.Parts

end
-- ==== Proof.lean ====
/- The certificate's five claims. Both programs compute two layers of a bipartite graph network over 4096 + 4096 nodes; the
   kernel does it in three phases of sixteen blocks of 256 rows, the reference array by array. Each phase's result arrays
   are read as formulas of the arrays the phase is handed, the formulas are chained into two formulas of the twelve
   arguments, the reference's 102 operations are read as two formulas of the same arguments, and where every entry read is a
   real number and every word of the first table is 0 or 1 the two pairs of formulas agree entry by entry. -/
import proofs.«173209_g89215060672586_cont_9to1c4b_471_9_alg».proof.Defs
import proofs.«173209_g89215060672586_cont_9to1c4b_471_9_alg».proof.Proof.Gen.Kernel
import proofs.«173209_g89215060672586_cont_9to1c4b_471_9_alg».proof.Proof.Gen.Kernel.Skeleton
import proofs.«173209_g89215060672586_cont_9to1c4b_471_9_alg».proof.Proof.Gen.Kernel.Launch
import proofs.«173209_g89215060672586_cont_9to1c4b_471_9_alg».proof.Proof.Gen.Kernel.Points
import proofs.«173209_g89215060672586_cont_9to1c4b_471_9_alg».proof.Proof.Gen.Kernel.Frame
import proofs.«173209_g89215060672586_cont_9to1c4b_471_9_alg».proof.Proof.Gen.KernelIdeal
import proofs.«173209_g89215060672586_cont_9to1c4b_471_9_alg».proof.Proof.Gen.KernelIdeal.Skeleton
import proofs.«173209_g89215060672586_cont_9to1c4b_471_9_alg».proof.Proof.Gen.KernelIdeal.Launch
import proofs.«173209_g89215060672586_cont_9to1c4b_471_9_alg».proof.Proof.Gen.KernelIdeal.Points
import proofs.«173209_g89215060672586_cont_9to1c4b_471_9_alg».proof.Proof.Gen.KernelIdeal.Frame
import proofs.«173209_g89215060672586_cont_9to1c4b_471_9_alg».proof.Proof.Gen.ReferenceIdeal
import proofs.«173209_g89215060672586_cont_9to1c4b_471_9_alg».proof.Proof.Gen.Pre_finite_inputs
import Idealize.ShloMosaic.Adequacy
import Idealize.ShloMosaic.Init
import proofs.«173209_g89215060672586_cont_9to1c4b_471_9_alg».proof.Proof.Phase0
import proofs.«173209_g89215060672586_cont_9to1c4b_471_9_alg».proof.Proof.Phase1
import proofs.«173209_g89215060672586_cont_9to1c4b_471_9_alg».proof.Proof.Phase1b
import proofs.«173209_g89215060672586_cont_9to1c4b_471_9_alg».proof.Proof.Phase2
import proofs.«173209_g89215060672586_cont_9to1c4b_471_9_alg».proof.Proof.KernelValue
import proofs.«173209_g89215060672586_cont_9to1c4b_471_9_alg».proof.Proof.RefRunP
import proofs.«173209_g89215060672586_cont_9to1c4b_471_9_alg».proof.Proof.RefRun
import proofs.«173209_g89215060672586_cont_9to1c4b_471_9_alg».proof.Proof.Assemble

noncomputable section

namespace Cert.Proof

open Idealize.ShloMosaic Idealize.SL.Sem Cert.Kernel

theorem claim : Cert.Claim := ⟨Cert.Kernel.Gen.facts, Cert.KernelIdeal.Gen.facts, Cert.ReferenceIdeal.Gen.facts, Cert.Pre_finite_inputs.Gen.facts,
  Cert.Proof.Parts.all
    (fun m ρ => Cert.Dual.K.kernel_value_run (fun V c => Cert.Dual.K.phaseA_s2 V c) (fun V c => Cert.Dual.K.phaseA_g2 V c)
      (fun V c => Cert.Dual.K.phaseA_mb V c) (fun V c => Cert.Dual.K.phaseB_g1 V c) (fun V c => Cert.Dual.K.phaseB_o1 V c)
      (fun V c => Cert.Dual.K.phaseC_o2 V c) m ρ)
    (fun m ρ => Cert.ReferenceIdeal.RunH.run (F := Ideal) m ρ)⟩

end Cert.Proof

end
